-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x128 : Shape := ⟨3, ![3, 128, 128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x16x128 : S_.BroadcastsInDim S3x16x128 (![] : Fin 0 → Fin S3x16x128.rank)
  reducesTo_S3x16x128_S_d0_1_2 : S3x16x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S3x128 .f32) (main_arg14 : FVec F S128x128 .f32) (main_arg15 : FVec F S128 .f32) (main_arg16 : FVec F S128x2 .f32) (main_arg17 : FVec F S2 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_v48 main_v49 main_v50

def fn_part1 {F : FTy → Type} [FloatOps F] (main_arg6 : FVec F S3x16x128 .f32) (main_arg7 : FVec F S3x128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x16x128 .f32 := Host.absf main_arg6
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x640000 32) (main_arg2 : FVec F S640000x16 .f32) (main_arg3 : IVec S50000 32) (main_arg4 : FVec F S64x128 .f32) (main_arg5 : FVec F S128 .f32) (main_arg6 : FVec F S3x16x128 .f32) (main_arg7 : FVec F S3x128 .f32) (main_arg8 : FVec F S3x128x128 .f32) (main_arg9 : FVec F S3x128 .f32) (main_arg10 : FVec F S3x128x128 .f32) (main_arg11 : FVec F S3x128 .f32) (main_arg12 : FVec F S3x128 .f32) (main_arg13 : FVec F S3x128 .f32) (main_arg14 : FVec F S128x128 .f32) (main_arg15 : FVec F S128 .f32) (main_arg16 : FVec F S128x2 .f32) (main_arg17 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x128 : Shape := ⟨3, ![3, 128, 128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S1x16x128 : Shape := ⟨3, ![1, 16, 128]⟩
abbrev S16x128 : Shape := ⟨2, ![16, 128]⟩
abbrev S8000x16 : Shape := ⟨2, ![8000, 16]⟩
abbrev S8000x128 : Shape := ⟨2, ![8000, 128]⟩
abbrev S1x128x128 : Shape := ⟨3, ![1, 128, 128]⟩
abbrev S50000x1 : Shape := ⟨2, ![50000, 1]⟩
abbrev S64x2 : Shape := ⟨2, ![64, 2]⟩
abbrev S1x2 : Shape := ⟨2, ![1, 2]⟩

abbrev nBuf : Space → Nat
  | .hbm => 208
  | .vmem => 90
  | .smem => 0
  | _ => 0

abbrev hbmTy0_0 (i : Nat) : BufTy := match i % 128 with
  | 0 => ⟨S50000x64, .f32⟩
  | 1 => ⟨S2x640000, .i32⟩
  | 2 => ⟨S640000x16, .f32⟩
  | 3 => ⟨S50000, .i32⟩
  | 4 => ⟨S64x128, .f32⟩
  | 5 => ⟨S128, .f32⟩
  | 6 => ⟨S3x16x128, .f32⟩
  | 7 => ⟨S3x128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S128x128, .f32⟩
  | 15 => ⟨S128, .f32⟩
  | 16 => ⟨S128x2, .f32⟩
  | 17 => ⟨S2, .f32⟩
  | 18 => ⟨S1x640000, .i32⟩
  | 19 => ⟨S640000, .i32⟩
  | 20 => ⟨S1x640000, .i32⟩
  | 21 => ⟨S640000, .i32⟩
  | 22 => ⟨S50000x128, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S1x16x128, .f32⟩
  | 33 => ⟨S16x128, .f32⟩
  | 34 => ⟨S1x128, .f32⟩
  | 35 => ⟨S128, .f32⟩
  | 36 => ⟨S640000x128, .f32⟩
  | 37 => ⟨S_, .f32⟩
  | 38 => ⟨S50000x128, .f32⟩
  | 39 => ⟨S640000x1, .i32⟩
  | 40 => ⟨S50000x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x128, .f32⟩
  | 48 => ⟨S128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S128, .f32⟩
  | 80 => ⟨S1x128, .f32⟩
  | 81 => ⟨S128, .f32⟩
  | 82 => ⟨S50000x128, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .f32⟩
  | 92 => ⟨S1x16x128, .f32⟩
  | 93 => ⟨S16x128, .f32⟩
  | 94 => ⟨S1x128, .f32⟩
  | 95 => ⟨S128, .f32⟩
  | 96 => ⟨S640000x128, .f32⟩
  | 97 => ⟨S_, .f32⟩
  | 98 => ⟨S50000x128, .f32⟩
  | 99 => ⟨S640000x1, .i32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S50000x128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S50000x64, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S128, .f32⟩
  | 12 => ⟨S1x128, .f32⟩
  | 13 => ⟨S128, .f32⟩
  | 14 => ⟨S50000x128, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S1x16x128, .f32⟩
  | 25 => ⟨S16x128, .f32⟩
  | 26 => ⟨S1x128, .f32⟩
  | 27 => ⟨S128, .f32⟩
  | 28 => ⟨S640000x128, .f32⟩
  | 29 => ⟨S_, .f32⟩
  | 30 => ⟨S50000x128, .f32⟩
  | 31 => ⟨S640000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S128, .f32⟩
  | 72 => ⟨S1x128, .f32⟩
  | 73 => ⟨S128, .f32⟩
  | 74 => ⟨S50000x128, .f32⟩
  | 75 => ⟨S_, .f32⟩
  | 76 => ⟨S64x128, .f32⟩
  | 77 => ⟨S50000x1, .i32⟩
  | 78 => ⟨S64x128, .f32⟩
  | 79 => ⟨S64x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S8000x16, .f32⟩
  | .local _ .vmem, ⟨7, _⟩ => ⟨S8000x16, .f32⟩
  | .local _ .vmem, ⟨8, _⟩ => ⟨S16x128, .f32⟩
  | .local _ .vmem, ⟨9, _⟩ => ⟨S128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S8000x16, .f32⟩
  | .local _ .vmem, ⟨33, _⟩ => ⟨S8000x16, .f32⟩
  | .local _ .vmem, ⟨34, _⟩ => ⟨S16x128, .f32⟩
  | .local _ .vmem, ⟨35, _⟩ => ⟨S128, .f32⟩
  | .local _ .vmem, ⟨36, _⟩ => ⟨S8000x128, .f32⟩
  | .local _ .vmem, ⟨37, _⟩ => ⟨S8000x128, .f32⟩
  | .local _ .vmem, ⟨38, _⟩ => ⟨S8000x128, .f32⟩
  | .local _ .vmem, ⟨39, _⟩ => ⟨S8000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128, .f32⟩
  | .local _ .vmem, ⟨53, _⟩ => ⟨S128, .f32⟩
  | .local _ .vmem, ⟨54, _⟩ => ⟨S128, .f32⟩
  | .local _ .vmem, ⟨55, _⟩ => ⟨S128, .f32⟩
  | .local _ .vmem, ⟨56, _⟩ => ⟨S5000x128, .f32⟩
  | .local _ .vmem, ⟨57, _⟩ => ⟨S5000x128, .f32⟩
  | .local _ .vmem, ⟨58, _⟩ => ⟨S8000x16, .f32⟩
  | .local _ .vmem, ⟨59, _⟩ => ⟨S8000x16, .f32⟩
  | .local _ .vmem, ⟨60, _⟩ => ⟨S16x128, .f32⟩
  | .local _ .vmem, ⟨61, _⟩ => ⟨S128, .f32⟩
  | .local _ .vmem, ⟨62, _⟩ => ⟨S8000x128, .f32⟩
  | .local _ .vmem, ⟨63, _⟩ => ⟨S8000x128, .f32⟩
  | .local _ .vmem, ⟨64, _⟩ => ⟨S8000x128, .f32⟩
  | .local _ .vmem, ⟨65, _⟩ => ⟨S8000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S128, .f32⟩
  | .local _ .vmem, ⟨72, _⟩ => ⟨S128x128, .f32⟩
  | .local _ .vmem, ⟨73, _⟩ => ⟨S128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128, .f32⟩
  | .local _ .vmem, ⟨79, _⟩ => ⟨S128, .f32⟩
  | .local _ .vmem, ⟨80, _⟩ => ⟨S128, .f32⟩
  | .local _ .vmem, ⟨81, _⟩ => ⟨S128, .f32⟩
  | .local _ .vmem, ⟨82, _⟩ => ⟨S5000x128, .f32⟩
  | .local _ .vmem, ⟨83, _⟩ => ⟨S5000x128, .f32⟩
  | .local _ .vmem, ⟨84, _⟩ => ⟨S64x128, .f32⟩
  | .local _ .vmem, ⟨85, _⟩ => ⟨S128x128, .f32⟩
  | .local _ .vmem, ⟨86, _⟩ => ⟨S128, .f32⟩
  | .local _ .vmem, ⟨87, _⟩ => ⟨S128x2, .f32⟩
  | .local _ .vmem, ⟨88, _⟩ => ⟨S2, .f32⟩
  | .local _ .vmem, ⟨89, _⟩ => ⟨S64x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_4 : Ref sig .tc := ⟨.hbm, 83, rfl⟩
abbrev main_v38 : Ref sig .tc := ⟨.hbm, 84, rfl⟩
abbrev main_v39 : Ref sig .tc := ⟨.hbm, 85, rfl⟩
abbrev main_c_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_6 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_7 : Ref sig .tc := ⟨.hbm, 110, rfl⟩
abbrev main_v62 : Ref sig .tc := ⟨.hbm, 111, rfl⟩
abbrev main_cst_8 : Ref sig .tc := ⟨.hbm, 112, rfl⟩
abbrev main_v63 : Ref sig .tc := ⟨.hbm, 113, rfl⟩
abbrev main_v64 : Ref sig .tc := ⟨.hbm, 114, rfl⟩
abbrev main_c_9 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_cst_1 : Ref sig .tc := ⟨.hbm, 126, rfl⟩
abbrev main_call1_v8 : Ref sig .tc := ⟨.hbm, 127, rfl⟩
abbrev main_call1_cst_2 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_cst_3 : Ref sig .tc := ⟨.hbm, 132, rfl⟩
abbrev main_call1_v12 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_c_10 : Ref sig .tc := ⟨.hbm, 143, rfl⟩
abbrev main_v71 : Ref sig .tc := ⟨.hbm, 144, rfl⟩
abbrev main_v72 : Ref sig .tc := ⟨.hbm, 145, rfl⟩
abbrev main_c_11 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_cst_12 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_13 : Ref sig .tc := ⟨.hbm, 170, rfl⟩
abbrev main_v95 : Ref sig .tc := ⟨.hbm, 171, rfl⟩
abbrev main_cst_14 : Ref sig .tc := ⟨.hbm, 172, rfl⟩
abbrev main_v96 : Ref sig .tc := ⟨.hbm, 173, rfl⟩
abbrev main_v97 : Ref sig .tc := ⟨.hbm, 174, rfl⟩
abbrev main_c_15 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_cst_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_cst_1 : Ref sig .tc := ⟨.hbm, 186, rfl⟩
abbrev main_call2_v8 : Ref sig .tc := ⟨.hbm, 187, rfl⟩
abbrev main_call2_cst_2 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_cst_3 : Ref sig .tc := ⟨.hbm, 192, rfl⟩
abbrev main_call2_v12 : Ref sig .tc := ⟨.hbm, 193, rfl⟩
abbrev main_call2_cst_4 : Ref sig .tc := ⟨.hbm, 194, rfl⟩
abbrev main_call2_call0_v0 : Ref sig .tc := ⟨.hbm, 195, rfl⟩
abbrev main_call2_call0_v1 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_16 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg6_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg5_0 : Ref sig .tc := ⟨.vmem, 73, rfl⟩
abbrev cc8_stg6_0 : Ref sig .tc := ⟨.vmem, 74, rfl⟩
abbrev cc8_stg6_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg5_1 : Ref sig .tc := ⟨.vmem, 83, rfl⟩
abbrev cc10_stg0_0 : Ref sig .tc := ⟨.vmem, 84, rfl⟩
abbrev cc10_stg1_0 : Ref sig .tc := ⟨.vmem, 85, rfl⟩
abbrev cc10_stg2_0 : Ref sig .tc := ⟨.vmem, 86, rfl⟩
abbrev cc10_stg3_0 : Ref sig .tc := ⟨.vmem, 87, rfl⟩
abbrev cc10_stg4_0 : Ref sig .tc := ⟨.vmem, 88, rfl⟩
abbrev cc10_stg5_0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem6_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem3_0 : DmaSem sig := 71
abbrev cc8_sem4_0 : DmaSem sig := 72
abbrev cc8_sem5_0 : DmaSem sig := 73
abbrev cc8_sem6_0 : DmaSem sig := 74
abbrev cc8_sem6_1 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem5_1 : DmaSem sig := 83
abbrev cc10_sem0_0 : DmaSem sig := 84
abbrev cc10_sem1_0 : DmaSem sig := 85
abbrev cc10_sem2_0 : DmaSem sig := 86
abbrev cc10_sem3_0 : DmaSem sig := 87
abbrev cc10_sem4_0 : DmaSem sig := 88
abbrev cc10_sem5_0 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S8000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x2 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000 : S_.BroadcastsInDim S640000 (![] : Fin 0 → Fin S640000.rank)
  bcast_S640000_S640000x1_0 : S640000.BroadcastsInDim S640000x1 (![0] : Fin 1 → Fin S640000x1.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S128_S128 : S128.ShapeCasts S128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S64x128 : S_.BroadcastsInDim S64x128 (![] : Fin 0 → Fin S64x128.rank)
  bcast_S50000_S50000x1_0 : S50000.BroadcastsInDim S50000x1 (![0] : Fin 1 → Fin S50000x1.rank)
  shapeCasts_S64x128_S64x128 : S64x128.ShapeCasts S64x128
  broadcasts_S1x128_S64x128 : S1x128.Broadcasts S64x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  dot_S5000x64_S64x128_S5000x128_1_0_0_1_n_n_wf : DotDims.WF S5000x64 S64x128 S5000x128 [1] [0] [0] [1] [] []
  gather_S50000x128_S640000x1_S640000x128_1_0_n_n_0_1_1128_wf : GatherDims.WF S50000x128 S640000x1 S640000x128 [1] [0] [] [0] [] 1 ![1, 128]
  dot_S8000x16_S16x128_S8000x128_1_0_0_1_n_n_wf : DotDims.WF S8000x16 S16x128 S8000x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S640000x16.size a
  hwx1_0 : ∀ i : grid1.Coords, EltTy.bits .f32 = 32 ∨ (Rect.block (s := S640000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S640000x128.size a
  hwx1_4 : ∀ i : grid1.Coords, EltTy.bits .f32 = 32 ∨ (Rect.block (s := S640000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S640000x16.size a
  hwx4_0 : ∀ i : grid4.Coords, EltTy.bits .f32 = 32 ∨ (Rect.block (s := S640000x16) S8000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x128.size a ≤ S16x128.size a
  hwx4_1 : ∀ i : grid4.Coords, EltTy.bits .f32 = 32 ∨ (Rect.block (s := S16x128) S16x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x128.size a ≤ S640000x128.size a
  hwx4_3 : ∀ i : grid4.Coords, EltTy.bits .f32 = 32 ∨ (Rect.block (s := S640000x128) S8000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x128.size a ≤ S640000x128.size a
  hwx4_4 : ∀ i : grid4.Coords, EltTy.bits .f32 = 32 ∨ (Rect.block (s := S640000x128) S8000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x16.size a ≤ S640000x16.size a
  hwx7_0 : ∀ i : grid7.Coords, EltTy.bits .f32 = 32 ∨ (Rect.block (s := S640000x16) S8000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16x128.size a ≤ S16x128.size a
  hwx7_1 : ∀ i : grid7.Coords, EltTy.bits .f32 = 32 ∨ (Rect.block (s := S16x128) S16x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x128.size a ≤ S640000x128.size a
  hwx7_3 : ∀ i : grid7.Coords, EltTy.bits .f32 = 32 ∨ (Rect.block (s := S640000x128) S8000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S8000x128.size a ≤ S640000x128.size a
  hwx7_4 : ∀ i : grid7.Coords, EltTy.bits .f32 = 32 ∨ (Rect.block (s := S640000x128) S8000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128.size a ≤ S128.size a
  hwx8_5 : ∀ i : grid8.Coords, EltTy.bits .f32 = 32 ∨ (Rect.block (s := S128) S128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128.size a ≤ S128.size a
  hwx9_1 : ∀ i : grid9.Coords, EltTy.bits .f32 = 32 ∨ (Rect.block (s := S128) S128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S64x128.size a ≤ S64x128.size a
  hwx10_0 : ∀ i : grid10.Coords, EltTy.bits .f32 = 32 ∨ (Rect.block (s := S64x128) S64x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128.size a ≤ S128.size a
  hwx10_2 : ∀ i : grid10.Coords, EltTy.bits .f32 = 32 ∨ (Rect.block (s := S128) S128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x2.size a ≤ S128x2.size a
  hwx10_3 : ∀ i : grid10.Coords, EltTy.bits .f32 = 32 ∨ (Rect.block (s := S128x2) S128x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S2.size a ≤ S2.size a
  hwx10_4 : ∀ i : grid10.Coords, EltTy.bits .f32 = 32 ∨ (Rect.block (s := S2) S2.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x2.size a ≤ S64x2.size a
  hwx10_5 : ∀ i : grid10.Coords, EltTy.bits .f32 = 32 ∨ (Rect.block (s := S64x2) S64x2.size (cc10_transform_5 i) (hinb10_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg2) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S16x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S8000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v49) S8000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v37) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v61) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v61) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v69) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg2) S8000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S16x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v81) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S8000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v82) S8000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v70) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v85) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v87) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v89) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v91) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v93) S128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v94) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v94) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v97) S128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v98) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v100) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v102) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v103) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v106) S64x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg15) S128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg16) S128x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg17) S2.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v107) S64x2.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x64 : Shape := ⟨2, ![50000, 64]⟩
abbrev S2x640000 : Shape := ⟨2, ![2, 640000]⟩
abbrev S640000x16 : Shape := ⟨2, ![640000, 16]⟩
abbrev S50000 : Shape := ⟨1, ![50000]⟩
abbrev S64x128 : Shape := ⟨2, ![64, 128]⟩
abbrev S128 : Shape := ⟨1, ![128]⟩
abbrev S3x16x128 : Shape := ⟨3, ![3, 16, 128]⟩
abbrev S3x128 : Shape := ⟨2, ![3, 128]⟩
abbrev S3x128x128 : Shape := ⟨3, ![3, 128, 128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S50000x128 : Shape := ⟨2, ![50000, 128]⟩
abbrev S1x128 : Shape := ⟨2, ![1, 128]⟩
abbrev S1x16x128 : Shape := ⟨3, ![1, 16, 128]⟩
abbrev S16x128 : Shape := ⟨2, ![16, 128]⟩
abbrev S640000x128 : Shape := ⟨2, ![640000, 128]⟩
abbrev S_ : Shape := ⟨0, ![]⟩
abbrev S640000x1 : Shape := ⟨2, ![640000, 1]⟩
abbrev S1x128x128 : Shape := ⟨3, ![1, 128, 128]⟩
abbrev S50000x1 : Shape := ⟨2, ![50000, 1]⟩
abbrev S64x2 : Shape := ⟨2, ![64, 2]⟩
abbrev S1x2 : Shape := ⟨2, ![1, 2]⟩

abbrev nBuf : Space → Nat
  | .hbm => 329
  | .vmem => 0
  | .smem => 0
  | _ => 0

abbrev hbmTy0_0 (i : Nat) : BufTy := match i % 128 with
  | 0 => ⟨S50000x64, .f32⟩
  | 1 => ⟨S2x640000, .i32⟩
  | 2 => ⟨S640000x16, .f32⟩
  | 3 => ⟨S50000, .i32⟩
  | 4 => ⟨S64x128, .f32⟩
  | 5 => ⟨S128, .f32⟩
  | 6 => ⟨S3x16x128, .f32⟩
  | 7 => ⟨S3x128, .f32⟩
  | 8 => ⟨S3x128x128, .f32⟩
  | 9 => ⟨S3x128, .f32⟩
  | 10 => ⟨S3x128x128, .f32⟩
  | 11 => ⟨S3x128, .f32⟩
  | 12 => ⟨S3x128, .f32⟩
  | 13 => ⟨S3x128, .f32⟩
  | 14 => ⟨S128x128, .f32⟩
  | 15 => ⟨S128, .f32⟩
  | 16 => ⟨S128x2, .f32⟩
  | 17 => ⟨S2, .f32⟩
  | 18 => ⟨S1x640000, .i32⟩
  | 19 => ⟨S640000, .i32⟩
  | 20 => ⟨S1x640000, .i32⟩
  | 21 => ⟨S640000, .i32⟩
  | 22 => ⟨S50000x128, .f32⟩
  | 23 => ⟨S1x128, .f32⟩
  | 24 => ⟨S50000x128, .f32⟩
  | 25 => ⟨S50000x128, .f32⟩
  | 26 => ⟨S1x16x128, .f32⟩
  | 27 => ⟨S16x128, .f32⟩
  | 28 => ⟨S640000x128, .f32⟩
  | 29 => ⟨S1x128, .f32⟩
  | 30 => ⟨S128, .f32⟩
  | 31 => ⟨S1x128, .f32⟩
  | 32 => ⟨S640000x128, .f32⟩
  | 33 => ⟨S640000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S640000x128, .f32⟩
  | 44 => ⟨S_, .f32⟩
  | 45 => ⟨S640000x128, .f32⟩
  | 46 => ⟨S640000x128, .f32⟩
  | 47 => ⟨S_, .f32⟩
  | 48 => ⟨S50000x128, .f32⟩
  | 49 => ⟨S640000x1, .i32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x16x128, .f32⟩
  | 123 => ⟨S16x128, .f32⟩
  | 124 => ⟨S640000x128, .f32⟩
  | 125 => ⟨S1x128, .f32⟩
  | 126 => ⟨S128, .f32⟩
  | 127 => ⟨S1x128, .f32⟩
  | _ => ⟨S50000x64, .f32⟩

abbrev hbmTy0_1 (i : Nat) : BufTy := match i % 128 with
  | 0 => ⟨S640000x128, .f32⟩
  | 1 => ⟨S640000x128, .f32⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000x128, .f32⟩
  | 11 => ⟨S640000x128, .f32⟩
  | 12 => ⟨S_, .f32⟩
  | 13 => ⟨S640000x128, .f32⟩
  | 14 => ⟨S640000x128, .f32⟩
  | 15 => ⟨S_, .f32⟩
  | 16 => ⟨S50000x128, .f32⟩
  | 17 => ⟨S640000x1, .i32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S1x16x128, .f32⟩
  | 91 => ⟨S16x128, .f32⟩
  | 92 => ⟨S640000x128, .f32⟩
  | 93 => ⟨S1x128, .f32⟩
  | 94 => ⟨S128, .f32⟩
  | 95 => ⟨S1x128, .f32⟩
  | 96 => ⟨S640000x128, .f32⟩
  | 97 => ⟨S640000x128, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x128, .f32⟩
  | 108 => ⟨S_, .f32⟩
  | 109 => ⟨S640000x128, .f32⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S50000x64, .f32⟩

abbrev hbmTy0_2 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S64x128, .f32⟩
  | 60 => ⟨S50000x1, .i32⟩
  | 61 => ⟨S64x128, .f32⟩
  | 62 => ⟨S64x128, .f32⟩
  | 63 => ⟨S1x128, .f32⟩
  | 64 => ⟨S64x128, .f32⟩
  | 65 => ⟨S64x128, .f32⟩
  | 66 => ⟨S_, .f32⟩
  | 67 => ⟨S64x128, .f32⟩
  | 68 => ⟨S64x128, .f32⟩
  | 69 => ⟨S64x2, .f32⟩
  | 70 => ⟨S1x2, .f32⟩
  | 71 => ⟨S64x2, .f32⟩
  | 72 => ⟨S64x2, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_cst : Ref sig .tc := ⟨.hbm, 44, rfl⟩
abbrev main_call0_v0 : Ref sig .tc := ⟨.hbm, 45, rfl⟩
abbrev main_v24 : Ref sig .tc := ⟨.hbm, 46, rfl⟩
abbrev main_cst : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_1 : Ref sig .tc := ⟨.hbm, 71, rfl⟩
abbrev main_v46 : Ref sig .tc := ⟨.hbm, 72, rfl⟩
abbrev main_cst_2 : Ref sig .tc := ⟨.hbm, 73, rfl⟩
abbrev main_v47 : Ref sig .tc := ⟨.hbm, 74, rfl⟩
abbrev main_v48 : Ref sig .tc := ⟨.hbm, 75, rfl⟩
abbrev main_c_3 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_4 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_call3_cst : Ref sig .tc := ⟨.hbm, 119, rfl⟩
abbrev main_call3_v0 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_5 : Ref sig .tc := ⟨.hbm, 130, rfl⟩
abbrev main_v78 : Ref sig .tc := ⟨.hbm, 131, rfl⟩
abbrev main_v79 : Ref sig .tc := ⟨.hbm, 132, rfl⟩
abbrev main_c_6 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_call4_cst : Ref sig .tc := ⟨.hbm, 140, rfl⟩
abbrev main_call4_v0 : Ref sig .tc := ⟨.hbm, 141, rfl⟩
abbrev main_v86 : Ref sig .tc := ⟨.hbm, 142, rfl⟩
abbrev main_cst_7 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_call5_cst : Ref sig .tc := ⟨.hbm, 156, rfl⟩
abbrev main_call5_v0 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_8 : Ref sig .tc := ⟨.hbm, 167, rfl⟩
abbrev main_v108 : Ref sig .tc := ⟨.hbm, 168, rfl⟩
abbrev main_cst_9 : Ref sig .tc := ⟨.hbm, 169, rfl⟩
abbrev main_v109 : Ref sig .tc := ⟨.hbm, 170, rfl⟩
abbrev main_v110 : Ref sig .tc := ⟨.hbm, 171, rfl⟩
abbrev main_c_10 : Ref sig .tc := ⟨.hbm, 172, rfl⟩
abbrev main_call6_cst : Ref sig .tc := ⟨.hbm, 173, rfl⟩
abbrev main_call6_v0 : Ref sig .tc := ⟨.hbm, 174, rfl⟩
abbrev main_call6_v1 : Ref sig .tc := ⟨.hbm, 175, rfl⟩
abbrev main_call6_cst_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_v5 : Ref sig .tc := ⟨.hbm, 180, rfl⟩
abbrev main_call6_v6 : Ref sig .tc := ⟨.hbm, 181, rfl⟩
abbrev main_call6_v7 : Ref sig .tc := ⟨.hbm, 182, rfl⟩
abbrev main_call6_cst_1 : Ref sig .tc := ⟨.hbm, 183, rfl⟩
abbrev main_call6_v8 : Ref sig .tc := ⟨.hbm, 184, rfl⟩
abbrev main_call6_cst_2 : Ref sig .tc := ⟨.hbm, 185, rfl⟩
abbrev main_call6_v9 : Ref sig .tc := ⟨.hbm, 186, rfl⟩
abbrev main_call6_v10 : Ref sig .tc := ⟨.hbm, 187, rfl⟩
abbrev main_call6_v11 : Ref sig .tc := ⟨.hbm, 188, rfl⟩
abbrev main_call6_cst_3 : Ref sig .tc := ⟨.hbm, 189, rfl⟩
abbrev main_call6_v12 : Ref sig .tc := ⟨.hbm, 190, rfl⟩
abbrev main_call6_cst_4 : Ref sig .tc := ⟨.hbm, 191, rfl⟩
abbrev main_call6_call0_v0 : Ref sig .tc := ⟨.hbm, 192, rfl⟩
abbrev main_call6_call0_v1 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_cst_11 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_call7_cst : Ref sig .tc := ⟨.hbm, 215, rfl⟩
abbrev main_call7_v0 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_c_12 : Ref sig .tc := ⟨.hbm, 226, rfl⟩
abbrev main_v140 : Ref sig .tc := ⟨.hbm, 227, rfl⟩
abbrev main_v141 : Ref sig .tc := ⟨.hbm, 228, rfl⟩
abbrev main_c_13 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_call8_cst : Ref sig .tc := ⟨.hbm, 236, rfl⟩
abbrev main_call8_v0 : Ref sig .tc := ⟨.hbm, 237, rfl⟩
abbrev main_v148 : Ref sig .tc := ⟨.hbm, 238, rfl⟩
abbrev main_cst_14 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_call9_cst : Ref sig .tc := ⟨.hbm, 252, rfl⟩
abbrev main_call9_v0 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_15 : Ref sig .tc := ⟨.hbm, 263, rfl⟩
abbrev main_v170 : Ref sig .tc := ⟨.hbm, 264, rfl⟩
abbrev main_cst_16 : Ref sig .tc := ⟨.hbm, 265, rfl⟩
abbrev main_v171 : Ref sig .tc := ⟨.hbm, 266, rfl⟩
abbrev main_v172 : Ref sig .tc := ⟨.hbm, 267, rfl⟩
abbrev main_c_17 : Ref sig .tc := ⟨.hbm, 268, rfl⟩
abbrev main_call10_cst : Ref sig .tc := ⟨.hbm, 269, rfl⟩
abbrev main_call10_v0 : Ref sig .tc := ⟨.hbm, 270, rfl⟩
abbrev main_call10_v1 : Ref sig .tc := ⟨.hbm, 271, rfl⟩
abbrev main_call10_cst_0 : Ref sig .tc := ⟨.hbm, 272, rfl⟩
abbrev main_call10_v2 : Ref sig .tc := ⟨.hbm, 273, rfl⟩
abbrev main_call10_v3 : Ref sig .tc := ⟨.hbm, 274, rfl⟩
abbrev main_call10_v4 : Ref sig .tc := ⟨.hbm, 275, rfl⟩
abbrev main_call10_v5 : Ref sig .tc := ⟨.hbm, 276, rfl⟩
abbrev main_call10_v6 : Ref sig .tc := ⟨.hbm, 277, rfl⟩
abbrev main_call10_v7 : Ref sig .tc := ⟨.hbm, 278, rfl⟩
abbrev main_call10_cst_1 : Ref sig .tc := ⟨.hbm, 279, rfl⟩
abbrev main_call10_v8 : Ref sig .tc := ⟨.hbm, 280, rfl⟩
abbrev main_call10_cst_2 : Ref sig .tc := ⟨.hbm, 281, rfl⟩
abbrev main_call10_v9 : Ref sig .tc := ⟨.hbm, 282, rfl⟩
abbrev main_call10_v10 : Ref sig .tc := ⟨.hbm, 283, rfl⟩
abbrev main_call10_v11 : Ref sig .tc := ⟨.hbm, 284, rfl⟩
abbrev main_call10_cst_3 : Ref sig .tc := ⟨.hbm, 285, rfl⟩
abbrev main_call10_v12 : Ref sig .tc := ⟨.hbm, 286, rfl⟩
abbrev main_call10_cst_4 : Ref sig .tc := ⟨.hbm, 287, rfl⟩
abbrev main_call10_call0_v0 : Ref sig .tc := ⟨.hbm, 288, rfl⟩
abbrev main_call10_call0_v1 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_cst_18 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_call11_cst : Ref sig .tc := ⟨.hbm, 311, rfl⟩
abbrev main_call11_v0 : Ref sig .tc := ⟨.hbm, 312, rfl⟩
abbrev main_v193 : Ref sig .tc := ⟨.hbm, 313, rfl⟩
abbrev main_cst_19 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_call12_cst : Ref sig .tc := ⟨.hbm, 322, rfl⟩
abbrev main_call12_v0 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S64x128 : S_.BroadcastsInDim S64x128 (![] : Fin 0 → Fin S64x128.rank)
  bcast_S50000_S50000x1_0 : S50000.BroadcastsInDim S50000x1 (![0] : Fin 1 → Fin S50000x1.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x64_S64x128_S50000x128_1_0_0_1_n_n_wf : DotDims.WF S50000x64 S64x128 S50000x128 [1] [0] [0] [1] [] []
  dot_S640000x16_S16x128_S640000x128_1_0_0_1_n_n_wf : DotDims.WF S640000x16 S16x128 S640000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«173900_j6880537608212_1_alg».proof.Proof.LibMatmul
import proofs.«173900_j6880537608212_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.LibRowBias.lean ====
/-
  A bias added along the rows of a matrix, read at an entry at any sizes over the extended reals: entry (p, q) of the
  result is a (p, q) + b q. The host spells it with two broadcasts (the vector to a [1, f] row, the row along every row of
  the [n, f] matrix) and one add; a vector unit spells the row with a cast [f] -> [1, f] and a broadcast [1, f] -> [n, f].
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

/-- a + b along the rows: entry (p, q) is a (p, q) + b q. -/
def rowBias {n f : Nat} (a : FVec Ideal ⟨2, ![n, f]⟩ .f32) (b : FVec Ideal ⟨1, ![f]⟩ .f32) : FVec Ideal ⟨2, ![n, f]⟩ .f32 :=
  fun i => a i + b (ix1 (n := f) (i 1))

theorem rowBias_apply {n f : Nat} (a : FVec Ideal ⟨2, ![n, f]⟩ .f32) (b : FVec Ideal ⟨1, ![f]⟩ .f32) (p : Fin n) (q : Fin f) :
    rowBias a b (ix2 p q) = a (ix2 p q) + b (ix1 q) := rfl

/-- The host's two broadcasts of a vector [f], to the row [1, f] and then along the rows of [n, f], read at (p, q): the
    vector's entry q. -/
theorem host_row_apply {α : Type} {n f : Nat} (b : (⟨1, ![f]⟩ : Shape).Idx → α)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) (p : Fin n) (q : Fin f) :
    broadcastInDim ⟨2, ![n, f]⟩ ![0, 1] h4 (broadcastInDim ⟨2, ![1, f]⟩ ![1] h3 b) (ix2 p q) = b (ix1 q) := by
  refine (broadcastInDim_apply _ h4 _ (ix2 p q) (ix2 (0 : Fin 1) q) fun a => ?_).trans
    (broadcastInDim_apply _ h3 b (ix2 (0 : Fin 1) q) (ix1 q) fun a => ?_)
  · match a with
    | ⟨0, _⟩ => rfl
    | ⟨1, _⟩ =>
      show q.val = if f = 1 then 0 else q.val
      split
      · have := q.isLt; omega
      · rfl
  · match a with
    | ⟨0, _⟩ =>
      show q.val = if f = 1 then 0 else q.val
      split
      · have := q.isLt; omega
      · rfl

/-- The host's spelling of the bias along the rows is `rowBias`. -/
theorem host_rowBias {n f : Nat} (a : FVec Ideal ⟨2, ![n, f]⟩ .f32) (b : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf a (broadcastInDim ⟨2, ![n, f]⟩ ![0, 1] h4 (broadcastInDim ⟨2, ![1, f]⟩ ![1] h3 b)) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [host_row_apply]

end Cert.LibRowBias

end
-- ==== Proof.LibRowLocal.lean ====
/-
  Row-local functions of matrices over the extended reals, at any sizes: the product x w at entry i reads only row i 0 of
  x and column i 1 of w; the bias along the rows reads a at i and b at i 1; the clamp reads v at i. So two such values
  are equal as soon as the entries they read are: this is how a row block of a blocked computation is identified with
  the rows of the whole-array function. Also the two-layer head (product, bias, clamp, product, bias) and its congruence.
-/
import Idealize.ShloMosaic.PureOps.Ideal.Laws
import Idealize.ShloMosaic.Lib.ValueIdx
import proofs.«173900_j6880537608212_1_alg».proof.Proof.LibLayer
import proofs.«173900_j6880537608212_1_alg».proof.Proof.LibRowBias

noncomputable section

namespace Cert.LibRowLocal

open Idealize.ShloMosaic Idealize.ShloMosaic.ValueIdx
open Cert.Gcn (prod clamp)
open Cert.LibRowBias (rowBias)

/-- Two products agree at entries whose rows of the left operands and columns of the right operands agree. -/
theorem prod_congr {M M' K N : Nat} (x : FVec Ideal ⟨2, ![M, K]⟩ .f32) (X : FVec Ideal ⟨2, ![M', K]⟩ .f32)
    (w W : FVec Ideal ⟨2, ![K, N]⟩ .f32) (i : (⟨2, ![M, N]⟩ : Shape).Idx) (I : (⟨2, ![M', N]⟩ : Shape).Idx)
    (hx : ∀ k : Fin K, x (ix2 (n0 := M) (i 0) k) = X (ix2 (n0 := M') (I 0) k))
    (hw : ∀ k : Fin K, w (ix2 (n1 := N) k (i 1)) = W (ix2 (n1 := N) k (I 1))) :
    prod x w i = prod X W I := by
  show ∑ k : Fin K, x (ix2 (n0 := M) (i 0) k) * w (ix2 (n1 := N) k (i 1)) = ∑ k : Fin K, X (ix2 (n0 := M') (I 0) k) * W (ix2 (n1 := N) k (I 1))
  exact Finset.sum_congr rfl fun k _ => by rw [hx k, hw k]

/-- Two biased matrices agree at entries where the matrices agree and the biases agree at the column. -/
theorem rowBias_congr {n n' f : Nat} (a : FVec Ideal ⟨2, ![n, f]⟩ .f32) (A : FVec Ideal ⟨2, ![n', f]⟩ .f32)
    (b B : FVec Ideal ⟨1, ![f]⟩ .f32) (i : (⟨2, ![n, f]⟩ : Shape).Idx) (I : (⟨2, ![n', f]⟩ : Shape).Idx)
    (ha : a i = A I) (hb : b (ix1 (n := f) (i 1)) = B (ix1 (n := f) (I 1))) : rowBias a b i = rowBias A B I := by
  show a i + b (ix1 (n := f) (i 1)) = A I + B (ix1 (n := f) (I 1))
  rw [ha, hb]

/-- Two clamps agree where their operands agree. -/
theorem clamp_congr {s s' : Shape} (v : FVec Ideal s .f32) (V : FVec Ideal s' .f32) (i : s.Idx) (I : s'.Idx)
    (h : v i = V I) : clamp v i = clamp V I := by
  show max (v i) _ = max (V I) _
  rw [h]

/-- The two-layer head: product, bias along the rows, clamp at zero, product, bias along the rows. -/
def head {n a b c : Nat} (h : FVec Ideal ⟨2, ![n, a]⟩ .f32) (w3 : FVec Ideal ⟨2, ![a, b]⟩ .f32) (b3 : FVec Ideal ⟨1, ![b]⟩ .f32)
    (w4 : FVec Ideal ⟨2, ![b, c]⟩ .f32) (b4 : FVec Ideal ⟨1, ![c]⟩ .f32) : FVec Ideal ⟨2, ![n, c]⟩ .f32 :=
  rowBias (prod (clamp (rowBias (prod h w3) b3)) w4) b4

/-- Two heads over the same weights agree at entries of the same column whose rows of the inputs agree. -/
theorem head_congr {n n' a b c : Nat} (h : FVec Ideal ⟨2, ![n, a]⟩ .f32) (H : FVec Ideal ⟨2, ![n', a]⟩ .f32)
    (w3 : FVec Ideal ⟨2, ![a, b]⟩ .f32) (b3 : FVec Ideal ⟨1, ![b]⟩ .f32) (w4 : FVec Ideal ⟨2, ![b, c]⟩ .f32) (b4 : FVec Ideal ⟨1, ![c]⟩ .f32)
    (i : (⟨2, ![n, c]⟩ : Shape).Idx) (I : (⟨2, ![n', c]⟩ : Shape).Idx)
    (hh : ∀ k : Fin a, h (ix2 (n0 := n) (i 0) k) = H (ix2 (n0 := n') (I 0) k)) (h1 : i 1 = I 1) :
    head h w3 b3 w4 b4 i = head H w3 b3 w4 b4 I := by
  unfold head
  refine rowBias_congr _ _ _ _ i I ?_ (by rw [h1])
  refine prod_congr _ _ _ _ i I (fun j => ?_) (fun j => by rw [h1])
  refine clamp_congr _ _ _ _ ?_
  refine rowBias_congr _ _ _ _ _ _ ?_ rfl
  exact prod_congr _ _ _ _ _ _ hh (fun k => rfl)

end Cert.LibRowLocal

end
-- ==== Proof.Spec.lean ====
/-
  What both programs compute, as one function of the argument arrays over the extended reals.

  A graph network of three layers on 50000 nodes with 640000 directed edges. The node features are first encoded,
  h = x · W + b. A layer sends along every edge the clamp at zero of the source node's row plus an affine image of the
  edge's attributes, sums the messages arriving at each node, adds the node's own row, applies a two-layer perceptron
  (product, bias, clamp, product, bias), and normalises every column by its mean and variance over the nodes:
  clamp (gamma · (z - mean) · rsqrt (var + eps) + beta). Finally the rows are summed per graph and a two-layer
  perceptron gives the two class scores of each of the 64 graphs.

  The row-wise stages (encoder, message, perceptron, normalisation, head) are written with the whole-array functions
  prod, rowBias, clamp and head; the stages that move rows between nodes and edges (gather, the two sums by index, the
  column mean and variance, the cuts of the stacked weights) are the host operations themselves.
-/
import proofs.«173900_j6880537608212_1_alg».proof.ReferenceIdeal
import proofs.«173900_j6880537608212_1_alg».proof.Proof.Gen.ReferenceIdeal
import Idealize.ShloMosaic.PureOps.Ideal
import Idealize.ShloMosaic.Lib.ValueIdx
import proofs.«173900_j6880537608212_1_alg».proof.Proof.LibLayer
import proofs.«173900_j6880537608212_1_alg».proof.Proof.LibRowBias
import proofs.«173900_j6880537608212_1_alg».proof.Proof.LibRowLocal

noncomputable section

namespace Cert.Spec

open Idealize.ShloMosaic Idealize.ShloMosaic.ValueIdx
open Cert.ReferenceIdeal Cert.ReferenceIdeal.Facts₀
open Cert.Gcn (prod clamp)
open Cert.LibRowBias (rowBias)
open Cert.LibRowLocal (head)

/-- The encoder: x · W + b along the rows. -/
def enc (x : FVec Ideal S50000x64 .f32) (W : FVec Ideal S64x128 .f32) (b : FVec Ideal S128 .f32) : FVec Ideal S50000x128 .f32 :=
  rowBias (prod x W) b

/-- Row 0 of the edge table (the source node of every edge) and row 1 (its target). -/
def srcOf (ei : IVec S2x640000 32) : IVec S640000 32 :=
  shapeCast S640000 (extractStridedSlice S1x640000 ![0, 0] ei slices_S2x640000_S1x640000_0_0) shapeCasts_S1x640000_S640000
def dstOf (ei : IVec S2x640000 32) : IVec S640000 32 :=
  shapeCast S640000 (extractStridedSlice S1x640000 ![1, 0] ei slices_S2x640000_S1x640000_1_0) shapeCasts_S1x640000_S640000

/-- The rows of h at the source of every edge (a negative index counts from the end). -/
def gatherSrc (h : FVec Ideal S50000x128 .f32) (src : IVec S640000 32) : FVec Ideal S640000x128 .f32 :=
  Host.gather gather_S50000x128_S640000x1_S640000x128_1_0_n_n_0_1_1128 h
    (broadcastInDim S640000x1 ![0] bcast_S640000_S640000x1_0
      (select (cmpi .slt src (broadcastInDim S640000 ![] bcast_S_S640000 (constantI S_ 32 0#32)))
        (addi src (broadcastInDim S640000 ![] bcast_S_S640000 (constantI S_ 32 50000#32))) src))

/-- The message of every edge: clamp (h_src + (attr · eW + eb)). -/
def msgOf (hsrc : FVec Ideal S640000x128 .f32) (ea : FVec Ideal S640000x16 .f32) (eW : FVec Ideal S16x128 .f32)
    (eb : FVec Ideal S128 .f32) : FVec Ideal S640000x128 .f32 :=
  clamp (addf hsrc (rowBias (prod ea eW) eb))

/-- The messages summed at their target nodes. -/
def aggOf (msg : FVec Ideal S640000x128 .f32) (dst : IVec S640000 32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst) msg

/-- The node perceptron on h + agg. -/
def mlpOf (h agg : FVec Ideal S50000x128 .f32) (W1 : FVec Ideal S128x128 .f32) (b1 : FVec Ideal S128 .f32)
    (W2 : FVec Ideal S128x128 .f32) (b2 : FVec Ideal S128 .f32) : FVec Ideal S50000x128 .f32 :=
  head (addf h agg) W1 b1 W2 b2

/-- The mean of every column over the nodes. -/
def meanOf (z : FVec Ideal S50000x128 .f32) : FVec Ideal S128 .f32 :=
  Host.divf (Host.reduceAdd z (constant (F := Ideal) S_ .f32 0x00000000#32) reducesTo_S50000x128_S128_d0 h_S_)
    (broadcastInDim S128 ![] bcast_S_S128 (constant (F := Ideal) S_ .f32 0x47435000#32))

/-- The variance of every column over the nodes, as the host's outlined function spells it. -/
def varOf (z : FVec Ideal S50000x128 .f32) : FVec Ideal S128 .f32 :=
  let v0 : FVec Ideal S128 .f32 := Host.reduceAdd z (constant (F := Ideal) S_ .f32 0x00000000#32) reducesTo_S50000x128_S128_d0 h_S_
  let v3 : FVec Ideal S1x128 .f32 := Host.divf (broadcastInDim S1x128 ![1] bcast_S128_S1x128_1 v0)
    (broadcastInDim S1x128 ![] bcast_S_S1x128 (constant (F := Ideal) S_ .f32 0x47435000#32))
  let v5 : FVec Ideal S50000x128 .f32 := subf z (broadcastInDim S50000x128 ![0, 1] bcast_S1x128_S50000x128_0_1 v3)
  let v8 : FVec Ideal S_ .f32 := subf (constant (F := Ideal) S_ .f32 0x47435000#32) (sitofp .f32 (constantI S_ 32 0#32))
  let v9 : FVec Ideal S128 .f32 := Host.reduceAdd (mulf v5 v5) (constant (F := Ideal) S_ .f32 0x00000000#32) reducesTo_S50000x128_S128_d0 h_S_
  let v11 : FVec Ideal S128 .f32 := Host.divf v9 (broadcastInDim S128 ![] bcast_S_S128 v8)
  select (broadcastInDim S128 ![] bcast_S_S128 (cmpf .ogt v8 (constant (F := Ideal) S_ .f32 0x00000000#32))) v11
    (broadcastInDim S128 ![] bcast_S_S128 (id (constant (F := Ideal) S_ .f32 0x7FC00000#32)))

/-- Normalise every column and clamp: clamp (g · (z - m) · rsqrt (v + eps) + bt), at any sizes. -/
def bnRelu {n f : Nat} (z : FVec Ideal ⟨2, ![n, f]⟩ .f32) (m v g bt : FVec Ideal ⟨1, ![f]⟩ .f32) : FVec Ideal ⟨2, ![n, f]⟩ .f32 :=
  clamp fun i => g (ix1 (n := f) (i 1)) * (z i - m (ix1 (n := f) (i 1)))
      * Ideal.rsqrt (v (ix1 (n := f) (i 1)) + Ideal.ofBits .f32 0x3727C5AC#32) + bt (ix1 (n := f) (i 1))

/-- Layer l's cut of a stacked [3, a, b] weight and of a stacked [3, b] vector. -/
def cutE0 (W : FVec Ideal S3x16x128 .f32) : FVec Ideal S16x128 .f32 :=
  shapeCast S16x128 (extractStridedSlice S1x16x128 ![0, 0, 0] W slices_S3x16x128_S1x16x128_0_0_0) shapeCasts_S1x16x128_S16x128
def cutE1 (W : FVec Ideal S3x16x128 .f32) : FVec Ideal S16x128 .f32 :=
  shapeCast S16x128 (extractStridedSlice S1x16x128 ![1, 0, 0] W slices_S3x16x128_S1x16x128_1_0_0) shapeCasts_S1x16x128_S16x128
def cutE2 (W : FVec Ideal S3x16x128 .f32) : FVec Ideal S16x128 .f32 :=
  shapeCast S16x128 (extractStridedSlice S1x16x128 ![2, 0, 0] W slices_S3x16x128_S1x16x128_2_0_0) shapeCasts_S1x16x128_S16x128
def cutW0 (W : FVec Ideal S3x128x128 .f32) : FVec Ideal S128x128 .f32 :=
  shapeCast S128x128 (extractStridedSlice S1x128x128 ![0, 0, 0] W slices_S3x128x128_S1x128x128_0_0_0) shapeCasts_S1x128x128_S128x128
def cutW1 (W : FVec Ideal S3x128x128 .f32) : FVec Ideal S128x128 .f32 :=
  shapeCast S128x128 (extractStridedSlice S1x128x128 ![1, 0, 0] W slices_S3x128x128_S1x128x128_1_0_0) shapeCasts_S1x128x128_S128x128
def cutW2 (W : FVec Ideal S3x128x128 .f32) : FVec Ideal S128x128 .f32 :=
  shapeCast S128x128 (extractStridedSlice S1x128x128 ![2, 0, 0] W slices_S3x128x128_S1x128x128_2_0_0) shapeCasts_S1x128x128_S128x128
def cutB0 (b : FVec Ideal S3x128 .f32) : FVec Ideal S128 .f32 :=
  shapeCast S128 (extractStridedSlice S1x128 ![0, 0] b slices_S3x128_S1x128_0_0) shapeCasts_S1x128_S128
def cutB1 (b : FVec Ideal S3x128 .f32) : FVec Ideal S128 .f32 :=
  shapeCast S128 (extractStridedSlice S1x128 ![1, 0] b slices_S3x128_S1x128_1_0) shapeCasts_S1x128_S128
def cutB2 (b : FVec Ideal S3x128 .f32) : FVec Ideal S128 .f32 :=
  shapeCast S128 (extractStridedSlice S1x128 ![2, 0] b slices_S3x128_S1x128_2_0) shapeCasts_S1x128_S128

/-- One layer, from the node features h and the layer's own weights. -/
def layer (h : FVec Ideal S50000x128 .f32) (ea : FVec Ideal S640000x16 .f32) (src dst : IVec S640000 32)
    (eW : FVec Ideal S16x128 .f32) (eb : FVec Ideal S128 .f32) (W1 : FVec Ideal S128x128 .f32) (b1 : FVec Ideal S128 .f32)
    (W2 : FVec Ideal S128x128 .f32) (b2 gm bt : FVec Ideal S128 .f32) : FVec Ideal S50000x128 .f32 :=
  let z := mlpOf h (aggOf (msgOf (gatherSrc h src) ea eW eb) dst) W1 b1 W2 b2
  bnRelu z (meanOf z) (varOf z) gm bt

/-- The rows summed per graph. -/
def poolOf (h : FVec Ideal S50000x128 .f32) (batch : IVec S50000 32) : FVec Ideal S64x128 .f32 :=
  Host.scatterAdd scatter_S64x128_S50000x1_S50000x128_1_0_0_1
    (broadcastInDim S64x128 ![] bcast_S_S64x128 (constant (F := Ideal) S_ .f32 0x00000000#32))
    (broadcastInDim S50000x1 ![0] bcast_S50000_S50000x1_0 batch) h

/-- The whole network. -/
def out (x : FVec Ideal S50000x64 .f32) (ei : IVec S2x640000 32) (ea : FVec Ideal S640000x16 .f32) (batch : IVec S50000 32)
    (encW : FVec Ideal S64x128 .f32) (encB : FVec Ideal S128 .f32) (eW : FVec Ideal S3x16x128 .f32) (eb : FVec Ideal S3x128 .f32)
    (W1 : FVec Ideal S3x128x128 .f32) (b1 : FVec Ideal S3x128 .f32) (W2 : FVec Ideal S3x128x128 .f32) (b2 gm bt : FVec Ideal S3x128 .f32)
    (hW1 : FVec Ideal S128x128 .f32) (hb1 : FVec Ideal S128 .f32) (hW2 : FVec Ideal S128x2 .f32) (hb2 : FVec Ideal S2 .f32) :
    FVec Ideal S64x2 .f32 :=
  let h0 := enc x encW encB
  let h1 := layer h0 ea (srcOf ei) (dstOf ei) (cutE0 eW) (cutB0 eb) (cutW0 W1) (cutB0 b1) (cutW0 W2) (cutB0 b2) (cutB0 gm) (cutB0 bt)
  let h2 := layer h1 ea (srcOf ei) (dstOf ei) (cutE1 eW) (cutB1 eb) (cutW1 W1) (cutB1 b1) (cutW1 W2) (cutB1 b2) (cutB1 gm) (cutB1 bt)
  let h3 := layer h2 ea (srcOf ei) (dstOf ei) (cutE2 eW) (cutB2 eb) (cutW2 W1) (cutB2 b1) (cutW2 W2) (cutB2 b2) (cutB2 gm) (cutB2 bt)
  head (poolOf h3 batch) hW1 hb1 hW2 hb2

end Cert.Spec

end
-- ==== Proof.KRun.lean ====
/-
  The idealized kernel's run, with the result array named.

  The program is 28 segments in a row: stretches of host operations and tiled regions. Each segment takes the contents
  of the buffers at its entry to their contents at its exit, so the contents at the 28 boundaries are a fold from the
  launch memory, and every buffer that outlives the regions ends at the last boundary's contents. The frame claim keeps
  of this only that the argument arrays end as launched; here the result array is kept as well: it ends at the last
  boundary's contents at the result buffer.
-/
import proofs.«173900_j6880537608212_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    array ends at the last boundary's contents and every argument array as launched (no segment writes an argument, so
    the fold at an argument's buffer walks back to the launch memory). -/
theorem run_named : θ_run defs (onTc (τ := τ) (main (F := F))) ⟨m, fun _ => 0, ρ⟩ (fun r => ∀ c : Dev nD,
      r.2.mem ((c.tc : Thread nD τ).loc main_v107) = W28 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v107 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c),
       (h c _ (mem_uc main_arg13 (by decide))).trans (W28_main_arg13 m ρ c),
       (h c _ (mem_uc main_arg14 (by decide))).trans (W28_main_arg14 m ρ c),
       (h c _ (mem_uc main_arg15 (by decide))).trans (W28_main_arg15 m ρ c),
       (h c _ (mem_uc main_arg16 (by decide))).trans (W28_main_arg16 m ρ c),
       (h c _ (mem_uc main_arg17 (by decide))).trans (W28_main_arg17 m ρ c)⟩)

end Cert.KernelIdeal.KRun

end
-- ==== Proof.KHost.lean ====
/-
  The stretches of host operations between the tiled regions, each read at the buffers a later segment uses.

  For every stretch: the list of the buffers it writes (so that any other buffer is carried across it unchanged), and,
  from ANY contents X of the buffers before it, what it leaves in each buffer that is read afterwards, as the
  specification's function of what X holds: the two rows of the edge table, the rows of h gathered at the edges'
  sources, the cuts of the stacked weights, the sum of the messages at their targets, the column mean and variance,
  and the sum of the rows per graph.
-/
import proofs.«173900_j6880537608212_1_alg».proof.Proof.Gen.KernelIdeal.Launch
import proofs.«173900_j6880537608212_1_alg».proof.Proof.Spec

set_option maxRecDepth 16384

noncomputable section

namespace Cert.KernelIdeal.KHost

open Idealize.ShloMosaic Idealize.ShloMosaic.TcCoe Idealize.ShloMosaic.StableHlo
open Cert.KernelIdeal Cert.KernelIdeal.Gen

/-! ## What each stretch writes -/

section Writes
variable {F : FTy → Type} [FloatOps F]

/-- The references the operations of `hostOps0` write. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps0_keep (X : Valuation τ sig (Elt F)) (r : Ref sig .tc) (h : r ∉ hostOps0_W) :
    StableHlo.after hostOps0 X (Proc.devRef .tc r) = X (Proc.devRef .tc r) :=
  StableHlo.after_of_writes_sub hostOps0 X hostOps0_writes h

/-- The references the operations of `hostOps1` write. -/
abbrev hostOps1_W : List (Ref sig .tc) := [main_c, main_v5, main_v6, main_c_0, main_v7, main_v8, main_v9, main_v10, main_v11, main_v12, main_v13, main_v14, main_v15]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps1_keep (X : Valuation τ sig (Elt F)) (r : Ref sig .tc) (h : r ∉ hostOps1_W) :
    StableHlo.after hostOps1 X (Proc.devRef .tc r) = X (Proc.devRef .tc r) :=
  StableHlo.after_of_writes_sub hostOps1 X hostOps1_writes h

/-- The references the operations of `hostOps2` write. -/
abbrev hostOps2_W : List (Ref sig .tc) := [main_cst, main_v17, main_v18, main_v19, main_v20, main_v21, main_v22, main_v23, main_v24, main_v25, main_v26, main_v27]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps2_keep (X : Valuation τ sig (Elt F)) (r : Ref sig .tc) (h : r ∉ hostOps2_W) :
    StableHlo.after hostOps2 X (Proc.devRef .tc r) = X (Proc.devRef .tc r) :=
  StableHlo.after_of_writes_sub hostOps2 X hostOps2_writes h

/-- The references the operations of `hostOps3` write. -/
abbrev hostOps3_W : List (Ref sig .tc) := [main_cst_1, main_v29, main_cst_2, main_v30, main_v31, main_c_3]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps3_keep (X : Valuation τ sig (Elt F)) (r : Ref sig .tc) (h : r ∉ hostOps3_W) :
    StableHlo.after hostOps3 X (Proc.devRef .tc r) = X (Proc.devRef .tc r) :=
  StableHlo.after_of_writes_sub hostOps3 X hostOps3_writes h

/-- The references the operations of `hostOps3_1` write. -/
abbrev hostOps3_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32]
theorem hostOps3_1_writes : (hostOps3_1 : List (HloOp τ sig (Elt F))).Forall fun op => op.writes ⊆ (hostOps3_1_W.map (Proc.devRef (τ := τ) .tc)).toFinset := by
  simp only [hostOps3_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps3_1_keep (X : Valuation τ sig (Elt F)) (r : Ref sig .tc) (h : r ∉ hostOps3_1_W) :
    StableHlo.after hostOps3_1 X (Proc.devRef .tc r) = X (Proc.devRef .tc r) :=
  StableHlo.after_of_writes_sub hostOps3_1 X hostOps3_1_writes h

/-- The references the operations of `hostOps3_2` write. -/
abbrev hostOps3_2_W : List (Ref sig .tc) := [main_v33, main_v34, main_v35, main_v36]
theorem hostOps3_2_writes : (hostOps3_2 : List (HloOp τ sig (Elt F))).Forall fun op => op.writes ⊆ (hostOps3_2_W.map (Proc.devRef (τ := τ) .tc)).toFinset := by
  simp only [hostOps3_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps3_2_keep (X : Valuation τ sig (Elt F)) (r : Ref sig .tc) (h : r ∉ hostOps3_2_W) :
    StableHlo.after hostOps3_2 X (Proc.devRef .tc r) = X (Proc.devRef .tc r) :=
  StableHlo.after_of_writes_sub hostOps3_2 X hostOps3_2_writes h

/-- The references the operations of `hostOps4` write. -/
abbrev hostOps4_W : List (Ref sig .tc) := [main_c_4, main_v38, main_v39, main_c_5, main_v40, main_v41, main_v42, main_v43, main_v44, main_v45, main_v46, main_v47, main_v48]
theorem hostOps4_writes : (hostOps4 : List (HloOp τ sig (Elt F))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps4_keep (X : Valuation τ sig (Elt F)) (r : Ref sig .tc) (h : r ∉ hostOps4_W) :
    StableHlo.after hostOps4 X (Proc.devRef .tc r) = X (Proc.devRef .tc r) :=
  StableHlo.after_of_writes_sub hostOps4 X hostOps4_writes h

/-- The references the operations of `hostOps5` write. -/
abbrev hostOps5_W : List (Ref sig .tc) := [main_cst_6, main_v50, main_v51, main_v52, main_v53, main_v54, main_v55, main_v56, main_v57, main_v58, main_v59, main_v60]
theorem hostOps5_writes : (hostOps5 : List (HloOp τ sig (Elt F))).Forall fun op => op.writes ⊆ (hostOps5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps5_keep (X : Valuation τ sig (Elt F)) (r : Ref sig .tc) (h : r ∉ hostOps5_W) :
    StableHlo.after hostOps5 X (Proc.devRef .tc r) = X (Proc.devRef .tc r) :=
  StableHlo.after_of_writes_sub hostOps5 X hostOps5_writes h

/-- The references the operations of `hostOps6` write. -/
abbrev hostOps6_W : List (Ref sig .tc) := [main_cst_7, main_v62, main_cst_8, main_v63, main_v64, main_c_9]
theorem hostOps6_writes : (hostOps6 : List (HloOp τ sig (Elt F))).Forall fun op => op.writes ⊆ (hostOps6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps6_keep (X : Valuation τ sig (Elt F)) (r : Ref sig .tc) (h : r ∉ hostOps6_W) :
    StableHlo.after hostOps6 X (Proc.devRef .tc r) = X (Proc.devRef .tc r) :=
  StableHlo.after_of_writes_sub hostOps6 X hostOps6_writes h

/-- The references the operations of `hostOps6_1` write. -/
abbrev hostOps6_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v65]
theorem hostOps6_1_writes : (hostOps6_1 : List (HloOp τ sig (Elt F))).Forall fun op => op.writes ⊆ (hostOps6_1_W.map (Proc.devRef (τ := τ) .tc)).toFinset := by
  simp only [hostOps6_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps6_1_keep (X : Valuation τ sig (Elt F)) (r : Ref sig .tc) (h : r ∉ hostOps6_1_W) :
    StableHlo.after hostOps6_1 X (Proc.devRef .tc r) = X (Proc.devRef .tc r) :=
  StableHlo.after_of_writes_sub hostOps6_1 X hostOps6_1_writes h

/-- The references the operations of `hostOps6_2` write. -/
abbrev hostOps6_2_W : List (Ref sig .tc) := [main_v66, main_v67, main_v68, main_v69]
theorem hostOps6_2_writes : (hostOps6_2 : List (HloOp τ sig (Elt F))).Forall fun op => op.writes ⊆ (hostOps6_2_W.map (Proc.devRef (τ := τ) .tc)).toFinset := by
  simp only [hostOps6_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps6_2_keep (X : Valuation τ sig (Elt F)) (r : Ref sig .tc) (h : r ∉ hostOps6_2_W) :
    StableHlo.after hostOps6_2 X (Proc.devRef .tc r) = X (Proc.devRef .tc r) :=
  StableHlo.after_of_writes_sub hostOps6_2 X hostOps6_2_writes h

/-- The references the operations of `hostOps7` write. -/
abbrev hostOps7_W : List (Ref sig .tc) := [main_c_10, main_v71, main_v72, main_c_11, main_v73, main_v74, main_v75, main_v76, main_v77, main_v78, main_v79, main_v80, main_v81]
theorem hostOps7_writes : (hostOps7 : List (HloOp τ sig (Elt F))).Forall fun op => op.writes ⊆ (hostOps7_W.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps7_keep (X : Valuation τ sig (Elt F)) (r : Ref sig .tc) (h : r ∉ hostOps7_W) :
    StableHlo.after hostOps7 X (Proc.devRef .tc r) = X (Proc.devRef .tc r) :=
  StableHlo.after_of_writes_sub hostOps7 X hostOps7_writes h

/-- The references the operations of `hostOps8` write. -/
abbrev hostOps8_W : List (Ref sig .tc) := [main_cst_12, main_v83, main_v84, main_v85, main_v86, main_v87, main_v88, main_v89, main_v90, main_v91, main_v92, main_v93]
theorem hostOps8_writes : (hostOps8 : List (HloOp τ sig (Elt F))).Forall fun op => op.writes ⊆ (hostOps8_W.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps8_keep (X : Valuation τ sig (Elt F)) (r : Ref sig .tc) (h : r ∉ hostOps8_W) :
    StableHlo.after hostOps8 X (Proc.devRef .tc r) = X (Proc.devRef .tc r) :=
  StableHlo.after_of_writes_sub hostOps8 X hostOps8_writes h

/-- The references the operations of `hostOps9` write. -/
abbrev hostOps9_W : List (Ref sig .tc) := [main_cst_13, main_v95, main_cst_14, main_v96, main_v97, main_c_15]
theorem hostOps9_writes : (hostOps9 : List (HloOp τ sig (Elt F))).Forall fun op => op.writes ⊆ (hostOps9_W.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps9_keep (X : Valuation τ sig (Elt F)) (r : Ref sig .tc) (h : r ∉ hostOps9_W) :
    StableHlo.after hostOps9 X (Proc.devRef .tc r) = X (Proc.devRef .tc r) :=
  StableHlo.after_of_writes_sub hostOps9 X hostOps9_writes h

/-- The references the operations of `hostOps9_1` write. -/
abbrev hostOps9_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v98]
theorem hostOps9_1_writes : (hostOps9_1 : List (HloOp τ sig (Elt F))).Forall fun op => op.writes ⊆ (hostOps9_1_W.map (Proc.devRef (τ := τ) .tc)).toFinset := by
  simp only [hostOps9_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps9_1_keep (X : Valuation τ sig (Elt F)) (r : Ref sig .tc) (h : r ∉ hostOps9_1_W) :
    StableHlo.after hostOps9_1 X (Proc.devRef .tc r) = X (Proc.devRef .tc r) :=
  StableHlo.after_of_writes_sub hostOps9_1 X hostOps9_1_writes h

/-- The references the operations of `hostOps9_2` write. -/
abbrev hostOps9_2_W : List (Ref sig .tc) := [main_v99, main_v100, main_v101, main_v102]
theorem hostOps9_2_writes : (hostOps9_2 : List (HloOp τ sig (Elt F))).Forall fun op => op.writes ⊆ (hostOps9_2_W.map (Proc.devRef (τ := τ) .tc)).toFinset := by
  simp only [hostOps9_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps9_2_keep (X : Valuation τ sig (Elt F)) (r : Ref sig .tc) (h : r ∉ hostOps9_2_W) :
    StableHlo.after hostOps9_2 X (Proc.devRef .tc r) = X (Proc.devRef .tc r) :=
  StableHlo.after_of_writes_sub hostOps9_2 X hostOps9_2_writes h

/-- The references the operations of `hostOps10` write. -/
abbrev hostOps10_W : List (Ref sig .tc) := [main_cst_16, main_v104, main_v105, main_v106]
theorem hostOps10_writes : (hostOps10 : List (HloOp τ sig (Elt F))).Forall fun op => op.writes ⊆ (hostOps10_W.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write holds after it what it held before. -/
theorem hostOps10_keep (X : Valuation τ sig (Elt F)) (r : Ref sig .tc) (h : r ∉ hostOps10_W) :
    StableHlo.after hostOps10 X (Proc.devRef .tc r) = X (Proc.devRef .tc r) :=
  StableHlo.after_of_writes_sub hostOps10 X hostOps10_writes h

end Writes

/-! ## What each stretch leaves, over the extended reals -/

/-- The two rows of the edge table. -/
theorem hostOps0_v1 (X : Valuation τ sig (Elt Ideal)) :
    StableHlo.after hostOps0 X (Proc.devRef .tc main_v1) = Cert.Spec.srcOf (X (Proc.devRef .tc main_arg1)) := by
  after_results; rfl

theorem hostOps0_v3 (X : Valuation τ sig (Elt Ideal)) :
    StableHlo.after hostOps0 X (Proc.devRef .tc main_v3) = Cert.Spec.dstOf (X (Proc.devRef .tc main_arg1)) := by
  after_results; rfl

/-! ### Layer 1 -/

/-- The rows of h at the edges' sources, and the layer's cut of the edge weights. -/
theorem hostOps1_v11 (X : Valuation τ sig (Elt Ideal)) :
    StableHlo.after hostOps1 X (Proc.devRef .tc main_v11) = Cert.Spec.gatherSrc (X (Proc.devRef .tc main_v4)) (X (Proc.devRef .tc main_v1)) := by
  after_results; rfl

theorem hostOps1_v13 (X : Valuation τ sig (Elt Ideal)) :
    StableHlo.after hostOps1 X (Proc.devRef .tc main_v13) = Cert.Spec.cutE0 (X (Proc.devRef .tc main_arg6)) := by
  after_results; rfl

theorem hostOps1_v15 (X : Valuation τ sig (Elt Ideal)) :
    StableHlo.after hostOps1 X (Proc.devRef .tc main_v15) = Cert.Spec.cutB0 (X (Proc.devRef .tc main_arg7)) := by
  after_results; rfl

/-- The messages summed at their targets, and the layer's cuts of the perceptron's weights. -/
theorem hostOps2_v19 (X : Valuation τ sig (Elt Ideal)) :
    StableHlo.after hostOps2 X (Proc.devRef .tc main_v19) = Cert.Spec.aggOf (X (Proc.devRef .tc main_v16)) (X (Proc.devRef .tc main_v3)) := by
  after_results; rfl

theorem hostOps2_v21 (X : Valuation τ sig (Elt Ideal)) :
    StableHlo.after hostOps2 X (Proc.devRef .tc main_v21) = Cert.Spec.cutW0 (X (Proc.devRef .tc main_arg8)) := by
  after_results; rfl

theorem hostOps2_v23 (X : Valuation τ sig (Elt Ideal)) :
    StableHlo.after hostOps2 X (Proc.devRef .tc main_v23) = Cert.Spec.cutB0 (X (Proc.devRef .tc main_arg9)) := by
  after_results; rfl

theorem hostOps2_v25 (X : Valuation τ sig (Elt Ideal)) :
    StableHlo.after hostOps2 X (Proc.devRef .tc main_v25) = Cert.Spec.cutW0 (X (Proc.devRef .tc main_arg10)) := by
  after_results; rfl

theorem hostOps2_v27 (X : Valuation τ sig (Elt Ideal)) :
    StableHlo.after hostOps2 X (Proc.devRef .tc main_v27) = Cert.Spec.cutB0 (X (Proc.devRef .tc main_arg11)) := by
  after_results; rfl

/-- The column means, and the integer zero the variance's divisor is computed from. -/
theorem hostOps3_v31 (X : Valuation τ sig (Elt Ideal)) :
    StableHlo.after hostOps3 X (Proc.devRef .tc main_v31) = Cert.Spec.meanOf (X (Proc.devRef .tc main_v28)) := by
  after_results; rfl

theorem hostOps3_c_3 (X : Valuation τ sig (Elt Ideal)) :
    StableHlo.after hostOps3 X (Proc.devRef .tc main_c_3) = constantI S_ 32 0#32 := by
  after_results
set_option maxHeartbeats 1000000 in
/-- The column variances: the outlined function's operations, from the integer zero the stretch before left. -/
theorem hostOps3_1_v32 (X : Valuation τ sig (Elt Ideal)) (hc : X (Proc.devRef .tc main_c_3) = constantI S_ 32 0#32) :
    StableHlo.after hostOps3_1 X (Proc.devRef .tc main_v32) = Cert.Spec.varOf (X (Proc.devRef .tc main_v28)) := by
  after_results_simp
  rw [hc]
  simp only [StableHlo.TRef.ofBuf, StableHlo.TRef.toBuf, cast_eq]
  unfold Cert.Spec.varOf
  rfl
/-- The layer's cuts of the normalisation's scale and shift. -/
theorem hostOps3_2_v34 (X : Valuation τ sig (Elt Ideal)) :
    StableHlo.after hostOps3_2 X (Proc.devRef .tc main_v34) = Cert.Spec.cutB0 (X (Proc.devRef .tc main_arg12)) := by
  after_results; rfl

theorem hostOps3_2_v36 (X : Valuation τ sig (Elt Ideal)) :
    StableHlo.after hostOps3_2 X (Proc.devRef .tc main_v36) = Cert.Spec.cutB0 (X (Proc.devRef .tc main_arg13)) := by
  after_results; rfl

/-! ### Layer 2 -/

/-- The rows of h at the edges' sources, and the layer's cut of the edge weights. -/
theorem hostOps4_v44 (X : Valuation τ sig (Elt Ideal)) :
    StableHlo.after hostOps4 X (Proc.devRef .tc main_v44) = Cert.Spec.gatherSrc (X (Proc.devRef .tc main_v37)) (X (Proc.devRef .tc main_v1)) := by
  after_results; rfl

theorem hostOps4_v46 (X : Valuation τ sig (Elt Ideal)) :
    StableHlo.after hostOps4 X (Proc.devRef .tc main_v46) = Cert.Spec.cutE1 (X (Proc.devRef .tc main_arg6)) := by
  after_results; rfl

theorem hostOps4_v48 (X : Valuation τ sig (Elt Ideal)) :
    StableHlo.after hostOps4 X (Proc.devRef .tc main_v48) = Cert.Spec.cutB1 (X (Proc.devRef .tc main_arg7)) := by
  after_results; rfl

/-- The messages summed at their targets, and the layer's cuts of the perceptron's weights. -/
theorem hostOps5_v52 (X : Valuation τ sig (Elt Ideal)) :
    StableHlo.after hostOps5 X (Proc.devRef .tc main_v52) = Cert.Spec.aggOf (X (Proc.devRef .tc main_v49)) (X (Proc.devRef .tc main_v3)) := by
  after_results; rfl

theorem hostOps5_v54 (X : Valuation τ sig (Elt Ideal)) :
    StableHlo.after hostOps5 X (Proc.devRef .tc main_v54) = Cert.Spec.cutW1 (X (Proc.devRef .tc main_arg8)) := by
  after_results; rfl

theorem hostOps5_v56 (X : Valuation τ sig (Elt Ideal)) :
    StableHlo.after hostOps5 X (Proc.devRef .tc main_v56) = Cert.Spec.cutB1 (X (Proc.devRef .tc main_arg9)) := by
  after_results; rfl

theorem hostOps5_v58 (X : Valuation τ sig (Elt Ideal)) :
    StableHlo.after hostOps5 X (Proc.devRef .tc main_v58) = Cert.Spec.cutW1 (X (Proc.devRef .tc main_arg10)) := by
  after_results; rfl

theorem hostOps5_v60 (X : Valuation τ sig (Elt Ideal)) :
    StableHlo.after hostOps5 X (Proc.devRef .tc main_v60) = Cert.Spec.cutB1 (X (Proc.devRef .tc main_arg11)) := by
  after_results; rfl

/-- The column means, and the integer zero the variance's divisor is computed from. -/
theorem hostOps6_v64 (X : Valuation τ sig (Elt Ideal)) :
    StableHlo.after hostOps6 X (Proc.devRef .tc main_v64) = Cert.Spec.meanOf (X (Proc.devRef .tc main_v61)) := by
  after_results; rfl

theorem hostOps6_c_9 (X : Valuation τ sig (Elt Ideal)) :
    StableHlo.after hostOps6 X (Proc.devRef .tc main_c_9) = constantI S_ 32 0#32 := by
  after_results
set_option maxHeartbeats 1000000 in
/-- The column variances: the outlined function's operations, from the integer zero the stretch before left. -/
theorem hostOps6_1_v65 (X : Valuation τ sig (Elt Ideal)) (hc : X (Proc.devRef .tc main_c_9) = constantI S_ 32 0#32) :
    StableHlo.after hostOps6_1 X (Proc.devRef .tc main_v65) = Cert.Spec.varOf (X (Proc.devRef .tc main_v61)) := by
  after_results_simp
  rw [hc]
  simp only [StableHlo.TRef.ofBuf, StableHlo.TRef.toBuf, cast_eq]
  unfold Cert.Spec.varOf
  rfl
/-- The layer's cuts of the normalisation's scale and shift. -/
theorem hostOps6_2_v67 (X : Valuation τ sig (Elt Ideal)) :
    StableHlo.after hostOps6_2 X (Proc.devRef .tc main_v67) = Cert.Spec.cutB1 (X (Proc.devRef .tc main_arg12)) := by
  after_results; rfl

theorem hostOps6_2_v69 (X : Valuation τ sig (Elt Ideal)) :
    StableHlo.after hostOps6_2 X (Proc.devRef .tc main_v69) = Cert.Spec.cutB1 (X (Proc.devRef .tc main_arg13)) := by
  after_results; rfl

/-! ### Layer 3 -/

/-- The rows of h at the edges' sources, and the layer's cut of the edge weights. -/
theorem hostOps7_v77 (X : Valuation τ sig (Elt Ideal)) :
    StableHlo.after hostOps7 X (Proc.devRef .tc main_v77) = Cert.Spec.gatherSrc (X (Proc.devRef .tc main_v70)) (X (Proc.devRef .tc main_v1)) := by
  after_results; rfl

theorem hostOps7_v79 (X : Valuation τ sig (Elt Ideal)) :
    StableHlo.after hostOps7 X (Proc.devRef .tc main_v79) = Cert.Spec.cutE2 (X (Proc.devRef .tc main_arg6)) := by
  after_results; rfl

theorem hostOps7_v81 (X : Valuation τ sig (Elt Ideal)) :
    StableHlo.after hostOps7 X (Proc.devRef .tc main_v81) = Cert.Spec.cutB2 (X (Proc.devRef .tc main_arg7)) := by
  after_results; rfl

/-- The messages summed at their targets, and the layer's cuts of the perceptron's weights. -/
theorem hostOps8_v85 (X : Valuation τ sig (Elt Ideal)) :
    StableHlo.after hostOps8 X (Proc.devRef .tc main_v85) = Cert.Spec.aggOf (X (Proc.devRef .tc main_v82)) (X (Proc.devRef .tc main_v3)) := by
  after_results; rfl

theorem hostOps8_v87 (X : Valuation τ sig (Elt Ideal)) :
    StableHlo.after hostOps8 X (Proc.devRef .tc main_v87) = Cert.Spec.cutW2 (X (Proc.devRef .tc main_arg8)) := by
  after_results; rfl

theorem hostOps8_v89 (X : Valuation τ sig (Elt Ideal)) :
    StableHlo.after hostOps8 X (Proc.devRef .tc main_v89) = Cert.Spec.cutB2 (X (Proc.devRef .tc main_arg9)) := by
  after_results; rfl

theorem hostOps8_v91 (X : Valuation τ sig (Elt Ideal)) :
    StableHlo.after hostOps8 X (Proc.devRef .tc main_v91) = Cert.Spec.cutW2 (X (Proc.devRef .tc main_arg10)) := by
  after_results; rfl

theorem hostOps8_v93 (X : Valuation τ sig (Elt Ideal)) :
    StableHlo.after hostOps8 X (Proc.devRef .tc main_v93) = Cert.Spec.cutB2 (X (Proc.devRef .tc main_arg11)) := by
  after_results; rfl

/-- The column means, and the integer zero the variance's divisor is computed from. -/
theorem hostOps9_v97 (X : Valuation τ sig (Elt Ideal)) :
    StableHlo.after hostOps9 X (Proc.devRef .tc main_v97) = Cert.Spec.meanOf (X (Proc.devRef .tc main_v94)) := by
  after_results; rfl

theorem hostOps9_c_15 (X : Valuation τ sig (Elt Ideal)) :
    StableHlo.after hostOps9 X (Proc.devRef .tc main_c_15) = constantI S_ 32 0#32 := by
  after_results
set_option maxHeartbeats 1000000 in
/-- The column variances: the outlined function's operations, from the integer zero the stretch before left. -/
theorem hostOps9_1_v98 (X : Valuation τ sig (Elt Ideal)) (hc : X (Proc.devRef .tc main_c_15) = constantI S_ 32 0#32) :
    StableHlo.after hostOps9_1 X (Proc.devRef .tc main_v98) = Cert.Spec.varOf (X (Proc.devRef .tc main_v94)) := by
  after_results_simp
  rw [hc]
  simp only [StableHlo.TRef.ofBuf, StableHlo.TRef.toBuf, cast_eq]
  unfold Cert.Spec.varOf
  rfl
/-- The layer's cuts of the normalisation's scale and shift. -/
theorem hostOps9_2_v100 (X : Valuation τ sig (Elt Ideal)) :
    StableHlo.after hostOps9_2 X (Proc.devRef .tc main_v100) = Cert.Spec.cutB2 (X (Proc.devRef .tc main_arg12)) := by
  after_results; rfl

theorem hostOps9_2_v102 (X : Valuation τ sig (Elt Ideal)) :
    StableHlo.after hostOps9_2 X (Proc.devRef .tc main_v102) = Cert.Spec.cutB2 (X (Proc.devRef .tc main_arg13)) := by
  after_results; rfl

/-! ### The readout -/

/-- The rows summed per graph. -/
theorem hostOps10_v106 (X : Valuation τ sig (Elt Ideal)) :
    StableHlo.after hostOps10 X (Proc.devRef .tc main_v106) = Cert.Spec.poolOf (X (Proc.devRef .tc main_v103)) (X (Proc.devRef .tc main_arg3)) := by
  after_results; rfl

end Cert.KernelIdeal.KHost

end
-- ==== Proof.LibUnitOps.lean ====
/-
  The vector unit's spellings of three whole-array functions, at any sizes over the extended reals: a matrix product
  into a zero accumulator of operands cast to bf16 (the cast is the identity) is the product; a vector [f] cast to a row
  [1, f], broadcast along the rows of [n, f] and added is the bias along the rows; the maximum with a splat zero is the
  clamp below at zero.
-/
import Idealize.ShloMosaic.PureOps.Ideal.Laws
import Idealize.ShloMosaic.Lib.ValueIdx
import Idealize.ShloMosaic.Lib.ValueLayout
import Idealize.ShloMosaic.Lib.Pipeline.Value
import proofs.«173900_j6880537608212_1_alg».proof.Proof.LibLayer
import proofs.«173900_j6880537608212_1_alg».proof.Proof.LibRowBias

noncomputable section

namespace Cert.LibUnitOps

open Idealize.ShloMosaic Idealize.ShloMosaic.ValueIdx
open Cert.Gcn (prod clamp)
open Cert.LibRowBias (rowBias)

/-- A vector [f] cast to the row [1, f] and broadcast along the rows of [n, f], read at (p, q): the vector's entry q. -/
theorem unit_row_apply {α : Type} {n f : Nat} (b : (⟨1, ![f]⟩ : Shape).Idx → α)
    (h1 : (⟨1, ![f]⟩ : Shape).ShapeCasts ⟨2, ![1, f]⟩) (h2 : (⟨2, ![1, f]⟩ : Shape).Broadcasts ⟨2, ![n, f]⟩)
    (p : Fin n) (q : Fin f) : broadcastTo ⟨2, ![n, f]⟩ (shapeCast ⟨2, ![1, f]⟩ b h1) h2 (ix2 p q) = b (ix1 q) := by
  rw [broadcastTo_1b_ab_apply, shapeCast_a_1a_apply]

/-- The vector unit's bias along the rows is `rowBias`. -/
theorem unit_rowBias {n f : Nat} (a : FVec Ideal ⟨2, ![n, f]⟩ .f32) (b : FVec Ideal ⟨1, ![f]⟩ .f32)
    (h1 : (⟨1, ![f]⟩ : Shape).ShapeCasts ⟨2, ![1, f]⟩) (h2 : (⟨2, ![1, f]⟩ : Shape).Broadcasts ⟨2, ![n, f]⟩) :
    addf a (broadcastTo ⟨2, ![n, f]⟩ (shapeCast ⟨2, ![1, f]⟩ b h1) h2) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [unit_row_apply]

/-- The vector unit's maximum with a splat zero is the clamp. -/
theorem unit_clamp {s : Shape} (v : FVec Ideal s .f32) :
    maximumf v (broadcast s (Scalar.ofBits (F := Ideal) .f32 0x00000000#32)) = clamp v := by
  funext i
  rfl

/-- The vector unit's product into a zero accumulator, its operands cast to bf16, is the product. -/
theorem unit_matmul {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32)
    (hx : FTy.bf16.bits < FTy.f32.bits) (hw : FTy.bf16.bits < FTy.f32.bits) :
    matmul (Cert.LibMatmul.plainDims M K N wf) prec (truncf .bf16 x hx) (truncf .bf16 w hw) (constant ⟨2, ![M, N]⟩ .f32 0x00000000#32)
      = prod x w := by
  funext i
  obtain ⟨p, q, rfl⟩ : ∃ (p : Fin M) (q : Fin N), i = ix2 p q := ⟨i 0, i 1, eq_ix2 i⟩
  exact Cert.LibMatmul.matmul_plain_apply wf prec (truncf .bf16 x hx) (truncf .bf16 w hw) p q

end Cert.LibUnitOps

end
-- ==== Proof.KPay.lean ====
/-
  The arithmetic of each kernel body, on one block, over the extended reals: the bodies are the row-wise whole-array
  functions of the specification (product, bias along the rows, clamp at zero, the two-layer head, the column
  normalisation) applied to the block's rows, the vector unit's casts being the identity.
-/
import proofs.«173900_j6880537608212_1_alg».proof.Proof.Gen.KernelIdeal.Skeleton
import proofs.«173900_j6880537608212_1_alg».proof.Proof.LibUnitOps
import proofs.«173900_j6880537608212_1_alg».proof.Proof.LibRowLocal
import proofs.«173900_j6880537608212_1_alg».proof.Proof.Spec
import Idealize.ShloMosaic.Lib.Pipeline.Value
import Idealize.ShloMosaic.Lib.ValueLayout

noncomputable section

namespace Cert.KernelIdeal.KPay

open Idealize.ShloMosaic Idealize.ShloMosaic.ValueIdx
open Cert.KernelIdeal Cert.KernelIdeal.Gen
open Cert.Gcn (prod clamp)
open Cert.LibRowBias (rowBias)
open Cert.LibRowLocal (head)

/-- The encoder body on one block of nodes: x · W + b along the rows. -/
theorem pay0 (x0 : Vec Ideal S5000x64 .f32) (x1 : Vec Ideal S64x128 .f32) (x2 : Vec Ideal S128 .f32) :
    k0_pay1 (F := Ideal) x0 x1 x2 = rowBias (prod x0 x1) x2 := by
  unfold k0_pay1
  refine (Cert.LibUnitOps.unit_rowBias _ x2 _ _).trans (congrArg (fun a => rowBias a x2) ?_)
  exact Cert.LibUnitOps.unit_matmul dot_S5000x64_S64x128_S5000x128_1_0_0_1_n_n.wf none x0 x1 _ _

/-- The message body on one block of edges: clamp (h_src + (attr · eW + eb)). -/
theorem pay1 (x0 : Vec Ideal S8000x16 .f32) (x1 : Vec Ideal S16x128 .f32) (x2 : Vec Ideal S128 .f32) (x3 : Vec Ideal S8000x128 .f32) :
    k1_pay1 (F := Ideal) x0 x1 x2 x3 = clamp (addf x3 (rowBias (prod x0 x1) x2)) := by
  unfold k1_pay1
  simp only [shapeCast_self]
  refine (Cert.LibUnitOps.unit_clamp _).trans (congrArg (fun a : FVec Ideal S8000x128 .f32 => clamp (addf x3 a)) ?_)
  refine (Cert.LibUnitOps.unit_rowBias _ x2 _ _).trans (congrArg (fun a => rowBias a x2) ?_)
  exact Cert.LibUnitOps.unit_matmul dot_S8000x16_S16x128_S8000x128_1_0_0_1_n_n.wf none x0 x1 _ _

/-- The perceptron body on one block of nodes: the two-layer head of h + agg. -/
theorem pay2 (x0 x1 : Vec Ideal S5000x128 .f32) (x2 : Vec Ideal S128x128 .f32) (x3 : Vec Ideal S128 .f32)
    (x4 : Vec Ideal S128x128 .f32) (x5 : Vec Ideal S128 .f32) :
    k2_pay1 (F := Ideal) x0 x1 x2 x3 x4 x5 = head (addf x0 x1) x2 x3 x4 x5 := by
  unfold k2_pay1 head
  simp only [shapeCast_self]
  refine (Cert.LibUnitOps.unit_rowBias _ x5 _ _).trans (congrArg (fun a => rowBias a x5) ?_)
  refine (Cert.LibUnitOps.unit_matmul dot_S5000x128_S128x128_S5000x128_1_0_0_1_n_n.wf none _ x4 _ _).trans (congrArg (fun a => prod a x4) ?_)
  refine (Cert.LibUnitOps.unit_clamp _).trans (congrArg clamp ?_)
  refine (Cert.LibUnitOps.unit_rowBias _ x3 _ _).trans (congrArg (fun a => rowBias a x3) ?_)
  exact Cert.LibUnitOps.unit_matmul dot_S5000x128_S128x128_S5000x128_1_0_0_1_n_n.wf none (addf x0 x1) x2 _ _

/-- The normalisation body on one block of nodes: clamp (g · (z - m) · rsqrt (v + eps) + bt). -/
theorem pay3 (x0 : Vec Ideal S5000x128 .f32) (x1 x2 x3 x4 : Vec Ideal S128 .f32) :
    k3_pay1 (F := Ideal) x0 x1 x2 x3 x4 = Cert.Spec.bnRelu x0 x1 x2 x3 x4 := by
  unfold k3_pay1 Cert.Spec.bnRelu
  simp only [shapeCast_self]
  refine (Cert.LibUnitOps.unit_clamp _).trans (congrArg clamp ?_)
  funext i
  obtain ⟨p, q, rfl⟩ : ∃ (p : Fin 5000) (q : Fin 128), i = ix2 p q := ⟨i 0, i 1, eq_ix2 i⟩
  show broadcastTo S5000x128 (shapeCast S1x128 x3 _) _ (ix2 p q) * (x0 (ix2 p q) - broadcastTo S5000x128 (shapeCast S1x128 x1 _) _ (ix2 p q))
      * broadcastTo S5000x128 (rsqrt (addf (shapeCast S1x128 x2 _) (broadcast S1x128 (Scalar.ofBits (F := Ideal) .f32 0x3727C5AC#32)))) _ (ix2 p q)
      + broadcastTo S5000x128 (shapeCast S1x128 x4 _) _ (ix2 p q) = _
  rw [Cert.LibUnitOps.unit_row_apply, Cert.LibUnitOps.unit_row_apply, Cert.LibUnitOps.unit_row_apply, broadcastTo_1b_ab_apply]
  show x3 (ix1 q) * (x0 (ix2 p q) - x1 (ix1 q)) * Ideal.rsqrt (shapeCast S1x128 x2 _ (ix2 (0 : Fin 1) q) + _) + x4 (ix1 q) = _
  rw [shapeCast_a_1a_apply]
  rfl

/-- The message body on one block of edges: clamp (h_src + (attr · eW + eb)). -/
theorem pay4 (x0 : Vec Ideal S8000x16 .f32) (x1 : Vec Ideal S16x128 .f32) (x2 : Vec Ideal S128 .f32) (x3 : Vec Ideal S8000x128 .f32) :
    k4_pay1 (F := Ideal) x0 x1 x2 x3 = clamp (addf x3 (rowBias (prod x0 x1) x2)) := by
  unfold k4_pay1
  simp only [shapeCast_self]
  refine (Cert.LibUnitOps.unit_clamp _).trans (congrArg (fun a : FVec Ideal S8000x128 .f32 => clamp (addf x3 a)) ?_)
  refine (Cert.LibUnitOps.unit_rowBias _ x2 _ _).trans (congrArg (fun a => rowBias a x2) ?_)
  exact Cert.LibUnitOps.unit_matmul dot_S8000x16_S16x128_S8000x128_1_0_0_1_n_n.wf none x0 x1 _ _

/-- The perceptron body on one block of nodes: the two-layer head of h + agg. -/
theorem pay5 (x0 x1 : Vec Ideal S5000x128 .f32) (x2 : Vec Ideal S128x128 .f32) (x3 : Vec Ideal S128 .f32)
    (x4 : Vec Ideal S128x128 .f32) (x5 : Vec Ideal S128 .f32) :
    k5_pay1 (F := Ideal) x0 x1 x2 x3 x4 x5 = head (addf x0 x1) x2 x3 x4 x5 := by
  unfold k5_pay1 head
  simp only [shapeCast_self]
  refine (Cert.LibUnitOps.unit_rowBias _ x5 _ _).trans (congrArg (fun a => rowBias a x5) ?_)
  refine (Cert.LibUnitOps.unit_matmul dot_S5000x128_S128x128_S5000x128_1_0_0_1_n_n.wf none _ x4 _ _).trans (congrArg (fun a => prod a x4) ?_)
  refine (Cert.LibUnitOps.unit_clamp _).trans (congrArg clamp ?_)
  refine (Cert.LibUnitOps.unit_rowBias _ x3 _ _).trans (congrArg (fun a => rowBias a x3) ?_)
  exact Cert.LibUnitOps.unit_matmul dot_S5000x128_S128x128_S5000x128_1_0_0_1_n_n.wf none (addf x0 x1) x2 _ _

/-- The normalisation body on one block of nodes: clamp (g · (z - m) · rsqrt (v + eps) + bt). -/
theorem pay6 (x0 : Vec Ideal S5000x128 .f32) (x1 x2 x3 x4 : Vec Ideal S128 .f32) :
    k6_pay1 (F := Ideal) x0 x1 x2 x3 x4 = Cert.Spec.bnRelu x0 x1 x2 x3 x4 := by
  unfold k6_pay1 Cert.Spec.bnRelu
  simp only [shapeCast_self]
  refine (Cert.LibUnitOps.unit_clamp _).trans (congrArg clamp ?_)
  funext i
  obtain ⟨p, q, rfl⟩ : ∃ (p : Fin 5000) (q : Fin 128), i = ix2 p q := ⟨i 0, i 1, eq_ix2 i⟩
  show broadcastTo S5000x128 (shapeCast S1x128 x3 _) _ (ix2 p q) * (x0 (ix2 p q) - broadcastTo S5000x128 (shapeCast S1x128 x1 _) _ (ix2 p q))
      * broadcastTo S5000x128 (rsqrt (addf (shapeCast S1x128 x2 _) (broadcast S1x128 (Scalar.ofBits (F := Ideal) .f32 0x3727C5AC#32)))) _ (ix2 p q)
      + broadcastTo S5000x128 (shapeCast S1x128 x4 _) _ (ix2 p q) = _
  rw [Cert.LibUnitOps.unit_row_apply, Cert.LibUnitOps.unit_row_apply, Cert.LibUnitOps.unit_row_apply, broadcastTo_1b_ab_apply]
  show x3 (ix1 q) * (x0 (ix2 p q) - x1 (ix1 q)) * Ideal.rsqrt (shapeCast S1x128 x2 _ (ix2 (0 : Fin 1) q) + _) + x4 (ix1 q) = _
  rw [shapeCast_a_1a_apply]
  rfl

/-- The message body on one block of edges: clamp (h_src + (attr · eW + eb)). -/
theorem pay7 (x0 : Vec Ideal S8000x16 .f32) (x1 : Vec Ideal S16x128 .f32) (x2 : Vec Ideal S128 .f32) (x3 : Vec Ideal S8000x128 .f32) :
    k7_pay1 (F := Ideal) x0 x1 x2 x3 = clamp (addf x3 (rowBias (prod x0 x1) x2)) := by
  unfold k7_pay1
  simp only [shapeCast_self]
  refine (Cert.LibUnitOps.unit_clamp _).trans (congrArg (fun a : FVec Ideal S8000x128 .f32 => clamp (addf x3 a)) ?_)
  refine (Cert.LibUnitOps.unit_rowBias _ x2 _ _).trans (congrArg (fun a => rowBias a x2) ?_)
  exact Cert.LibUnitOps.unit_matmul dot_S8000x16_S16x128_S8000x128_1_0_0_1_n_n.wf none x0 x1 _ _

/-- The perceptron body on one block of nodes: the two-layer head of h + agg. -/
theorem pay8 (x0 x1 : Vec Ideal S5000x128 .f32) (x2 : Vec Ideal S128x128 .f32) (x3 : Vec Ideal S128 .f32)
    (x4 : Vec Ideal S128x128 .f32) (x5 : Vec Ideal S128 .f32) :
    k8_pay1 (F := Ideal) x0 x1 x2 x3 x4 x5 = head (addf x0 x1) x2 x3 x4 x5 := by
  unfold k8_pay1 head
  simp only [shapeCast_self]
  refine (Cert.LibUnitOps.unit_rowBias _ x5 _ _).trans (congrArg (fun a => rowBias a x5) ?_)
  refine (Cert.LibUnitOps.unit_matmul dot_S5000x128_S128x128_S5000x128_1_0_0_1_n_n.wf none _ x4 _ _).trans (congrArg (fun a => prod a x4) ?_)
  refine (Cert.LibUnitOps.unit_clamp _).trans (congrArg clamp ?_)
  refine (Cert.LibUnitOps.unit_rowBias _ x3 _ _).trans (congrArg (fun a => rowBias a x3) ?_)
  exact Cert.LibUnitOps.unit_matmul dot_S5000x128_S128x128_S5000x128_1_0_0_1_n_n.wf none (addf x0 x1) x2 _ _

/-- The normalisation body on one block of nodes: clamp (g · (z - m) · rsqrt (v + eps) + bt). -/
theorem pay9 (x0 : Vec Ideal S5000x128 .f32) (x1 x2 x3 x4 : Vec Ideal S128 .f32) :
    k9_pay1 (F := Ideal) x0 x1 x2 x3 x4 = Cert.Spec.bnRelu x0 x1 x2 x3 x4 := by
  unfold k9_pay1 Cert.Spec.bnRelu
  simp only [shapeCast_self]
  refine (Cert.LibUnitOps.unit_clamp _).trans (congrArg clamp ?_)
  funext i
  obtain ⟨p, q, rfl⟩ : ∃ (p : Fin 5000) (q : Fin 128), i = ix2 p q := ⟨i 0, i 1, eq_ix2 i⟩
  show broadcastTo S5000x128 (shapeCast S1x128 x3 _) _ (ix2 p q) * (x0 (ix2 p q) - broadcastTo S5000x128 (shapeCast S1x128 x1 _) _ (ix2 p q))
      * broadcastTo S5000x128 (rsqrt (addf (shapeCast S1x128 x2 _) (broadcast S1x128 (Scalar.ofBits (F := Ideal) .f32 0x3727C5AC#32)))) _ (ix2 p q)
      + broadcastTo S5000x128 (shapeCast S1x128 x4 _) _ (ix2 p q) = _
  rw [Cert.LibUnitOps.unit_row_apply, Cert.LibUnitOps.unit_row_apply, Cert.LibUnitOps.unit_row_apply, broadcastTo_1b_ab_apply]
  show x3 (ix1 q) * (x0 (ix2 p q) - x1 (ix1 q)) * Ideal.rsqrt (shapeCast S1x128 x2 _ (ix2 (0 : Fin 1) q) + _) + x4 (ix1 q) = _
  rw [shapeCast_a_1a_apply]
  rfl

/-- The head body on the one block of graphs: the two-layer head. -/
theorem pay10 (x0 : Vec Ideal S64x128 .f32) (x1 : Vec Ideal S128x128 .f32) (x2 : Vec Ideal S128 .f32)
    (x3 : Vec Ideal S128x2 .f32) (x4 : Vec Ideal S2 .f32) :
    k10_pay1 (F := Ideal) x0 x1 x2 x3 x4 = head x0 x1 x2 x3 x4 := by
  unfold k10_pay1 head
  simp only [shapeCast_self]
  refine (Cert.LibUnitOps.unit_rowBias _ x4 _ _).trans (congrArg (fun a => rowBias a x4) ?_)
  refine (Cert.LibUnitOps.unit_matmul dot_S64x128_S128x2_S64x2_1_0_0_1_n_n.wf none _ x3 _ _).trans (congrArg (fun a => prod a x3) ?_)
  refine (Cert.LibUnitOps.unit_clamp _).trans (congrArg clamp ?_)
  refine (Cert.LibUnitOps.unit_rowBias _ x2 _ _).trans (congrArg (fun a => rowBias a x2) ?_)
  exact Cert.LibUnitOps.unit_matmul dot_S64x128_S128x128_S64x128_1_0_0_1_n_n.wf none x0 x1 _ _

end Cert.KernelIdeal.KPay

end
-- ==== Proof.KBlocks.lean ====
/-
  Each kernel body on one block against the whole-array stage function: the value the body leaves at an entry of its
  block is the stage function's value at the entry of the array the block's entry sits at, because the stage functions
  are row-local — an entry of the result reads only its own row of the row-tiled operands, and the weights and vectors
  that every block sees whole.
-/
import proofs.«173900_j6880537608212_1_alg».proof.Proof.KPay

noncomputable section

namespace Cert.KernelIdeal.KBlocks

open Idealize.ShloMosaic Idealize.ShloMosaic.ValueIdx
open Cert.KernelIdeal Cert.KernelIdeal.Gen
open Cert.Gcn (prod clamp)
open Cert.LibRowBias (rowBias)
open Cert.LibRowLocal (head prod_congr rowBias_congr clamp_congr head_congr)

theorem hz2 : (![0, 0] : Fin 2 → Nat) = fun _ => 0 := funext fun a => by fin_cases a <;> rfl
theorem hz1 : (![0] : Fin 1 → Nat) = fun _ => 0 := funext fun a => by fin_cases a <;> rfl

/-- The one block of graphs: the head body at (r, q) is the two-layer head at the array's (R, q). -/
theorem head_blk (x0 : Vec Ideal S64x128 .f32) (x1 : Vec Ideal S128x128 .f32) (x2 : Vec Ideal S128 .f32)
    (x3 : Vec Ideal S128x2 .f32) (x4 : Vec Ideal S2 .f32)
    (G : FVec Ideal S64x128 .f32) (W1 : FVec Ideal S128x128 .f32) (B1 : FVec Ideal S128 .f32) (W2 : FVec Ideal S128x2 .f32) (B2 : FVec Ideal S2 .f32)
    (j I : S64x2.Idx) (h0 : ∀ k : Fin 128, x0 (ix2 (n0 := 64) (j 0) k) = G (ix2 (n0 := 64) (I 0) k))
    (hW1 : x1 = W1) (hB1 : x2 = B1) (hW2 : x3 = W2) (hB2 : x4 = B2) (h1 : j 1 = I 1) :
    k10_pay1 (F := Ideal) x0 x1 x2 x3 x4 j = head G W1 B1 W2 B2 I := by
  subst hW1 hB1 hW2 hB2
  rw [KPay.pay10]
  exact head_congr _ _ _ _ _ _ j I h0 h1

/-- One block of nodes: the encoder body at (r, q) of the block is the whole-array encoder at the array's (R, q), when the
    block's rows of x are the array's rows. -/
theorem enc_blk (x0 : Vec Ideal S5000x64 .f32) (x1 : Vec Ideal S64x128 .f32) (x2 : Vec Ideal S128 .f32)
    (X : FVec Ideal S50000x64 .f32) (W : FVec Ideal S64x128 .f32) (B : FVec Ideal S128 .f32)
    (j : S5000x128.Idx) (I : S50000x128.Idx)
    (h0 : ∀ k : Fin 64, x0 (ix2 (n0 := 5000) (j 0) k) = X (ix2 (n0 := 50000) (I 0) k)) (hW : x1 = W) (hB : x2 = B)
    (h1 : j 1 = I 1) :
    k0_pay1 (F := Ideal) x0 x1 x2 j = Cert.Spec.enc X W B I := by
  subst hW hB
  rw [KPay.pay0]
  unfold Cert.Spec.enc
  refine rowBias_congr _ _ _ _ j I ?_ (by rw [h1])
  exact prod_congr _ _ _ _ j I h0 (fun k => by rw [h1])

/-- One block of edges: the body's message at (r, q) of the block is the whole-array message at the array's (R, q), when
    the block's rows of the attributes and of the gathered features are the array's rows. -/
theorem msg_blk1 (x0 : Vec Ideal S8000x16 .f32) (x1 : Vec Ideal S16x128 .f32) (x2 : Vec Ideal S128 .f32) (x3 : Vec Ideal S8000x128 .f32)
    (EA : FVec Ideal S640000x16 .f32) (W : FVec Ideal S16x128 .f32) (B : FVec Ideal S128 .f32) (H : FVec Ideal S640000x128 .f32)
    (j : S8000x128.Idx) (I : S640000x128.Idx)
    (h0 : ∀ k : Fin 16, x0 (ix2 (n0 := 8000) (j 0) k) = EA (ix2 (n0 := 640000) (I 0) k)) (hW : x1 = W) (hB : x2 = B)
    (h3 : x3 j = H I) (h1 : j 1 = I 1) :
    k1_pay1 (F := Ideal) x0 x1 x2 x3 j = Cert.Spec.msgOf H EA W B I := by
  subst hW hB
  rw [KPay.pay1]
  unfold Cert.Spec.msgOf
  refine clamp_congr _ _ j I ?_
  show x3 j + rowBias (prod x0 x1) x2 j = H I + rowBias (prod EA x1) x2 I
  rw [h3]
  refine congrArg (H I + ·) (rowBias_congr _ _ _ _ j I ?_ (by rw [h1]))
  exact prod_congr _ _ _ _ j I h0 (fun k => by rw [h1])

/-- One block of nodes: the body's perceptron at (r, q) of the block is the whole-array perceptron at the array's (R, q), when
    the block's rows of h and of agg are the array's rows. -/
theorem mlp_blk2 (x0 x1 : Vec Ideal S5000x128 .f32) (x2 : Vec Ideal S128x128 .f32) (x3 : Vec Ideal S128 .f32)
    (x4 : Vec Ideal S128x128 .f32) (x5 : Vec Ideal S128 .f32)
    (H A : FVec Ideal S50000x128 .f32) (W1 : FVec Ideal S128x128 .f32) (B1 : FVec Ideal S128 .f32)
    (W2 : FVec Ideal S128x128 .f32) (B2 : FVec Ideal S128 .f32) (j : S5000x128.Idx) (I : S50000x128.Idx)
    (h0 : ∀ k : Fin 128, x0 (ix2 (n0 := 5000) (j 0) k) = H (ix2 (n0 := 50000) (I 0) k))
    (hA : ∀ k : Fin 128, x1 (ix2 (n0 := 5000) (j 0) k) = A (ix2 (n0 := 50000) (I 0) k))
    (hW1 : x2 = W1) (hB1 : x3 = B1) (hW2 : x4 = W2) (hB2 : x5 = B2) (h1 : j 1 = I 1) :
    k2_pay1 (F := Ideal) x0 x1 x2 x3 x4 x5 j = Cert.Spec.mlpOf H A W1 B1 W2 B2 I := by
  subst hW1 hB1 hW2 hB2
  rw [KPay.pay2]
  unfold Cert.Spec.mlpOf
  refine head_congr _ _ _ _ _ _ j I (fun k => ?_) h1
  show x0 (ix2 (j 0) k) + x1 (ix2 (j 0) k) = H (ix2 (I 0) k) + A (ix2 (I 0) k)
  rw [h0 k, hA k]

/-- One block of nodes: the body's normalisation at (r, q) of the block is the whole-array one at the array's (R, q). -/
theorem bn_blk3 (x0 : Vec Ideal S5000x128 .f32) (x1 x2 x3 x4 : Vec Ideal S128 .f32)
    (Z : FVec Ideal S50000x128 .f32) (M Vr G Bt : FVec Ideal S128 .f32) (j : S5000x128.Idx) (I : S50000x128.Idx)
    (h0 : x0 j = Z I) (hM : x1 = M) (hV : x2 = Vr) (hG : x3 = G) (hBt : x4 = Bt) (h1 : j 1 = I 1) :
    k3_pay1 (F := Ideal) x0 x1 x2 x3 x4 j = Cert.Spec.bnRelu Z M Vr G Bt I := by
  subst hM hV hG hBt
  rw [KPay.pay3]
  unfold Cert.Spec.bnRelu
  refine clamp_congr _ _ j I ?_
  show x3 (ix1 (j 1)) * (x0 j - x1 (ix1 (j 1))) * Ideal.rsqrt (x2 (ix1 (j 1)) + _) + x4 (ix1 (j 1))
    = x3 (ix1 (I 1)) * (Z I - x1 (ix1 (I 1))) * Ideal.rsqrt (x2 (ix1 (I 1)) + _) + x4 (ix1 (I 1))
  rw [h0, h1]

/-- One block of edges: the body's message at (r, q) of the block is the whole-array message at the array's (R, q), when
    the block's rows of the attributes and of the gathered features are the array's rows. -/
theorem msg_blk4 (x0 : Vec Ideal S8000x16 .f32) (x1 : Vec Ideal S16x128 .f32) (x2 : Vec Ideal S128 .f32) (x3 : Vec Ideal S8000x128 .f32)
    (EA : FVec Ideal S640000x16 .f32) (W : FVec Ideal S16x128 .f32) (B : FVec Ideal S128 .f32) (H : FVec Ideal S640000x128 .f32)
    (j : S8000x128.Idx) (I : S640000x128.Idx)
    (h0 : ∀ k : Fin 16, x0 (ix2 (n0 := 8000) (j 0) k) = EA (ix2 (n0 := 640000) (I 0) k)) (hW : x1 = W) (hB : x2 = B)
    (h3 : x3 j = H I) (h1 : j 1 = I 1) :
    k4_pay1 (F := Ideal) x0 x1 x2 x3 j = Cert.Spec.msgOf H EA W B I := by
  subst hW hB
  rw [KPay.pay4]
  unfold Cert.Spec.msgOf
  refine clamp_congr _ _ j I ?_
  show x3 j + rowBias (prod x0 x1) x2 j = H I + rowBias (prod EA x1) x2 I
  rw [h3]
  refine congrArg (H I + ·) (rowBias_congr _ _ _ _ j I ?_ (by rw [h1]))
  exact prod_congr _ _ _ _ j I h0 (fun k => by rw [h1])

/-- One block of nodes: the body's perceptron at (r, q) of the block is the whole-array perceptron at the array's (R, q), when
    the block's rows of h and of agg are the array's rows. -/
theorem mlp_blk5 (x0 x1 : Vec Ideal S5000x128 .f32) (x2 : Vec Ideal S128x128 .f32) (x3 : Vec Ideal S128 .f32)
    (x4 : Vec Ideal S128x128 .f32) (x5 : Vec Ideal S128 .f32)
    (H A : FVec Ideal S50000x128 .f32) (W1 : FVec Ideal S128x128 .f32) (B1 : FVec Ideal S128 .f32)
    (W2 : FVec Ideal S128x128 .f32) (B2 : FVec Ideal S128 .f32) (j : S5000x128.Idx) (I : S50000x128.Idx)
    (h0 : ∀ k : Fin 128, x0 (ix2 (n0 := 5000) (j 0) k) = H (ix2 (n0 := 50000) (I 0) k))
    (hA : ∀ k : Fin 128, x1 (ix2 (n0 := 5000) (j 0) k) = A (ix2 (n0 := 50000) (I 0) k))
    (hW1 : x2 = W1) (hB1 : x3 = B1) (hW2 : x4 = W2) (hB2 : x5 = B2) (h1 : j 1 = I 1) :
    k5_pay1 (F := Ideal) x0 x1 x2 x3 x4 x5 j = Cert.Spec.mlpOf H A W1 B1 W2 B2 I := by
  subst hW1 hB1 hW2 hB2
  rw [KPay.pay5]
  unfold Cert.Spec.mlpOf
  refine head_congr _ _ _ _ _ _ j I (fun k => ?_) h1
  show x0 (ix2 (j 0) k) + x1 (ix2 (j 0) k) = H (ix2 (I 0) k) + A (ix2 (I 0) k)
  rw [h0 k, hA k]

/-- One block of nodes: the body's normalisation at (r, q) of the block is the whole-array one at the array's (R, q). -/
theorem bn_blk6 (x0 : Vec Ideal S5000x128 .f32) (x1 x2 x3 x4 : Vec Ideal S128 .f32)
    (Z : FVec Ideal S50000x128 .f32) (M Vr G Bt : FVec Ideal S128 .f32) (j : S5000x128.Idx) (I : S50000x128.Idx)
    (h0 : x0 j = Z I) (hM : x1 = M) (hV : x2 = Vr) (hG : x3 = G) (hBt : x4 = Bt) (h1 : j 1 = I 1) :
    k6_pay1 (F := Ideal) x0 x1 x2 x3 x4 j = Cert.Spec.bnRelu Z M Vr G Bt I := by
  subst hM hV hG hBt
  rw [KPay.pay6]
  unfold Cert.Spec.bnRelu
  refine clamp_congr _ _ j I ?_
  show x3 (ix1 (j 1)) * (x0 j - x1 (ix1 (j 1))) * Ideal.rsqrt (x2 (ix1 (j 1)) + _) + x4 (ix1 (j 1))
    = x3 (ix1 (I 1)) * (Z I - x1 (ix1 (I 1))) * Ideal.rsqrt (x2 (ix1 (I 1)) + _) + x4 (ix1 (I 1))
  rw [h0, h1]

/-- One block of edges: the body's message at (r, q) of the block is the whole-array message at the array's (R, q), when
    the block's rows of the attributes and of the gathered features are the array's rows. -/
theorem msg_blk7 (x0 : Vec Ideal S8000x16 .f32) (x1 : Vec Ideal S16x128 .f32) (x2 : Vec Ideal S128 .f32) (x3 : Vec Ideal S8000x128 .f32)
    (EA : FVec Ideal S640000x16 .f32) (W : FVec Ideal S16x128 .f32) (B : FVec Ideal S128 .f32) (H : FVec Ideal S640000x128 .f32)
    (j : S8000x128.Idx) (I : S640000x128.Idx)
    (h0 : ∀ k : Fin 16, x0 (ix2 (n0 := 8000) (j 0) k) = EA (ix2 (n0 := 640000) (I 0) k)) (hW : x1 = W) (hB : x2 = B)
    (h3 : x3 j = H I) (h1 : j 1 = I 1) :
    k7_pay1 (F := Ideal) x0 x1 x2 x3 j = Cert.Spec.msgOf H EA W B I := by
  subst hW hB
  rw [KPay.pay7]
  unfold Cert.Spec.msgOf
  refine clamp_congr _ _ j I ?_
  show x3 j + rowBias (prod x0 x1) x2 j = H I + rowBias (prod EA x1) x2 I
  rw [h3]
  refine congrArg (H I + ·) (rowBias_congr _ _ _ _ j I ?_ (by rw [h1]))
  exact prod_congr _ _ _ _ j I h0 (fun k => by rw [h1])

/-- One block of nodes: the body's perceptron at (r, q) of the block is the whole-array perceptron at the array's (R, q), when
    the block's rows of h and of agg are the array's rows. -/
theorem mlp_blk8 (x0 x1 : Vec Ideal S5000x128 .f32) (x2 : Vec Ideal S128x128 .f32) (x3 : Vec Ideal S128 .f32)
    (x4 : Vec Ideal S128x128 .f32) (x5 : Vec Ideal S128 .f32)
    (H A : FVec Ideal S50000x128 .f32) (W1 : FVec Ideal S128x128 .f32) (B1 : FVec Ideal S128 .f32)
    (W2 : FVec Ideal S128x128 .f32) (B2 : FVec Ideal S128 .f32) (j : S5000x128.Idx) (I : S50000x128.Idx)
    (h0 : ∀ k : Fin 128, x0 (ix2 (n0 := 5000) (j 0) k) = H (ix2 (n0 := 50000) (I 0) k))
    (hA : ∀ k : Fin 128, x1 (ix2 (n0 := 5000) (j 0) k) = A (ix2 (n0 := 50000) (I 0) k))
    (hW1 : x2 = W1) (hB1 : x3 = B1) (hW2 : x4 = W2) (hB2 : x5 = B2) (h1 : j 1 = I 1) :
    k8_pay1 (F := Ideal) x0 x1 x2 x3 x4 x5 j = Cert.Spec.mlpOf H A W1 B1 W2 B2 I := by
  subst hW1 hB1 hW2 hB2
  rw [KPay.pay8]
  unfold Cert.Spec.mlpOf
  refine head_congr _ _ _ _ _ _ j I (fun k => ?_) h1
  show x0 (ix2 (j 0) k) + x1 (ix2 (j 0) k) = H (ix2 (I 0) k) + A (ix2 (I 0) k)
  rw [h0 k, hA k]

/-- One block of nodes: the body's normalisation at (r, q) of the block is the whole-array one at the array's (R, q). -/
theorem bn_blk9 (x0 : Vec Ideal S5000x128 .f32) (x1 x2 x3 x4 : Vec Ideal S128 .f32)
    (Z : FVec Ideal S50000x128 .f32) (M Vr G Bt : FVec Ideal S128 .f32) (j : S5000x128.Idx) (I : S50000x128.Idx)
    (h0 : x0 j = Z I) (hM : x1 = M) (hV : x2 = Vr) (hG : x3 = G) (hBt : x4 = Bt) (h1 : j 1 = I 1) :
    k9_pay1 (F := Ideal) x0 x1 x2 x3 x4 j = Cert.Spec.bnRelu Z M Vr G Bt I := by
  subst hM hV hG hBt
  rw [KPay.pay9]
  unfold Cert.Spec.bnRelu
  refine clamp_congr _ _ j I ?_
  show x3 (ix1 (j 1)) * (x0 j - x1 (ix1 (j 1))) * Ideal.rsqrt (x2 (ix1 (j 1)) + _) + x4 (ix1 (j 1))
    = x3 (ix1 (I 1)) * (Z I - x1 (ix1 (I 1))) * Ideal.rsqrt (x2 (ix1 (I 1)) + _) + x4 (ix1 (I 1))
  rw [h0, h1]

end Cert.KernelIdeal.KBlocks

end
-- ==== Proof.KRegion0.lean ====
/-
  The encoder region as a whole-array function: after its ten grid points have written their blocks back, the output
  array holds x · W + b along the rows. Point t reads rows 5000 t … 5000 t + 4999 of x and the whole of W and b, and
  writes the same rows of the result; the ten blocks tile the 50000 rows.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 0, decided over its grid: the rows move with the point, everything else stays. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

set_option maxHeartbeats 4000000 in
/-- What point t writes back is block t of the stage function of the arrays as the region finds them. -/
theorem flushed0 (c : Dev nD) (t : Fin cfg0.N) :
    (dat0 (F := Ideal) V c).flushed 3 t = ((cfg0.win 3).blk t).view.read (Elt Ideal)
      (Cert.Spec.enc (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero KBlocks.hz2]
  simp only [View.ld_unit_zero (S := S5000x64) KBlocks.hz2, View.ld_unit_zero (S := S64x128) KBlocks.hz2, View.ld_unit_zero (S := S128) KBlocks.hz1]
  obtain ⟨e0, e1, e2, e3, e4, e5, e6⟩ := idx0 t
  funext j
  refine KBlocks.enc_blk _ _ _ _ _ _ j (((cfg0.win 3).blk t).view.emb j) (fun k => ?_) (funext fun y => ?_) (funext fun y => ?_) ?_
  · show V c (Pipeline.arrRef spec0 0) (((cfg0.win 0).blk t).view.emb (ix2 (j 0) k)) = V c (Pipeline.arrRef spec0 0) (ix2 ((((cfg0.win 3).blk t).view.emb j) 0) k)
    refine congrArg (V c (Pipeline.arrRef spec0 0)) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 1) * 128 + 1 * (y 0).val = (y 0).val; omega
  · apply Fin.ext
    show (j 1).val = win0_3.index t (1 : Fin 2) * 128 + 1 * (j 1).val
    omega

/-- An index of the output array is in point t's block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every row is in the block of the point its number divided by 5000 names. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨-, -, -, -, -, e5, e6⟩ := idx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e6]; omega

/-- THE REGION: its output array after the run is the stage function of its input arrays. -/
theorem region0 (c : Dev nD) :
    (dat0 (F := Ideal) V c).arrAt 3 cfg0.N
      = Cert.Spec.enc (V c (Pipeline.arrRef spec0 0)) (V c (Pipeline.arrRef spec0 1)) (V c (Pipeline.arrRef spec0 2)) :=
  (dat0 (F := Ideal) V c).arrAt_eq_of_cover 3 _ (fun t _ => flushed0 V c t) cover0

end Cert.KernelIdeal.KRegions

end
-- ==== Proof.KRegion1.lean ====
/-
  A message region as a whole-array function: after its eighty grid points have written their blocks back, the output
  array holds clamp (h_src + (attr · eW + eb)). Point t reads rows 8000 t … 8000 t + 7999 of the edge attributes and of the
  gathered node features and the whole of eW and eb, and writes the same rows of the result; the eighty blocks tile the
  640000 edges.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 1, decided over its grid: the rows move with the point, everything else stays. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

set_option maxHeartbeats 4000000 in
/-- What point t writes back is block t of the stage function of the arrays as the region finds them. -/
theorem flushed1 (c : Dev nD) (t : Fin cfg1.N) :
    (dat1 (F := Ideal) V c).flushed 4 t = ((cfg1.win 4).blk t).view.read (Elt Ideal)
      (Cert.Spec.msgOf (V c (Pipeline.arrRef spec1 3)) (V c (Pipeline.arrRef spec1 0)) (V c (Pipeline.arrRef spec1 1)) (V c (Pipeline.arrRef spec1 2))) := by
  show (cfg1.win 4).cut (grid1.coords t) ((dat1 V c).after 4 t) = _
  rw [after1_4]
  unfold out1_4
  rw [View.canon_unit_zero KBlocks.hz2]
  simp only [View.ld_unit_zero (S := S8000x16) KBlocks.hz2, View.ld_unit_zero (S := S16x128) KBlocks.hz2, View.ld_unit_zero (S := S128) KBlocks.hz1, View.ld_unit_zero (S := S8000x128) KBlocks.hz2]
  obtain ⟨e0, e1, e2, e3, e4, e5, e6, e7, e8⟩ := idx1 t
  funext j
  refine KBlocks.msg_blk1 _ _ _ _ _ _ _ _ j (((cfg1.win 4).blk t).view.emb j) (fun k => ?_) (funext fun y => ?_) (funext fun y => ?_) ?_ ?_
  · show V c (Pipeline.arrRef spec1 0) (((cfg1.win 0).blk t).view.emb (ix2 (j 0) k)) = V c (Pipeline.arrRef spec1 0) (ix2 ((((cfg1.win 4).blk t).view.emb j) 0) k)
    refine congrArg (V c (Pipeline.arrRef spec1 0)) (funext fun a => Fin.ext ?_)
    match a with
    | ⟨0, _⟩ => show win1_0.index t (0 : Fin 2) * 8000 + 1 * (j 0).val = win1_4.index t (0 : Fin 2) * 8000 + 1 * (j 0).val; omega
    | ⟨1, _⟩ => show win1_0.index t (1 : Fin 2) * 16 + 1 * k.val = k.val; omega
  · show V c (Pipeline.arrRef spec1 1) (((cfg1.win 1).blk t).view.emb y) = V c (Pipeline.arrRef spec1 1) y
    refine congrArg (V c (Pipeline.arrRef spec1 1)) (funext fun a => Fin.ext ?_)
    match a with
    | ⟨0, _⟩ => show win1_1.index t (0 : Fin 2) * 16 + 1 * (y 0).val = (y 0).val; omega
    | ⟨1, _⟩ => show win1_1.index t (1 : Fin 2) * 128 + 1 * (y 1).val = (y 1).val; omega
  · show V c (Pipeline.arrRef spec1 2) (((cfg1.win 2).blk t).view.emb y) = V c (Pipeline.arrRef spec1 2) y
    refine congrArg (V c (Pipeline.arrRef spec1 2)) (funext fun a => Fin.ext ?_)
    match a with
    | ⟨0, _⟩ => show win1_2.index t (0 : Fin 1) * 128 + 1 * (y 0).val = (y 0).val; omega
  · show V c (Pipeline.arrRef spec1 3) (((cfg1.win 3).blk t).view.emb j) = V c (Pipeline.arrRef spec1 3) (((cfg1.win 4).blk t).view.emb j)
    refine congrArg (V c (Pipeline.arrRef spec1 3)) (funext fun a => Fin.ext ?_)
    match a with
    | ⟨0, _⟩ => show win1_3.index t (0 : Fin 2) * 8000 + 1 * (j 0).val = win1_4.index t (0 : Fin 2) * 8000 + 1 * (j 0).val; omega
    | ⟨1, _⟩ => show win1_3.index t (1 : Fin 2) * 128 + 1 * (j 1).val = win1_4.index t (1 : Fin 2) * 128 + 1 * (j 1).val; omega
  · apply Fin.ext
    show (j 1).val = win1_4.index t (1 : Fin 2) * 128 + 1 * (j 1).val
    omega

/-- An index of the output array is in point t's block iff each coordinate is in the block's range. -/
theorem mem_blk1 (t : Fin cfg1.N) (i : S640000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole (Pipeline.arrRef spec1 4)).slice (win1_4.rect t)).set ↔ _
  rw [View.set_slice_whole, Rect.mem_set_unit]
  exact Iff.rfl

/-- Every row is in the block of the point its number divided by 8000 names. -/
theorem cover1 (i : S640000x128.Idx) : ∃ t : Fin cfg1.N, (cfg1.win 4).flush t = true ∧ i ∈ ((cfg1.win 4).blk t).view.set := by
  have hi0 : (i 0).val < 640000 := (i 0).isLt
  have hi1 : (i 1).val < 128 := (i 1).isLt
  have hN : cfg1.N = 80 := N_1
  refine ⟨⟨(i 0).val / 8000, by rw [hN]; omega⟩, flush1_4 _, ?_⟩
  rw [mem_blk1]
  obtain ⟨-, -, -, -, -, -, -, e5, e6⟩ := idx1 ⟨(i 0).val / 8000, by rw [hN]; omega⟩
  intro a
  match a with
  | ⟨0, _⟩ =>
    show win1_4.index _ (0 : Fin 2) * 8000 ≤ (i 0).val ∧ (i 0).val < win1_4.index _ (0 : Fin 2) * 8000 + 8000
    rw [e5]; show (i 0).val / 8000 * 8000 ≤ (i 0).val ∧ (i 0).val < (i 0).val / 8000 * 8000 + 8000; omega
  | ⟨1, _⟩ =>
    show win1_4.index _ (1 : Fin 2) * 128 ≤ (i 1).val ∧ (i 1).val < win1_4.index _ (1 : Fin 2) * 128 + 128
    rw [e6]; omega

/-- THE REGION: its output array after the run is the stage function of its input arrays. -/
theorem region1 (c : Dev nD) :
    (dat1 (F := Ideal) V c).arrAt 4 cfg1.N
      = Cert.Spec.msgOf (V c (Pipeline.arrRef spec1 3)) (V c (Pipeline.arrRef spec1 0)) (V c (Pipeline.arrRef spec1 1)) (V c (Pipeline.arrRef spec1 2)) :=
  (dat1 (F := Ideal) V c).arrAt_eq_of_cover 4 _ (fun t _ => flushed1 V c t) cover1

end Cert.KernelIdeal.KRegions

end
-- ==== Proof.KRegion2.lean ====
/-
  A perceptron region as a whole-array function: after its ten grid points have written their blocks back, the output
  array holds the two-layer head of h + agg. Point t reads rows 5000 t … 5000 t + 4999 of h and of agg and the whole of the
  two weights and two biases, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 2, decided over its grid: the rows move with the point, everything else stays. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 2) = t.val
    ∧ win2_6.index t (1 : Fin 2) = 0 :=
  (by decide +kernel : ∀ t : Fin grid2.N, _)

set_option maxHeartbeats 4000000 in
/-- What point t writes back is block t of the stage function of the arrays as the region finds them. -/
theorem flushed2 (c : Dev nD) (t : Fin cfg2.N) :
    (dat2 (F := Ideal) V c).flushed 6 t = ((cfg2.win 6).blk t).view.read (Elt Ideal)
      (Cert.Spec.mlpOf (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero KBlocks.hz2]
  simp only [View.ld_unit_zero (S := S5000x128) KBlocks.hz2, View.ld_unit_zero (S := S128x128) KBlocks.hz2, View.ld_unit_zero (S := S128) KBlocks.hz1]
  obtain ⟨e0, e1, e2, e3, e4, e5, e6, e7, e8, e9, e10, e11⟩ := idx2 t
  funext j
  refine KBlocks.mlp_blk2 _ _ _ _ _ _ _ _ _ _ _ _ j (((cfg2.win 6).blk t).view.emb j) (fun k => ?_) (fun k => ?_) (funext fun y => ?_) (funext fun y => ?_) (funext fun y => ?_) (funext fun y => ?_) ?_
  · show V c (Pipeline.arrRef spec2 0) (((cfg2.win 0).blk t).view.emb (ix2 (j 0) k)) = V c (Pipeline.arrRef spec2 0) (ix2 ((((cfg2.win 6).blk t).view.emb j) 0) k)
    refine congrArg (V c (Pipeline.arrRef spec2 0)) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * k.val = k.val; omega
  · show V c (Pipeline.arrRef spec2 1) (((cfg2.win 1).blk t).view.emb (ix2 (j 0) k)) = V c (Pipeline.arrRef spec2 1) (ix2 ((((cfg2.win 6).blk t).view.emb j) 0) k)
    refine congrArg (V c (Pipeline.arrRef spec2 1)) (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 128 + 1 * k.val = k.val; omega
  · show V c (Pipeline.arrRef spec2 2) (((cfg2.win 2).blk t).view.emb y) = V c (Pipeline.arrRef spec2 2) y
    refine congrArg (V c (Pipeline.arrRef spec2 2)) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · show V c (Pipeline.arrRef spec2 3) (((cfg2.win 3).blk t).view.emb y) = V c (Pipeline.arrRef spec2 3) y
    refine congrArg (V c (Pipeline.arrRef spec2 3)) (funext fun a => Fin.ext ?_)
    match a with
    | ⟨0, _⟩ => show win2_3.index t (0 : Fin 1) * 128 + 1 * (y 0).val = (y 0).val; omega
  · show V c (Pipeline.arrRef spec2 4) (((cfg2.win 4).blk t).view.emb y) = V c (Pipeline.arrRef spec2 4) y
    refine congrArg (V c (Pipeline.arrRef spec2 4)) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · show V c (Pipeline.arrRef spec2 5) (((cfg2.win 5).blk t).view.emb y) = V c (Pipeline.arrRef spec2 5) y
    refine congrArg (V c (Pipeline.arrRef spec2 5)) (funext fun a => Fin.ext ?_)
    match a with
    | ⟨0, _⟩ => show win2_5.index t (0 : Fin 1) * 128 + 1 * (y 0).val = (y 0).val; omega
  · apply Fin.ext
    show (j 1).val = win2_6.index t (1 : Fin 2) * 128 + 1 * (j 1).val
    omega

/-- An index of the output array is in point t's block iff each coordinate is in the block's range. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every row is in the block of the point its number divided by 5000 names. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_6 _, ?_⟩
  rw [mem_blk2]
  obtain ⟨-, -, -, -, -, -, -, -, -, -, e5, e6⟩ := idx2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e5]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e6]; omega

/-- THE REGION: its output array after the run is the stage function of its input arrays. -/
theorem region2 (c : Dev nD) :
    (dat2 (F := Ideal) V c).arrAt 6 cfg2.N
      = Cert.Spec.mlpOf (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed2 V c t) cover2

end Cert.KernelIdeal.KRegions

end
-- ==== Proof.KRegion3.lean ====
/-
  A normalisation region as a whole-array function: after its ten grid points have written their blocks back, the output
  array holds clamp (gamma · (z - mean) · rsqrt (var + eps) + beta). Point t reads rows 5000 t … 5000 t + 4999 of z and the
  whole of the four column vectors, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 3, decided over its grid: the rows move with the point, everything else stays. -/
theorem idx3 : ∀ t : Fin cfg3.N, win3_0.index t (0 : Fin 2) = t.val
    ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = t.val
    ∧ win3_5.index t (1 : Fin 2) = 0 :=
  (by decide +kernel : ∀ t : Fin grid3.N, _)

set_option maxHeartbeats 4000000 in
/-- What point t writes back is block t of the stage function of the arrays as the region finds them. -/
theorem flushed3 (c : Dev nD) (t : Fin cfg3.N) :
    (dat3 (F := Ideal) V c).flushed 5 t = ((cfg3.win 5).blk t).view.read (Elt Ideal)
      (Cert.Spec.bnRelu (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero KBlocks.hz2]
  simp only [View.ld_unit_zero (S := S5000x128) KBlocks.hz2, View.ld_unit_zero (S := S128) KBlocks.hz1]
  obtain ⟨e0, e1, e2, e3, e4, e5, e6, e7⟩ := idx3 t
  funext j
  refine KBlocks.bn_blk3 _ _ _ _ _ _ _ _ _ _ j (((cfg3.win 5).blk t).view.emb j) ?_ (funext fun y => ?_) (funext fun y => ?_) (funext fun y => ?_) (funext fun y => ?_) ?_
  · show V c (Pipeline.arrRef spec3 0) (((cfg3.win 0).blk t).view.emb j) = V c (Pipeline.arrRef spec3 0) (((cfg3.win 5).blk t).view.emb j)
    refine congrArg (V c (Pipeline.arrRef spec3 0)) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * (j 1).val = win3_5.index t (1 : Fin 2) * 128 + 1 * (j 1).val; omega
  · show V c (Pipeline.arrRef spec3 1) (((cfg3.win 1).blk t).view.emb y) = V c (Pipeline.arrRef spec3 1) y
    refine congrArg (V c (Pipeline.arrRef spec3 1)) (funext fun a => Fin.ext ?_)
    match a with
    | ⟨0, _⟩ => show win3_1.index t (0 : Fin 1) * 128 + 1 * (y 0).val = (y 0).val; omega
  · show V c (Pipeline.arrRef spec3 2) (((cfg3.win 2).blk t).view.emb y) = V c (Pipeline.arrRef spec3 2) y
    refine congrArg (V c (Pipeline.arrRef spec3 2)) (funext fun a => Fin.ext ?_)
    match a with
    | ⟨0, _⟩ => show win3_2.index t (0 : Fin 1) * 128 + 1 * (y 0).val = (y 0).val; omega
  · show V c (Pipeline.arrRef spec3 3) (((cfg3.win 3).blk t).view.emb y) = V c (Pipeline.arrRef spec3 3) y
    refine congrArg (V c (Pipeline.arrRef spec3 3)) (funext fun a => Fin.ext ?_)
    match a with
    | ⟨0, _⟩ => show win3_3.index t (0 : Fin 1) * 128 + 1 * (y 0).val = (y 0).val; omega
  · show V c (Pipeline.arrRef spec3 4) (((cfg3.win 4).blk t).view.emb y) = V c (Pipeline.arrRef spec3 4) y
    refine congrArg (V c (Pipeline.arrRef spec3 4)) (funext fun a => Fin.ext ?_)
    match a with
    | ⟨0, _⟩ => show win3_4.index t (0 : Fin 1) * 128 + 1 * (y 0).val = (y 0).val; omega
  · apply Fin.ext
    show (j 1).val = win3_5.index t (1 : Fin 2) * 128 + 1 * (j 1).val
    omega

/-- An index of the output array is in point t's block iff each coordinate is in the block's range. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Every row is in the block of the point its number divided by 5000 names. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  rw [mem_blk3]
  obtain ⟨-, -, -, -, -, -, e5, e6⟩ := idx3 ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e5]; show (i 0).val / 5000 * 5000 ≤ (i 0).val ∧ (i 0).val < (i 0).val / 5000 * 5000 + 5000; omega
  | ⟨1, _⟩ =>
    show win3_5.index _ (1 : Fin 2) * 128 ≤ (i 1).val ∧ (i 1).val < win3_5.index _ (1 : Fin 2) * 128 + 128
    rw [e6]; omega

/-- THE REGION: its output array after the run is the stage function of its input arrays. -/
theorem region3 (c : Dev nD) :
    (dat3 (F := Ideal) V c).arrAt 5 cfg3.N
      = Cert.Spec.bnRelu (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed3 V c t) cover3

end Cert.KernelIdeal.KRegions

end
-- ==== Proof.KRegion4.lean ====
/-
  A message region as a whole-array function: after its eighty grid points have written their blocks back, the output
  array holds clamp (h_src + (attr · eW + eb)). Point t reads rows 8000 t … 8000 t + 7999 of the edge attributes and of the
  gathered node features and the whole of eW and eb, and writes the same rows of the result; the eighty blocks tile the
  640000 edges.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 4, decided over its grid: the rows move with the point, everything else stays. -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = t.val
    ∧ win4_3.index t (1 : Fin 2) = 0
    ∧ win4_4.index t (0 : Fin 2) = t.val
    ∧ win4_4.index t (1 : Fin 2) = 0 :=
  (by decide +kernel : ∀ t : Fin grid4.N, _)

set_option maxHeartbeats 4000000 in
/-- What point t writes back is block t of the stage function of the arrays as the region finds them. -/
theorem flushed4 (c : Dev nD) (t : Fin cfg4.N) :
    (dat4 (F := Ideal) V c).flushed 4 t = ((cfg4.win 4).blk t).view.read (Elt Ideal)
      (Cert.Spec.msgOf (V c (Pipeline.arrRef spec4 3)) (V c (Pipeline.arrRef spec4 0)) (V c (Pipeline.arrRef spec4 1)) (V c (Pipeline.arrRef spec4 2))) := by
  show (cfg4.win 4).cut (grid4.coords t) ((dat4 V c).after 4 t) = _
  rw [after4_4]
  unfold out4_4
  rw [View.canon_unit_zero KBlocks.hz2]
  simp only [View.ld_unit_zero (S := S8000x16) KBlocks.hz2, View.ld_unit_zero (S := S16x128) KBlocks.hz2, View.ld_unit_zero (S := S128) KBlocks.hz1, View.ld_unit_zero (S := S8000x128) KBlocks.hz2]
  obtain ⟨e0, e1, e2, e3, e4, e5, e6, e7, e8⟩ := idx4 t
  funext j
  refine KBlocks.msg_blk4 _ _ _ _ _ _ _ _ j (((cfg4.win 4).blk t).view.emb j) (fun k => ?_) (funext fun y => ?_) (funext fun y => ?_) ?_ ?_
  · show V c (Pipeline.arrRef spec4 0) (((cfg4.win 0).blk t).view.emb (ix2 (j 0) k)) = V c (Pipeline.arrRef spec4 0) (ix2 ((((cfg4.win 4).blk t).view.emb j) 0) k)
    refine congrArg (V c (Pipeline.arrRef spec4 0)) (funext fun a => Fin.ext ?_)
    match a with
    | ⟨0, _⟩ => show win4_0.index t (0 : Fin 2) * 8000 + 1 * (j 0).val = win4_4.index t (0 : Fin 2) * 8000 + 1 * (j 0).val; omega
    | ⟨1, _⟩ => show win4_0.index t (1 : Fin 2) * 16 + 1 * k.val = k.val; omega
  · show V c (Pipeline.arrRef spec4 1) (((cfg4.win 1).blk t).view.emb y) = V c (Pipeline.arrRef spec4 1) y
    refine congrArg (V c (Pipeline.arrRef spec4 1)) (funext fun a => Fin.ext ?_)
    match a with
    | ⟨0, _⟩ => show win4_1.index t (0 : Fin 2) * 16 + 1 * (y 0).val = (y 0).val; omega
    | ⟨1, _⟩ => show win4_1.index t (1 : Fin 2) * 128 + 1 * (y 1).val = (y 1).val; omega
  · show V c (Pipeline.arrRef spec4 2) (((cfg4.win 2).blk t).view.emb y) = V c (Pipeline.arrRef spec4 2) y
    refine congrArg (V c (Pipeline.arrRef spec4 2)) (funext fun a => Fin.ext ?_)
    match a with
    | ⟨0, _⟩ => show win4_2.index t (0 : Fin 1) * 128 + 1 * (y 0).val = (y 0).val; omega
  · show V c (Pipeline.arrRef spec4 3) (((cfg4.win 3).blk t).view.emb j) = V c (Pipeline.arrRef spec4 3) (((cfg4.win 4).blk t).view.emb j)
    refine congrArg (V c (Pipeline.arrRef spec4 3)) (funext fun a => Fin.ext ?_)
    match a with
    | ⟨0, _⟩ => show win4_3.index t (0 : Fin 2) * 8000 + 1 * (j 0).val = win4_4.index t (0 : Fin 2) * 8000 + 1 * (j 0).val; omega
    | ⟨1, _⟩ => show win4_3.index t (1 : Fin 2) * 128 + 1 * (j 1).val = win4_4.index t (1 : Fin 2) * 128 + 1 * (j 1).val; omega
  · apply Fin.ext
    show (j 1).val = win4_4.index t (1 : Fin 2) * 128 + 1 * (j 1).val
    omega

/-- An index of the output array is in point t's block iff each coordinate is in the block's range. -/
theorem mem_blk4 (t : Fin cfg4.N) (i : S640000x128.Idx) :
    i ∈ ((cfg4.win 4).blk t).view.set ↔ ∀ a : Fin 2, win4_4.index t a * S8000x128.size a ≤ (i a).val ∧ (i a).val < win4_4.index t a * S8000x128.size a + S8000x128.size a := by
  show i ∈ ((View.whole (Pipeline.arrRef spec4 4)).slice (win4_4.rect t)).set ↔ _
  rw [View.set_slice_whole, Rect.mem_set_unit]
  exact Iff.rfl

/-- Every row is in the block of the point its number divided by 8000 names. -/
theorem cover4 (i : S640000x128.Idx) : ∃ t : Fin cfg4.N, (cfg4.win 4).flush t = true ∧ i ∈ ((cfg4.win 4).blk t).view.set := by
  have hi0 : (i 0).val < 640000 := (i 0).isLt
  have hi1 : (i 1).val < 128 := (i 1).isLt
  have hN : cfg4.N = 80 := N_4
  refine ⟨⟨(i 0).val / 8000, by rw [hN]; omega⟩, flush4_4 _, ?_⟩
  rw [mem_blk4]
  obtain ⟨-, -, -, -, -, -, -, e5, e6⟩ := idx4 ⟨(i 0).val / 8000, by rw [hN]; omega⟩
  intro a
  match a with
  | ⟨0, _⟩ =>
    show win4_4.index _ (0 : Fin 2) * 8000 ≤ (i 0).val ∧ (i 0).val < win4_4.index _ (0 : Fin 2) * 8000 + 8000
    rw [e5]; show (i 0).val / 8000 * 8000 ≤ (i 0).val ∧ (i 0).val < (i 0).val / 8000 * 8000 + 8000; omega
  | ⟨1, _⟩ =>
    show win4_4.index _ (1 : Fin 2) * 128 ≤ (i 1).val ∧ (i 1).val < win4_4.index _ (1 : Fin 2) * 128 + 128
    rw [e6]; omega

/-- THE REGION: its output array after the run is the stage function of its input arrays. -/
theorem region4 (c : Dev nD) :
    (dat4 (F := Ideal) V c).arrAt 4 cfg4.N
      = Cert.Spec.msgOf (V c (Pipeline.arrRef spec4 3)) (V c (Pipeline.arrRef spec4 0)) (V c (Pipeline.arrRef spec4 1)) (V c (Pipeline.arrRef spec4 2)) :=
  (dat4 (F := Ideal) V c).arrAt_eq_of_cover 4 _ (fun t _ => flushed4 V c t) cover4

end Cert.KernelIdeal.KRegions

end
-- ==== Proof.KRegion5.lean ====
/-
  A perceptron region as a whole-array function: after its ten grid points have written their blocks back, the output
  array holds the two-layer head of h + agg. Point t reads rows 5000 t … 5000 t + 4999 of h and of agg and the whole of the
  two weights and two biases, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 5, decided over its grid: the rows move with the point, everything else stays. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 1) = 0
    ∧ win5_4.index t (0 : Fin 2) = 0
    ∧ win5_4.index t (1 : Fin 2) = 0
    ∧ win5_5.index t (0 : Fin 1) = 0
    ∧ win5_6.index t (0 : Fin 2) = t.val
    ∧ win5_6.index t (1 : Fin 2) = 0 :=
  (by decide +kernel : ∀ t : Fin grid5.N, _)

set_option maxHeartbeats 4000000 in
/-- What point t writes back is block t of the stage function of the arrays as the region finds them. -/
theorem flushed5 (c : Dev nD) (t : Fin cfg5.N) :
    (dat5 (F := Ideal) V c).flushed 6 t = ((cfg5.win 6).blk t).view.read (Elt Ideal)
      (Cert.Spec.mlpOf (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero KBlocks.hz2]
  simp only [View.ld_unit_zero (S := S5000x128) KBlocks.hz2, View.ld_unit_zero (S := S128x128) KBlocks.hz2, View.ld_unit_zero (S := S128) KBlocks.hz1]
  obtain ⟨e0, e1, e2, e3, e4, e5, e6, e7, e8, e9, e10, e11⟩ := idx5 t
  funext j
  refine KBlocks.mlp_blk5 _ _ _ _ _ _ _ _ _ _ _ _ j (((cfg5.win 6).blk t).view.emb j) (fun k => ?_) (fun k => ?_) (funext fun y => ?_) (funext fun y => ?_) (funext fun y => ?_) (funext fun y => ?_) ?_
  · show V c (Pipeline.arrRef spec5 0) (((cfg5.win 0).blk t).view.emb (ix2 (j 0) k)) = V c (Pipeline.arrRef spec5 0) (ix2 ((((cfg5.win 6).blk t).view.emb j) 0) k)
    refine congrArg (V c (Pipeline.arrRef spec5 0)) (funext fun a => Fin.ext ?_)
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 128 + 1 * k.val = k.val; omega
  · show V c (Pipeline.arrRef spec5 1) (((cfg5.win 1).blk t).view.emb (ix2 (j 0) k)) = V c (Pipeline.arrRef spec5 1) (ix2 ((((cfg5.win 6).blk t).view.emb j) 0) k)
    refine congrArg (V c (Pipeline.arrRef spec5 1)) (funext fun a => Fin.ext ?_)
    match a with
    | ⟨0, _⟩ => show win5_1.index t (0 : Fin 2) * 5000 + 1 * (j 0).val = win5_6.index t (0 : Fin 2) * 5000 + 1 * (j 0).val; omega
    | ⟨1, _⟩ => show win5_1.index t (1 : Fin 2) * 128 + 1 * k.val = k.val; omega
  · show V c (Pipeline.arrRef spec5 2) (((cfg5.win 2).blk t).view.emb y) = V c (Pipeline.arrRef spec5 2) y
    refine congrArg (V c (Pipeline.arrRef spec5 2)) (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · show V c (Pipeline.arrRef spec5 3) (((cfg5.win 3).blk t).view.emb y) = V c (Pipeline.arrRef spec5 3) y
    refine congrArg (V c (Pipeline.arrRef spec5 3)) (funext fun a => Fin.ext ?_)
    match a with
    | ⟨0, _⟩ => show win5_3.index t (0 : Fin 1) * 128 + 1 * (y 0).val = (y 0).val; omega
  · show V c (Pipeline.arrRef spec5 4) (((cfg5.win 4).blk t).view.emb y) = V c (Pipeline.arrRef spec5 4) y
    refine congrArg (V c (Pipeline.arrRef spec5 4)) (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  · show V c (Pipeline.arrRef spec5 5) (((cfg5.win 5).blk t).view.emb y) = V c (Pipeline.arrRef spec5 5) y
    refine congrArg (V c (Pipeline.arrRef spec5 5)) (funext fun a => Fin.ext ?_)
    match a with
    | ⟨0, _⟩ => show win5_5.index t (0 : Fin 1) * 128 + 1 * (y 0).val = (y 0).val; omega
  · apply Fin.ext
    show (j 1).val = win5_6.index t (1 : Fin 2) * 128 + 1 * (j 1).val
    omega

/-- An index of the output array is in point t's block iff each coordinate is in the block's range. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole (Pipeline.arrRef spec5 6)).slice (win5_6.rect t)).set ↔ _
  rw [View.set_slice_whole, Rect.mem_set_unit]
  exact Iff.rfl

/-- Every row is in the block of the point its number divided by 5000 names. -/
theorem cover5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_6 _, ?_⟩
  rw [mem_blk5]
  obtain ⟨-, -, -, -, -, -, -, -, -, -, e5, e6⟩ := idx5 ⟨(i 0).val / 5000, by rw [hN]; omega⟩
  intro a
  match a with
  | ⟨0, _⟩ =>
    show win5_6.index _ (0 : Fin 2) * 5000 ≤ (i 0).val ∧ (i 0).val < win5_6.index _ (0 : Fin 2) * 5000 + 5000
    rw [e5]; show (i 0).val / 5000 * 5000 ≤ (i 0).val ∧ (i 0).val < (i 0).val / 5000 * 5000 + 5000; omega
  | ⟨1, _⟩ =>
    show win5_6.index _ (1 : Fin 2) * 128 ≤ (i 1).val ∧ (i 1).val < win5_6.index _ (1 : Fin 2) * 128 + 128
    rw [e6]; omega

/-- THE REGION: its output array after the run is the stage function of its input arrays. -/
theorem region5 (c : Dev nD) :
    (dat5 (F := Ideal) V c).arrAt 6 cfg5.N
      = Cert.Spec.mlpOf (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 _ (fun t _ => flushed5 V c t) cover5

end Cert.KernelIdeal.KRegions

end
-- ==== Proof.KRegion6.lean ====
/-
  A normalisation region as a whole-array function: after its ten grid points have written their blocks back, the output
  array holds clamp (gamma · (z - mean) · rsqrt (var + eps) + beta). Point t reads rows 5000 t … 5000 t + 4999 of z and the
  whole of the four column vectors, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 6, decided over its grid: the rows move with the point, everything else stays. -/
theorem idx6 : ∀ t : Fin cfg6.N, win6_0.index t (0 : Fin 2) = t.val
    ∧ win6_0.index t (1 : Fin 2) = 0
    ∧ win6_1.index t (0 : Fin 1) = 0
    ∧ win6_2.index t (0 : Fin 1) = 0
    ∧ win6_3.index t (0 : Fin 1) = 0
    ∧ win6_4.index t (0 : Fin 1) = 0
    ∧ win6_5.index t (0 : Fin 2) = t.val
    ∧ win6_5.index t (1 : Fin 2) = 0 :=
  (by decide +kernel : ∀ t : Fin grid6.N, _)

set_option maxHeartbeats 4000000 in
/-- What point t writes back is block t of the stage function of the arrays as the region finds them. -/
theorem flushed6 (c : Dev nD) (t : Fin cfg6.N) :
    (dat6 (F := Ideal) V c).flushed 5 t = ((cfg6.win 5).blk t).view.read (Elt Ideal)
      (Cert.Spec.bnRelu (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero KBlocks.hz2]
  simp only [View.ld_unit_zero (S := S5000x128) KBlocks.hz2, View.ld_unit_zero (S := S128) KBlocks.hz1]
  obtain ⟨e0, e1, e2, e3, e4, e5, e6, e7⟩ := idx6 t
  funext j
  refine KBlocks.bn_blk6 _ _ _ _ _ _ _ _ _ _ j (((cfg6.win 5).blk t).view.emb j) ?_ (funext fun y => ?_) (funext fun y => ?_) (funext fun y => ?_) (funext fun y => ?_) ?_
  · show V c (Pipeline.arrRef spec6 0) (((cfg6.win 0).blk t).view.emb j) = V c (Pipeline.arrRef spec6 0) (((cfg6.win 5).blk t).view.emb j)
    refine congrArg (V c (Pipeline.arrRef spec6 0)) (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * (j 1).val = win6_5.index t (1 : Fin 2) * 128 + 1 * (j 1).val; omega
  · show V c (Pipeline.arrRef spec6 1) (((cfg6.win 1).blk t).view.emb y) = V c (Pipeline.arrRef spec6 1) y
    refine congrArg (V c (Pipeline.arrRef spec6 1)) (funext fun a => Fin.ext ?_)
    match a with
    | ⟨0, _⟩ => show win6_1.index t (0 : Fin 1) * 128 + 1 * (y 0).val = (y 0).val; omega
  · show V c (Pipeline.arrRef spec6 2) (((cfg6.win 2).blk t).view.emb y) = V c (Pipeline.arrRef spec6 2) y
    refine congrArg (V c (Pipeline.arrRef spec6 2)) (funext fun a => Fin.ext ?_)
    match a with
    | ⟨0, _⟩ => show win6_2.index t (0 : Fin 1) * 128 + 1 * (y 0).val = (y 0).val; omega
  · show V c (Pipeline.arrRef spec6 3) (((cfg6.win 3).blk t).view.emb y) = V c (Pipeline.arrRef spec6 3) y
    refine congrArg (V c (Pipeline.arrRef spec6 3)) (funext fun a => Fin.ext ?_)
    match a with
    | ⟨0, _⟩ => show win6_3.index t (0 : Fin 1) * 128 + 1 * (y 0).val = (y 0).val; omega
  · show V c (Pipeline.arrRef spec6 4) (((cfg6.win 4).blk t).view.emb y) = V c (Pipeline.arrRef spec6 4) y
    refine congrArg (V c (Pipeline.arrRef spec6 4)) (funext fun a => Fin.ext ?_)
    match a with
    | ⟨0, _⟩ => show win6_4.index t (0 : Fin 1) * 128 + 1 * (y 0).val = (y 0).val; omega
  · apply Fin.ext
    show (j 1).val = win6_5.index t (1 : Fin 2) * 128 + 1 * (j 1).val
    omega

/-- An index of the output array is in point t's block iff each coordinate is in the block's range. -/
theorem mem_blk6 (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole (Pipeline.arrRef spec6 5)).slice (win6_5.rect t)).set ↔ _
  rw [View.set_slice_whole, Rect.mem_set_unit]
  exact Iff.rfl

/-- Every row is in the block of the point its number divided by 5000 names. -/
theorem cover6 (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  refine ⟨⟨(i 0).val / 5000, by rw [hN]; omega⟩, flush6_5 _, ?_⟩
  rw [mem_blk6]
  obtain ⟨-, -, -, -, -, -, e5, e6⟩ := idx6 ⟨(i 0).val / 5000, by rw [hN]; omega⟩
  intro a
  match a with
  | ⟨0, _⟩ =>
    show win6_5.index _ (0 : Fin 2) * 5000 ≤ (i 0).val ∧ (i 0).val < win6_5.index _ (0 : Fin 2) * 5000 + 5000
    rw [e5]; show (i 0).val / 5000 * 5000 ≤ (i 0).val ∧ (i 0).val < (i 0).val / 5000 * 5000 + 5000; omega
  | ⟨1, _⟩ =>
    show win6_5.index _ (1 : Fin 2) * 128 ≤ (i 1).val ∧ (i 1).val < win6_5.index _ (1 : Fin 2) * 128 + 128
    rw [e6]; omega

/-- THE REGION: its output array after the run is the stage function of its input arrays. -/
theorem region6 (c : Dev nD) :
    (dat6 (F := Ideal) V c).arrAt 5 cfg6.N
      = Cert.Spec.bnRelu (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => flushed6 V c t) cover6

end Cert.KernelIdeal.KRegions

end
-- ==== Proof.KRegion7.lean ====
/-
  A message region as a whole-array function: after its eighty grid points have written their blocks back, the output
  array holds clamp (h_src + (attr · eW + eb)). Point t reads rows 8000 t … 8000 t + 7999 of the edge attributes and of the
  gathered node features and the whole of eW and eb, and writes the same rows of the result; the eighty blocks tile the
  640000 edges.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 7, decided over its grid: the rows move with the point, everything else stays. -/
theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 1) = 0
    ∧ win7_3.index t (0 : Fin 2) = t.val
    ∧ win7_3.index t (1 : Fin 2) = 0
    ∧ win7_4.index t (0 : Fin 2) = t.val
    ∧ win7_4.index t (1 : Fin 2) = 0 :=
  (by decide +kernel : ∀ t : Fin grid7.N, _)

set_option maxHeartbeats 4000000 in
/-- What point t writes back is block t of the stage function of the arrays as the region finds them. -/
theorem flushed7 (c : Dev nD) (t : Fin cfg7.N) :
    (dat7 (F := Ideal) V c).flushed 4 t = ((cfg7.win 4).blk t).view.read (Elt Ideal)
      (Cert.Spec.msgOf (V c (Pipeline.arrRef spec7 3)) (V c (Pipeline.arrRef spec7 0)) (V c (Pipeline.arrRef spec7 1)) (V c (Pipeline.arrRef spec7 2))) := by
  show (cfg7.win 4).cut (grid7.coords t) ((dat7 V c).after 4 t) = _
  rw [after7_4]
  unfold out7_4
  rw [View.canon_unit_zero KBlocks.hz2]
  simp only [View.ld_unit_zero (S := S8000x16) KBlocks.hz2, View.ld_unit_zero (S := S16x128) KBlocks.hz2, View.ld_unit_zero (S := S128) KBlocks.hz1, View.ld_unit_zero (S := S8000x128) KBlocks.hz2]
  obtain ⟨e0, e1, e2, e3, e4, e5, e6, e7, e8⟩ := idx7 t
  funext j
  refine KBlocks.msg_blk7 _ _ _ _ _ _ _ _ j (((cfg7.win 4).blk t).view.emb j) (fun k => ?_) (funext fun y => ?_) (funext fun y => ?_) ?_ ?_
  · show V c (Pipeline.arrRef spec7 0) (((cfg7.win 0).blk t).view.emb (ix2 (j 0) k)) = V c (Pipeline.arrRef spec7 0) (ix2 ((((cfg7.win 4).blk t).view.emb j) 0) k)
    refine congrArg (V c (Pipeline.arrRef spec7 0)) (funext fun a => Fin.ext ?_)
    match a with
    | ⟨0, _⟩ => show win7_0.index t (0 : Fin 2) * 8000 + 1 * (j 0).val = win7_4.index t (0 : Fin 2) * 8000 + 1 * (j 0).val; omega
    | ⟨1, _⟩ => show win7_0.index t (1 : Fin 2) * 16 + 1 * k.val = k.val; omega
  · show V c (Pipeline.arrRef spec7 1) (((cfg7.win 1).blk t).view.emb y) = V c (Pipeline.arrRef spec7 1) y
    refine congrArg (V c (Pipeline.arrRef spec7 1)) (funext fun a => Fin.ext ?_)
    match a with
    | ⟨0, _⟩ => show win7_1.index t (0 : Fin 2) * 16 + 1 * (y 0).val = (y 0).val; omega
    | ⟨1, _⟩ => show win7_1.index t (1 : Fin 2) * 128 + 1 * (y 1).val = (y 1).val; omega
  · show V c (Pipeline.arrRef spec7 2) (((cfg7.win 2).blk t).view.emb y) = V c (Pipeline.arrRef spec7 2) y
    refine congrArg (V c (Pipeline.arrRef spec7 2)) (funext fun a => Fin.ext ?_)
    match a with
    | ⟨0, _⟩ => show win7_2.index t (0 : Fin 1) * 128 + 1 * (y 0).val = (y 0).val; omega
  · show V c (Pipeline.arrRef spec7 3) (((cfg7.win 3).blk t).view.emb j) = V c (Pipeline.arrRef spec7 3) (((cfg7.win 4).blk t).view.emb j)
    refine congrArg (V c (Pipeline.arrRef spec7 3)) (funext fun a => Fin.ext ?_)
    match a with
    | ⟨0, _⟩ => show win7_3.index t (0 : Fin 2) * 8000 + 1 * (j 0).val = win7_4.index t (0 : Fin 2) * 8000 + 1 * (j 0).val; omega
    | ⟨1, _⟩ => show win7_3.index t (1 : Fin 2) * 128 + 1 * (j 1).val = win7_4.index t (1 : Fin 2) * 128 + 1 * (j 1).val; omega
  · apply Fin.ext
    show (j 1).val = win7_4.index t (1 : Fin 2) * 128 + 1 * (j 1).val
    omega

/-- An index of the output array is in point t's block iff each coordinate is in the block's range. -/
theorem mem_blk7 (t : Fin cfg7.N) (i : S640000x128.Idx) :
    i ∈ ((cfg7.win 4).blk t).view.set ↔ ∀ a : Fin 2, win7_4.index t a * S8000x128.size a ≤ (i a).val ∧ (i a).val < win7_4.index t a * S8000x128.size a + S8000x128.size a := by
  show i ∈ ((View.whole (Pipeline.arrRef spec7 4)).slice (win7_4.rect t)).set ↔ _
  rw [View.set_slice_whole, Rect.mem_set_unit]
  exact Iff.rfl

/-- Every row is in the block of the point its number divided by 8000 names. -/
theorem cover7 (i : S640000x128.Idx) : ∃ t : Fin cfg7.N, (cfg7.win 4).flush t = true ∧ i ∈ ((cfg7.win 4).blk t).view.set := by
  have hi0 : (i 0).val < 640000 := (i 0).isLt
  have hi1 : (i 1).val < 128 := (i 1).isLt
  have hN : cfg7.N = 80 := N_7
  refine ⟨⟨(i 0).val / 8000, by rw [hN]; omega⟩, flush7_4 _, ?_⟩
  rw [mem_blk7]
  obtain ⟨-, -, -, -, -, -, -, e5, e6⟩ := idx7 ⟨(i 0).val / 8000, by rw [hN]; omega⟩
  intro a
  match a with
  | ⟨0, _⟩ =>
    show win7_4.index _ (0 : Fin 2) * 8000 ≤ (i 0).val ∧ (i 0).val < win7_4.index _ (0 : Fin 2) * 8000 + 8000
    rw [e5]; show (i 0).val / 8000 * 8000 ≤ (i 0).val ∧ (i 0).val < (i 0).val / 8000 * 8000 + 8000; omega
  | ⟨1, _⟩ =>
    show win7_4.index _ (1 : Fin 2) * 128 ≤ (i 1).val ∧ (i 1).val < win7_4.index _ (1 : Fin 2) * 128 + 128
    rw [e6]; omega

/-- THE REGION: its output array after the run is the stage function of its input arrays. -/
theorem region7 (c : Dev nD) :
    (dat7 (F := Ideal) V c).arrAt 4 cfg7.N
      = Cert.Spec.msgOf (V c (Pipeline.arrRef spec7 3)) (V c (Pipeline.arrRef spec7 0)) (V c (Pipeline.arrRef spec7 1)) (V c (Pipeline.arrRef spec7 2)) :=
  (dat7 (F := Ideal) V c).arrAt_eq_of_cover 4 _ (fun t _ => flushed7 V c t) cover7

end Cert.KernelIdeal.KRegions

end
-- ==== Proof.KRegion8.lean ====
/-
  A perceptron region as a whole-array function: after its ten grid points have written their blocks back, the output
  array holds the two-layer head of h + agg. Point t reads rows 5000 t … 5000 t + 4999 of h and of agg and the whole of the
  two weights and two biases, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 8, decided over its grid: the rows move with the point, everything else stays. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 1) = 0
    ∧ win8_4.index t (0 : Fin 2) = 0
    ∧ win8_4.index t (1 : Fin 2) = 0
    ∧ win8_5.index t (0 : Fin 1) = 0
    ∧ win8_6.index t (0 : Fin 2) = t.val
    ∧ win8_6.index t (1 : Fin 2) = 0 :=
  (by decide +kernel : ∀ t : Fin grid8.N, _)

set_option maxHeartbeats 4000000 in
/-- What point t writes back is block t of the stage function of the arrays as the region finds them. -/
theorem flushed8 (c : Dev nD) (t : Fin cfg8.N) :
    (dat8 (F := Ideal) V c).flushed 6 t = ((cfg8.win 6).blk t).view.read (Elt Ideal)
      (Cert.Spec.mlpOf (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero KBlocks.hz2]
  simp only [View.ld_unit_zero (S := S5000x128) KBlocks.hz2, View.ld_unit_zero (S := S128x128) KBlocks.hz2, View.ld_unit_zero (S := S128) KBlocks.hz1]
  obtain ⟨e0, e1, e2, e3, e4, e5, e6, e7, e8, e9, e10, e11⟩ := idx8 t
  funext j
  refine KBlocks.mlp_blk8 _ _ _ _ _ _ _ _ _ _ _ _ j (((cfg8.win 6).blk t).view.emb j) (fun k => ?_) (fun k => ?_) (funext fun y => ?_) (funext fun y => ?_) (funext fun y => ?_) (funext fun y => ?_) ?_
  · show V c (Pipeline.arrRef spec8 0) (((cfg8.win 0).blk t).view.emb (ix2 (j 0) k)) = V c (Pipeline.arrRef spec8 0) (ix2 ((((cfg8.win 6).blk t).view.emb j) 0) k)
    refine congrArg (V c (Pipeline.arrRef spec8 0)) (funext fun a => Fin.ext ?_)
    match a with
    | ⟨0, _⟩ => show win8_0.index t (0 : Fin 2) * 5000 + 1 * (j 0).val = win8_6.index t (0 : Fin 2) * 5000 + 1 * (j 0).val; omega
    | ⟨1, _⟩ => show win8_0.index t (1 : Fin 2) * 128 + 1 * k.val = k.val; omega
  · show V c (Pipeline.arrRef spec8 1) (((cfg8.win 1).blk t).view.emb (ix2 (j 0) k)) = V c (Pipeline.arrRef spec8 1) (ix2 ((((cfg8.win 6).blk t).view.emb j) 0) k)
    refine congrArg (V c (Pipeline.arrRef spec8 1)) (funext fun a => Fin.ext ?_)
    match a with
    | ⟨0, _⟩ => show win8_1.index t (0 : Fin 2) * 5000 + 1 * (j 0).val = win8_6.index t (0 : Fin 2) * 5000 + 1 * (j 0).val; omega
    | ⟨1, _⟩ => show win8_1.index t (1 : Fin 2) * 128 + 1 * k.val = k.val; omega
  · show V c (Pipeline.arrRef spec8 2) (((cfg8.win 2).blk t).view.emb y) = V c (Pipeline.arrRef spec8 2) y
    refine congrArg (V c (Pipeline.arrRef spec8 2)) (funext fun a => Fin.ext ?_)
    match a with
    | ⟨0, _⟩ => show win8_2.index t (0 : Fin 2) * 128 + 1 * (y 0).val = (y 0).val; omega
    | ⟨1, _⟩ => show win8_2.index t (1 : Fin 2) * 128 + 1 * (y 1).val = (y 1).val; omega
  · show V c (Pipeline.arrRef spec8 3) (((cfg8.win 3).blk t).view.emb y) = V c (Pipeline.arrRef spec8 3) y
    refine congrArg (V c (Pipeline.arrRef spec8 3)) (funext fun a => Fin.ext ?_)
    match a with
    | ⟨0, _⟩ => show win8_3.index t (0 : Fin 1) * 128 + 1 * (y 0).val = (y 0).val; omega
  · show V c (Pipeline.arrRef spec8 4) (((cfg8.win 4).blk t).view.emb y) = V c (Pipeline.arrRef spec8 4) y
    refine congrArg (V c (Pipeline.arrRef spec8 4)) (funext fun a => Fin.ext ?_)
    match a with
    | ⟨0, _⟩ => show win8_4.index t (0 : Fin 2) * 128 + 1 * (y 0).val = (y 0).val; omega
    | ⟨1, _⟩ => show win8_4.index t (1 : Fin 2) * 128 + 1 * (y 1).val = (y 1).val; omega
  · show V c (Pipeline.arrRef spec8 5) (((cfg8.win 5).blk t).view.emb y) = V c (Pipeline.arrRef spec8 5) y
    refine congrArg (V c (Pipeline.arrRef spec8 5)) (funext fun a => Fin.ext ?_)
    match a with
    | ⟨0, _⟩ => show win8_5.index t (0 : Fin 1) * 128 + 1 * (y 0).val = (y 0).val; omega
  · apply Fin.ext
    show (j 1).val = win8_6.index t (1 : Fin 2) * 128 + 1 * (j 1).val
    omega

/-- An index of the output array is in point t's block iff each coordinate is in the block's range. -/
theorem mem_blk8 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- Every row is in the block of the point its number divided by 5000 names. -/
theorem cover8 (i : S50000x128.Idx) : ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := N_8
  refine ⟨⟨(i 0).val / 5000, by rw [hN]; omega⟩, flush8_6 _, ?_⟩
  rw [mem_blk8]
  obtain ⟨-, -, -, -, -, -, -, -, -, -, e5, e6⟩ := idx8 ⟨(i 0).val / 5000, by rw [hN]; omega⟩
  intro a
  match a with
  | ⟨0, _⟩ =>
    show win8_6.index _ (0 : Fin 2) * 5000 ≤ (i 0).val ∧ (i 0).val < win8_6.index _ (0 : Fin 2) * 5000 + 5000
    rw [e5]; show (i 0).val / 5000 * 5000 ≤ (i 0).val ∧ (i 0).val < (i 0).val / 5000 * 5000 + 5000; omega
  | ⟨1, _⟩ =>
    show win8_6.index _ (1 : Fin 2) * 128 ≤ (i 1).val ∧ (i 1).val < win8_6.index _ (1 : Fin 2) * 128 + 128
    rw [e6]; omega

/-- THE REGION: its output array after the run is the stage function of its input arrays. -/
theorem region8 (c : Dev nD) :
    (dat8 (F := Ideal) V c).arrAt 6 cfg8.N
      = Cert.Spec.mlpOf (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  (dat8 (F := Ideal) V c).arrAt_eq_of_cover 6 _ (fun t _ => flushed8 V c t) cover8

end Cert.KernelIdeal.KRegions

end
-- ==== Proof.KRegion9.lean ====
/-
  A normalisation region as a whole-array function: after its ten grid points have written their blocks back, the output
  array holds clamp (gamma · (z - mean) · rsqrt (var + eps) + beta). Point t reads rows 5000 t … 5000 t + 4999 of z and the
  whole of the four column vectors, and writes the same rows of the result; the ten blocks tile the 50000 nodes.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 9, decided over its grid: the rows move with the point, everything else stays. -/
theorem idx9 : ∀ t : Fin cfg9.N, win9_0.index t (0 : Fin 2) = t.val
    ∧ win9_0.index t (1 : Fin 2) = 0
    ∧ win9_1.index t (0 : Fin 1) = 0
    ∧ win9_2.index t (0 : Fin 1) = 0
    ∧ win9_3.index t (0 : Fin 1) = 0
    ∧ win9_4.index t (0 : Fin 1) = 0
    ∧ win9_5.index t (0 : Fin 2) = t.val
    ∧ win9_5.index t (1 : Fin 2) = 0 :=
  (by decide +kernel : ∀ t : Fin grid9.N, _)

set_option maxHeartbeats 4000000 in
/-- What point t writes back is block t of the stage function of the arrays as the region finds them. -/
theorem flushed9 (c : Dev nD) (t : Fin cfg9.N) :
    (dat9 (F := Ideal) V c).flushed 5 t = ((cfg9.win 5).blk t).view.read (Elt Ideal)
      (Cert.Spec.bnRelu (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero KBlocks.hz2]
  simp only [View.ld_unit_zero (S := S5000x128) KBlocks.hz2, View.ld_unit_zero (S := S128) KBlocks.hz1]
  obtain ⟨e0, e1, e2, e3, e4, e5, e6, e7⟩ := idx9 t
  funext j
  refine KBlocks.bn_blk9 _ _ _ _ _ _ _ _ _ _ j (((cfg9.win 5).blk t).view.emb j) ?_ (funext fun y => ?_) (funext fun y => ?_) (funext fun y => ?_) (funext fun y => ?_) ?_
  · show V c (Pipeline.arrRef spec9 0) (((cfg9.win 0).blk t).view.emb j) = V c (Pipeline.arrRef spec9 0) (((cfg9.win 5).blk t).view.emb j)
    refine congrArg (V c (Pipeline.arrRef spec9 0)) (funext fun a => Fin.ext ?_)
    match a with
    | ⟨0, _⟩ => show win9_0.index t (0 : Fin 2) * 5000 + 1 * (j 0).val = win9_5.index t (0 : Fin 2) * 5000 + 1 * (j 0).val; omega
    | ⟨1, _⟩ => show win9_0.index t (1 : Fin 2) * 128 + 1 * (j 1).val = win9_5.index t (1 : Fin 2) * 128 + 1 * (j 1).val; omega
  · show V c (Pipeline.arrRef spec9 1) (((cfg9.win 1).blk t).view.emb y) = V c (Pipeline.arrRef spec9 1) y
    refine congrArg (V c (Pipeline.arrRef spec9 1)) (funext fun a => Fin.ext ?_)
    match a with
    | ⟨0, _⟩ => show win9_1.index t (0 : Fin 1) * 128 + 1 * (y 0).val = (y 0).val; omega
  · show V c (Pipeline.arrRef spec9 2) (((cfg9.win 2).blk t).view.emb y) = V c (Pipeline.arrRef spec9 2) y
    refine congrArg (V c (Pipeline.arrRef spec9 2)) (funext fun a => Fin.ext ?_)
    match a with
    | ⟨0, _⟩ => show win9_2.index t (0 : Fin 1) * 128 + 1 * (y 0).val = (y 0).val; omega
  · show V c (Pipeline.arrRef spec9 3) (((cfg9.win 3).blk t).view.emb y) = V c (Pipeline.arrRef spec9 3) y
    refine congrArg (V c (Pipeline.arrRef spec9 3)) (funext fun a => Fin.ext ?_)
    match a with
    | ⟨0, _⟩ => show win9_3.index t (0 : Fin 1) * 128 + 1 * (y 0).val = (y 0).val; omega
  · show V c (Pipeline.arrRef spec9 4) (((cfg9.win 4).blk t).view.emb y) = V c (Pipeline.arrRef spec9 4) y
    refine congrArg (V c (Pipeline.arrRef spec9 4)) (funext fun a => Fin.ext ?_)
    match a with
    | ⟨0, _⟩ => show win9_4.index t (0 : Fin 1) * 128 + 1 * (y 0).val = (y 0).val; omega
  · apply Fin.ext
    show (j 1).val = win9_5.index t (1 : Fin 2) * 128 + 1 * (j 1).val
    omega

/-- An index of the output array is in point t's block iff each coordinate is in the block's range. -/
theorem mem_blk9 (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole (Pipeline.arrRef spec9 5)).slice (win9_5.rect t)).set ↔ _
  rw [View.set_slice_whole, Rect.mem_set_unit]
  exact Iff.rfl

/-- Every row is in the block of the point its number divided by 5000 names. -/
theorem cover9 (i : S50000x128.Idx) : ∃ t : Fin cfg9.N, (cfg9.win 5).flush t = true ∧ i ∈ ((cfg9.win 5).blk t).view.set := by
  have hi0 : (i 0).val < 50000 := (i 0).isLt
  have hi1 : (i 1).val < 128 := (i 1).isLt
  have hN : cfg9.N = 10 := N_9
  refine ⟨⟨(i 0).val / 5000, by rw [hN]; omega⟩, flush9_5 _, ?_⟩
  rw [mem_blk9]
  obtain ⟨-, -, -, -, -, -, e5, e6⟩ := idx9 ⟨(i 0).val / 5000, by rw [hN]; omega⟩
  intro a
  match a with
  | ⟨0, _⟩ =>
    show win9_5.index _ (0 : Fin 2) * 5000 ≤ (i 0).val ∧ (i 0).val < win9_5.index _ (0 : Fin 2) * 5000 + 5000
    rw [e5]; show (i 0).val / 5000 * 5000 ≤ (i 0).val ∧ (i 0).val < (i 0).val / 5000 * 5000 + 5000; omega
  | ⟨1, _⟩ =>
    show win9_5.index _ (1 : Fin 2) * 128 ≤ (i 1).val ∧ (i 1).val < win9_5.index _ (1 : Fin 2) * 128 + 128
    rw [e6]; omega

/-- THE REGION: its output array after the run is the stage function of its input arrays. -/
theorem region9 (c : Dev nD) :
    (dat9 (F := Ideal) V c).arrAt 5 cfg9.N
      = Cert.Spec.bnRelu (V c (Pipeline.arrRef spec9 0)) (V c (Pipeline.arrRef spec9 1)) (V c (Pipeline.arrRef spec9 2)) (V c (Pipeline.arrRef spec9 3)) (V c (Pipeline.arrRef spec9 4)) :=
  (dat9 (F := Ideal) V c).arrAt_eq_of_cover 5 _ (fun t _ => flushed9 V c t) cover9

end Cert.KernelIdeal.KRegions

end
-- ==== Proof.KRegion10.lean ====
/-
  The head region as a whole-array function: its one grid point reads the pooled features and the head's weights whole and
  writes the whole [64, 2] result, the two-layer head of the pooled features.
-/
import proofs.«173900_j6880537608212_1_alg».proof.Proof.Gen.KernelIdeal.Frame
import proofs.«173900_j6880537608212_1_alg».proof.Proof.KBlocks
import Idealize.ShloMosaic.Lib.Pipeline.Value

set_option maxRecDepth 16384

noncomputable section

namespace Cert.KernelIdeal.KRegions

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The index maps of region 10, decided over its grid: the rows move with the point, everything else stays. -/
theorem idx10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 1) = 0
    ∧ win10_3.index t (0 : Fin 2) = 0
    ∧ win10_3.index t (1 : Fin 2) = 0
    ∧ win10_4.index t (0 : Fin 1) = 0
    ∧ win10_5.index t (0 : Fin 2) = t.val
    ∧ win10_5.index t (1 : Fin 2) = 0 :=
  (by decide +kernel : ∀ t : Fin grid10.N, _)

set_option maxHeartbeats 4000000 in
/-- What point t writes back is block t of the stage function of the arrays as the region finds them. -/
theorem flushed10 (c : Dev nD) (t : Fin cfg10.N) :
    (dat10 (F := Ideal) V c).flushed 5 t = ((cfg10.win 5).blk t).view.read (Elt Ideal)
      (Cert.LibRowLocal.head (V c (Pipeline.arrRef spec10 0)) (V c (Pipeline.arrRef spec10 1)) (V c (Pipeline.arrRef spec10 2)) (V c (Pipeline.arrRef spec10 3)) (V c (Pipeline.arrRef spec10 4))) := by
  show (cfg10.win 5).cut (grid10.coords t) ((dat10 V c).after 5 t) = _
  rw [after10_5]
  unfold out10_5
  rw [View.canon_unit_zero KBlocks.hz2]
  simp only [View.ld_unit_zero (S := S64x128) KBlocks.hz2, View.ld_unit_zero (S := S128x128) KBlocks.hz2, View.ld_unit_zero (S := S128) KBlocks.hz1, View.ld_unit_zero (S := S128x2) KBlocks.hz2, View.ld_unit_zero (S := S2) KBlocks.hz1]
  obtain ⟨e0, e1, e2, e3, e4, e5, e6, e7, e8, e9⟩ := idx10 t
  funext j
  refine KBlocks.head_blk _ _ _ _ _ _ _ _ _ _ j (((cfg10.win 5).blk t).view.emb j) (fun k => ?_) (funext fun y => ?_) (funext fun y => ?_) (funext fun y => ?_) (funext fun y => ?_) ?_
  · show V c (Pipeline.arrRef spec10 0) (((cfg10.win 0).blk t).view.emb (ix2 (j 0) k)) = V c (Pipeline.arrRef spec10 0) (ix2 ((((cfg10.win 5).blk t).view.emb j) 0) k)
    refine congrArg (V c (Pipeline.arrRef spec10 0)) (funext fun a => Fin.ext ?_)
    match a with
    | ⟨0, _⟩ => show win10_0.index t (0 : Fin 2) * 64 + 1 * (j 0).val = win10_5.index t (0 : Fin 2) * 64 + 1 * (j 0).val; omega
    | ⟨1, _⟩ => show win10_0.index t (1 : Fin 2) * 128 + 1 * k.val = k.val; omega
  · show V c (Pipeline.arrRef spec10 1) (((cfg10.win 1).blk t).view.emb y) = V c (Pipeline.arrRef spec10 1) y
    refine congrArg (V c (Pipeline.arrRef spec10 1)) (funext fun a => Fin.ext ?_)
    match a with
    | ⟨0, _⟩ => show win10_1.index t (0 : Fin 2) * 128 + 1 * (y 0).val = (y 0).val; omega
    | ⟨1, _⟩ => show win10_1.index t (1 : Fin 2) * 128 + 1 * (y 1).val = (y 1).val; omega
  · show V c (Pipeline.arrRef spec10 2) (((cfg10.win 2).blk t).view.emb y) = V c (Pipeline.arrRef spec10 2) y
    refine congrArg (V c (Pipeline.arrRef spec10 2)) (funext fun a => Fin.ext ?_)
    match a with
    | ⟨0, _⟩ => show win10_2.index t (0 : Fin 1) * 128 + 1 * (y 0).val = (y 0).val; omega
  · show V c (Pipeline.arrRef spec10 3) (((cfg10.win 3).blk t).view.emb y) = V c (Pipeline.arrRef spec10 3) y
    refine congrArg (V c (Pipeline.arrRef spec10 3)) (funext fun a => Fin.ext ?_)
    match a with
    | ⟨0, _⟩ => show win10_3.index t (0 : Fin 2) * 128 + 1 * (y 0).val = (y 0).val; omega
    | ⟨1, _⟩ => show win10_3.index t (1 : Fin 2) * 2 + 1 * (y 1).val = (y 1).val; omega
  · show V c (Pipeline.arrRef spec10 4) (((cfg10.win 4).blk t).view.emb y) = V c (Pipeline.arrRef spec10 4) y
    refine congrArg (V c (Pipeline.arrRef spec10 4)) (funext fun a => Fin.ext ?_)
    match a with
    | ⟨0, _⟩ => show win10_4.index t (0 : Fin 1) * 2 + 1 * (y 0).val = (y 0).val; omega
  · apply Fin.ext
    show (j 1).val = win10_5.index t (1 : Fin 2) * 2 + 1 * (j 1).val
    omega

/-- An index of the output array is in point t's block iff each coordinate is in the block's range. -/
theorem mem_blk10 (t : Fin cfg10.N) (i : S64x2.Idx) :
    i ∈ ((cfg10.win 5).blk t).view.set ↔ ∀ a : Fin 2, win10_5.index t a * S64x2.size a ≤ (i a).val ∧ (i a).val < win10_5.index t a * S64x2.size a + S64x2.size a := by
  show i ∈ ((View.whole (Pipeline.arrRef spec10 5)).slice (win10_5.rect t)).set ↔ _
  rw [View.set_slice_whole, Rect.mem_set_unit]
  exact Iff.rfl

/-- Every row is in the block of the point its number divided by 64 names. -/
theorem cover10 (i : S64x2.Idx) : ∃ t : Fin cfg10.N, (cfg10.win 5).flush t = true ∧ i ∈ ((cfg10.win 5).blk t).view.set := by
  have hi0 : (i 0).val < 64 := (i 0).isLt
  have hi1 : (i 1).val < 2 := (i 1).isLt
  have hN : cfg10.N = 1 := N_10
  refine ⟨⟨(i 0).val / 64, by rw [hN]; omega⟩, flush10_5 _, ?_⟩
  rw [mem_blk10]
  obtain ⟨-, -, -, -, -, -, -, -, e5, e6⟩ := idx10 ⟨(i 0).val / 64, by rw [hN]; omega⟩
  intro a
  match a with
  | ⟨0, _⟩ =>
    show win10_5.index _ (0 : Fin 2) * 64 ≤ (i 0).val ∧ (i 0).val < win10_5.index _ (0 : Fin 2) * 64 + 64
    rw [e5]; show (i 0).val / 64 * 64 ≤ (i 0).val ∧ (i 0).val < (i 0).val / 64 * 64 + 64; omega
  | ⟨1, _⟩ =>
    show win10_5.index _ (1 : Fin 2) * 2 ≤ (i 1).val ∧ (i 1).val < win10_5.index _ (1 : Fin 2) * 2 + 2
    rw [e6]; omega

/-- THE REGION: its output array after the run is the stage function of its input arrays. -/
theorem region10 (c : Dev nD) :
    (dat10 (F := Ideal) V c).arrAt 5 cfg10.N
      = Cert.LibRowLocal.head (V c (Pipeline.arrRef spec10 0)) (V c (Pipeline.arrRef spec10 1)) (V c (Pipeline.arrRef spec10 2)) (V c (Pipeline.arrRef spec10 3)) (V c (Pipeline.arrRef spec10 4)) :=
  (dat10 (F := Ideal) V c).arrAt_eq_of_cover 5 _ (fun t _ => flushed10 V c t) cover10

end Cert.KernelIdeal.KRegions

end
-- ==== Proof.KRegions.lean ====
/-
  The eleven kernel regions as whole-array functions of the arrays they find: the encoder; per layer the message, the
  perceptron and the normalisation; the head.
-/
import proofs.«173900_j6880537608212_1_alg».proof.Proof.KRegion0
import proofs.«173900_j6880537608212_1_alg».proof.Proof.KRegion1
import proofs.«173900_j6880537608212_1_alg».proof.Proof.KRegion2
import proofs.«173900_j6880537608212_1_alg».proof.Proof.KRegion3
import proofs.«173900_j6880537608212_1_alg».proof.Proof.KRegion4
import proofs.«173900_j6880537608212_1_alg».proof.Proof.KRegion5
import proofs.«173900_j6880537608212_1_alg».proof.Proof.KRegion6
import proofs.«173900_j6880537608212_1_alg».proof.Proof.KRegion7
import proofs.«173900_j6880537608212_1_alg».proof.Proof.KRegion8
import proofs.«173900_j6880537608212_1_alg».proof.Proof.KRegion9
import proofs.«173900_j6880537608212_1_alg».proof.Proof.KRegion10
-- ==== Proof.KStitch.lean ====
/-
  The 28 segments of the idealized kernel stitched together: the result array is the specification's function of the
  argument arrays.

  The contents of the buffers at the boundaries between the segments are a fold from the launch memory: a stretch of
  host operations rewrites the buffers it writes, a tiled region leaves in its output array what its blocks add up to and
  every other buffer as it was. Going forward through the boundaries, every buffer that a later segment reads is identified
  with a term of the specification over the launch memory: the two rows of the edge table, the encoded node features,
  and then, layer by layer, the rows gathered at the edges' sources, the messages, their sums at the targets, the
  perceptron's output z, its column mean and variance, and the normalised features; at the end the rows summed per graph
  and the two class scores. A buffer that a segment does not write is carried across it unchanged; the argument arrays
  are written by no segment.
-/
import proofs.«173900_j6880537608212_1_alg».proof.Proof.Gen.KernelIdeal.Frame
import proofs.«173900_j6880537608212_1_alg».proof.Proof.KHost
import proofs.«173900_j6880537608212_1_alg».proof.Proof.KRegions

set_option maxRecDepth 16384

noncomputable section

namespace Cert.KernelIdeal.KStitch

open Idealize.ShloMosaic Idealize.ShloMosaic.TcCoe
open Cert.KernelIdeal Cert.KernelIdeal.Gen Cert.KernelIdeal.KHost

variable (m : (ℓ : Loc nD τ sig) → Buf (Elt Ideal) ℓ) (ρ : Dev nD → PrngReg) (c : Dev nD)

/-! ## The specification's arrays along the way -/

/-- The encoded node features. -/
def H0 : FVec Ideal Cert.ReferenceIdeal.S50000x128 .f32 := Spec.enc (m ((c.tc : Thread nD τ).loc main_arg0)) (m ((c.tc : Thread nD τ).loc main_arg4)) (m ((c.tc : Thread nD τ).loc main_arg5))
/-- Layer 1: the messages, the perceptron's output, and the normalised node features. -/
def Msg1 : FVec Ideal Cert.ReferenceIdeal.S640000x128 .f32 :=
  Spec.msgOf (Spec.gatherSrc (H0 m c) (Spec.srcOf (m ((c.tc : Thread nD τ).loc main_arg1)))) (m ((c.tc : Thread nD τ).loc main_arg2)) (Spec.cutE0 (m ((c.tc : Thread nD τ).loc main_arg6))) (Spec.cutB0 (m ((c.tc : Thread nD τ).loc main_arg7)))
def Z1 : FVec Ideal Cert.ReferenceIdeal.S50000x128 .f32 :=
  Spec.mlpOf (H0 m c) (Spec.aggOf (Msg1 m c) (Spec.dstOf (m ((c.tc : Thread nD τ).loc main_arg1)))) (Spec.cutW0 (m ((c.tc : Thread nD τ).loc main_arg8))) (Spec.cutB0 (m ((c.tc : Thread nD τ).loc main_arg9))) (Spec.cutW0 (m ((c.tc : Thread nD τ).loc main_arg10))) (Spec.cutB0 (m ((c.tc : Thread nD τ).loc main_arg11)))
def H1 : FVec Ideal Cert.ReferenceIdeal.S50000x128 .f32 :=
  Spec.bnRelu (n := 50000) (f := 128) (Z1 m c) (Spec.meanOf (Z1 m c)) (Spec.varOf (Z1 m c)) (Spec.cutB0 (m ((c.tc : Thread nD τ).loc main_arg12))) (Spec.cutB0 (m ((c.tc : Thread nD τ).loc main_arg13)))
/-- They are the specification's layer of the features before it. -/
theorem H1_eq : H1 m c = Spec.layer (H0 m c) (m ((c.tc : Thread nD τ).loc main_arg2)) (Spec.srcOf (m ((c.tc : Thread nD τ).loc main_arg1))) (Spec.dstOf (m ((c.tc : Thread nD τ).loc main_arg1))) (Spec.cutE0 (m ((c.tc : Thread nD τ).loc main_arg6))) (Spec.cutB0 (m ((c.tc : Thread nD τ).loc main_arg7)))
    (Spec.cutW0 (m ((c.tc : Thread nD τ).loc main_arg8))) (Spec.cutB0 (m ((c.tc : Thread nD τ).loc main_arg9))) (Spec.cutW0 (m ((c.tc : Thread nD τ).loc main_arg10))) (Spec.cutB0 (m ((c.tc : Thread nD τ).loc main_arg11))) (Spec.cutB0 (m ((c.tc : Thread nD τ).loc main_arg12))) (Spec.cutB0 (m ((c.tc : Thread nD τ).loc main_arg13))) := rfl
/-- Layer 2: the messages, the perceptron's output, and the normalised node features. -/
def Msg2 : FVec Ideal Cert.ReferenceIdeal.S640000x128 .f32 :=
  Spec.msgOf (Spec.gatherSrc (H1 m c) (Spec.srcOf (m ((c.tc : Thread nD τ).loc main_arg1)))) (m ((c.tc : Thread nD τ).loc main_arg2)) (Spec.cutE1 (m ((c.tc : Thread nD τ).loc main_arg6))) (Spec.cutB1 (m ((c.tc : Thread nD τ).loc main_arg7)))
def Z2 : FVec Ideal Cert.ReferenceIdeal.S50000x128 .f32 :=
  Spec.mlpOf (H1 m c) (Spec.aggOf (Msg2 m c) (Spec.dstOf (m ((c.tc : Thread nD τ).loc main_arg1)))) (Spec.cutW1 (m ((c.tc : Thread nD τ).loc main_arg8))) (Spec.cutB1 (m ((c.tc : Thread nD τ).loc main_arg9))) (Spec.cutW1 (m ((c.tc : Thread nD τ).loc main_arg10))) (Spec.cutB1 (m ((c.tc : Thread nD τ).loc main_arg11)))
def H2 : FVec Ideal Cert.ReferenceIdeal.S50000x128 .f32 :=
  Spec.bnRelu (n := 50000) (f := 128) (Z2 m c) (Spec.meanOf (Z2 m c)) (Spec.varOf (Z2 m c)) (Spec.cutB1 (m ((c.tc : Thread nD τ).loc main_arg12))) (Spec.cutB1 (m ((c.tc : Thread nD τ).loc main_arg13)))
/-- They are the specification's layer of the features before it. -/
theorem H2_eq : H2 m c = Spec.layer (H1 m c) (m ((c.tc : Thread nD τ).loc main_arg2)) (Spec.srcOf (m ((c.tc : Thread nD τ).loc main_arg1))) (Spec.dstOf (m ((c.tc : Thread nD τ).loc main_arg1))) (Spec.cutE1 (m ((c.tc : Thread nD τ).loc main_arg6))) (Spec.cutB1 (m ((c.tc : Thread nD τ).loc main_arg7)))
    (Spec.cutW1 (m ((c.tc : Thread nD τ).loc main_arg8))) (Spec.cutB1 (m ((c.tc : Thread nD τ).loc main_arg9))) (Spec.cutW1 (m ((c.tc : Thread nD τ).loc main_arg10))) (Spec.cutB1 (m ((c.tc : Thread nD τ).loc main_arg11))) (Spec.cutB1 (m ((c.tc : Thread nD τ).loc main_arg12))) (Spec.cutB1 (m ((c.tc : Thread nD τ).loc main_arg13))) := rfl
/-- Layer 3: the messages, the perceptron's output, and the normalised node features. -/
def Msg3 : FVec Ideal Cert.ReferenceIdeal.S640000x128 .f32 :=
  Spec.msgOf (Spec.gatherSrc (H2 m c) (Spec.srcOf (m ((c.tc : Thread nD τ).loc main_arg1)))) (m ((c.tc : Thread nD τ).loc main_arg2)) (Spec.cutE2 (m ((c.tc : Thread nD τ).loc main_arg6))) (Spec.cutB2 (m ((c.tc : Thread nD τ).loc main_arg7)))
def Z3 : FVec Ideal Cert.ReferenceIdeal.S50000x128 .f32 :=
  Spec.mlpOf (H2 m c) (Spec.aggOf (Msg3 m c) (Spec.dstOf (m ((c.tc : Thread nD τ).loc main_arg1)))) (Spec.cutW2 (m ((c.tc : Thread nD τ).loc main_arg8))) (Spec.cutB2 (m ((c.tc : Thread nD τ).loc main_arg9))) (Spec.cutW2 (m ((c.tc : Thread nD τ).loc main_arg10))) (Spec.cutB2 (m ((c.tc : Thread nD τ).loc main_arg11)))
def H3 : FVec Ideal Cert.ReferenceIdeal.S50000x128 .f32 :=
  Spec.bnRelu (n := 50000) (f := 128) (Z3 m c) (Spec.meanOf (Z3 m c)) (Spec.varOf (Z3 m c)) (Spec.cutB2 (m ((c.tc : Thread nD τ).loc main_arg12))) (Spec.cutB2 (m ((c.tc : Thread nD τ).loc main_arg13)))
/-- They are the specification's layer of the features before it. -/
theorem H3_eq : H3 m c = Spec.layer (H2 m c) (m ((c.tc : Thread nD τ).loc main_arg2)) (Spec.srcOf (m ((c.tc : Thread nD τ).loc main_arg1))) (Spec.dstOf (m ((c.tc : Thread nD τ).loc main_arg1))) (Spec.cutE2 (m ((c.tc : Thread nD τ).loc main_arg6))) (Spec.cutB2 (m ((c.tc : Thread nD τ).loc main_arg7)))
    (Spec.cutW2 (m ((c.tc : Thread nD τ).loc main_arg8))) (Spec.cutB2 (m ((c.tc : Thread nD τ).loc main_arg9))) (Spec.cutW2 (m ((c.tc : Thread nD τ).loc main_arg10))) (Spec.cutB2 (m ((c.tc : Thread nD τ).loc main_arg11))) (Spec.cutB2 (m ((c.tc : Thread nD τ).loc main_arg12))) (Spec.cutB2 (m ((c.tc : Thread nD τ).loc main_arg13))) := rfl
/-- The whole network is the readout of the third layer's features. -/
theorem out_eq : Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
    = Cert.LibRowLocal.head (Spec.poolOf (H3 m c) (m ((c.tc : Thread nD τ).loc main_arg3))) (m ((c.tc : Thread nD τ).loc main_arg14)) (m ((c.tc : Thread nD τ).loc main_arg15)) (m ((c.tc : Thread nD τ).loc main_arg16)) (m ((c.tc : Thread nD τ).loc main_arg17)) := by
  unfold Spec.out; dsimp only; rw [H3_eq, H2_eq, H1_eq]; rfl

/-! ## The buffers carried through: the two rows of the edge table and the arguments the host stretches read -/

/-- The buffers that no segment between the first stretch and the last region writes, and that some later segment reads. -/
abbrev keepRefs : List (Ref sig .tc) := [main_v1, main_v3, main_arg3, main_arg6, main_arg7, main_arg8, main_arg9, main_arg10, main_arg11, main_arg12, main_arg13, main_arg14, main_arg15, main_arg16, main_arg17]

theorem keep_hostOps1 : ∀ r ∈ keepRefs, r ∉ hostOps1_W := by decide
theorem keep_hostOps2 : ∀ r ∈ keepRefs, r ∉ hostOps2_W := by decide
theorem keep_hostOps3 : ∀ r ∈ keepRefs, r ∉ hostOps3_W := by decide
theorem keep_hostOps3_1 : ∀ r ∈ keepRefs, r ∉ hostOps3_1_W := by decide
theorem keep_hostOps3_2 : ∀ r ∈ keepRefs, r ∉ hostOps3_2_W := by decide
theorem keep_hostOps4 : ∀ r ∈ keepRefs, r ∉ hostOps4_W := by decide
theorem keep_hostOps5 : ∀ r ∈ keepRefs, r ∉ hostOps5_W := by decide
theorem keep_hostOps6 : ∀ r ∈ keepRefs, r ∉ hostOps6_W := by decide
theorem keep_hostOps6_1 : ∀ r ∈ keepRefs, r ∉ hostOps6_1_W := by decide
theorem keep_hostOps6_2 : ∀ r ∈ keepRefs, r ∉ hostOps6_2_W := by decide
theorem keep_hostOps7 : ∀ r ∈ keepRefs, r ∉ hostOps7_W := by decide
theorem keep_hostOps8 : ∀ r ∈ keepRefs, r ∉ hostOps8_W := by decide
theorem keep_hostOps9 : ∀ r ∈ keepRefs, r ∉ hostOps9_W := by decide
theorem keep_hostOps9_1 : ∀ r ∈ keepRefs, r ∉ hostOps9_1_W := by decide
theorem keep_hostOps9_2 : ∀ r ∈ keepRefs, r ∉ hostOps9_2_W := by decide
theorem keep_hostOps10 : ∀ r ∈ keepRefs, r ∉ hostOps10_W := by decide
theorem keep_spec0 : ∀ r ∈ keepRefs, ∀ w, Pipeline.arrRef spec0 w ≠ r := by decide
theorem keep_spec1 : ∀ r ∈ keepRefs, ∀ w, Pipeline.arrRef spec1 w ≠ r := by decide
theorem keep_spec2 : ∀ r ∈ keepRefs, ∀ w, Pipeline.arrRef spec2 w ≠ r := by decide
theorem keep_spec3 : ∀ r ∈ keepRefs, ∀ w, Pipeline.arrRef spec3 w ≠ r := by decide
theorem keep_spec4 : ∀ r ∈ keepRefs, ∀ w, Pipeline.arrRef spec4 w ≠ r := by decide
theorem keep_spec5 : ∀ r ∈ keepRefs, ∀ w, Pipeline.arrRef spec5 w ≠ r := by decide
theorem keep_spec6 : ∀ r ∈ keepRefs, ∀ w, Pipeline.arrRef spec6 w ≠ r := by decide
theorem keep_spec7 : ∀ r ∈ keepRefs, ∀ w, Pipeline.arrRef spec7 w ≠ r := by decide
theorem keep_spec8 : ∀ r ∈ keepRefs, ∀ w, Pipeline.arrRef spec8 w ≠ r := by decide
theorem keep_spec9 : ∀ r ∈ keepRefs, ∀ w, Pipeline.arrRef spec9 w ≠ r := by decide

/-- After the first stretch: the two rows of the edge table, and every buffer the stretch does not write as launched. -/
theorem w1_v1 : W1 m ρ c (Proc.devRef .tc main_v1) = Spec.srcOf (m ((c.tc : Thread nD τ).loc main_arg1)) := hostOps0_v1 (W0 m ρ c)
theorem w1_v3 : W1 m ρ c (Proc.devRef .tc main_v3) = Spec.dstOf (m ((c.tc : Thread nD τ).loc main_arg1)) := hostOps0_v3 (W0 m ρ c)
theorem w1_keep (r : Ref sig .tc) (h : r ∉ hostOps0_W) : W1 m ρ c (Proc.devRef .tc r) = (m ((c.tc : Thread nD τ).loc r)) :=
  hostOps0_keep (W0 m ρ c) r h

/-- At every later boundary the carried buffers hold what they held after the first stretch. -/
theorem kept2 : ∀ r ∈ keepRefs, W2 m ρ c (Proc.devRef .tc r) = W1 m ρ c (Proc.devRef .tc r) :=
  fun r hr => W2_of_ne m ρ c r (keep_spec0 r hr)
theorem kept3 : ∀ r ∈ keepRefs, W3 m ρ c (Proc.devRef .tc r) = W1 m ρ c (Proc.devRef .tc r) :=
  fun r hr => (hostOps1_keep (W2 m ρ c) r (keep_hostOps1 r hr)).trans (kept2 m ρ c r hr)
theorem kept4 : ∀ r ∈ keepRefs, W4 m ρ c (Proc.devRef .tc r) = W1 m ρ c (Proc.devRef .tc r) :=
  fun r hr => (W4_of_ne m ρ c r (keep_spec1 r hr)).trans (kept3 m ρ c r hr)
theorem kept5 : ∀ r ∈ keepRefs, W5 m ρ c (Proc.devRef .tc r) = W1 m ρ c (Proc.devRef .tc r) :=
  fun r hr => (hostOps2_keep (W4 m ρ c) r (keep_hostOps2 r hr)).trans (kept4 m ρ c r hr)
theorem kept6 : ∀ r ∈ keepRefs, W6 m ρ c (Proc.devRef .tc r) = W1 m ρ c (Proc.devRef .tc r) :=
  fun r hr => (W6_of_ne m ρ c r (keep_spec2 r hr)).trans (kept5 m ρ c r hr)
theorem kept7 : ∀ r ∈ keepRefs, W7 m ρ c (Proc.devRef .tc r) = W1 m ρ c (Proc.devRef .tc r) :=
  fun r hr => (hostOps3_keep (W6 m ρ c) r (keep_hostOps3 r hr)).trans (kept6 m ρ c r hr)
theorem kept8 : ∀ r ∈ keepRefs, W8 m ρ c (Proc.devRef .tc r) = W1 m ρ c (Proc.devRef .tc r) :=
  fun r hr => (hostOps3_1_keep (W7 m ρ c) r (keep_hostOps3_1 r hr)).trans (kept7 m ρ c r hr)
theorem kept9 : ∀ r ∈ keepRefs, W9 m ρ c (Proc.devRef .tc r) = W1 m ρ c (Proc.devRef .tc r) :=
  fun r hr => (hostOps3_2_keep (W8 m ρ c) r (keep_hostOps3_2 r hr)).trans (kept8 m ρ c r hr)
theorem kept10 : ∀ r ∈ keepRefs, W10 m ρ c (Proc.devRef .tc r) = W1 m ρ c (Proc.devRef .tc r) :=
  fun r hr => (W10_of_ne m ρ c r (keep_spec3 r hr)).trans (kept9 m ρ c r hr)
theorem kept11 : ∀ r ∈ keepRefs, W11 m ρ c (Proc.devRef .tc r) = W1 m ρ c (Proc.devRef .tc r) :=
  fun r hr => (hostOps4_keep (W10 m ρ c) r (keep_hostOps4 r hr)).trans (kept10 m ρ c r hr)
theorem kept12 : ∀ r ∈ keepRefs, W12 m ρ c (Proc.devRef .tc r) = W1 m ρ c (Proc.devRef .tc r) :=
  fun r hr => (W12_of_ne m ρ c r (keep_spec4 r hr)).trans (kept11 m ρ c r hr)
theorem kept13 : ∀ r ∈ keepRefs, W13 m ρ c (Proc.devRef .tc r) = W1 m ρ c (Proc.devRef .tc r) :=
  fun r hr => (hostOps5_keep (W12 m ρ c) r (keep_hostOps5 r hr)).trans (kept12 m ρ c r hr)
theorem kept14 : ∀ r ∈ keepRefs, W14 m ρ c (Proc.devRef .tc r) = W1 m ρ c (Proc.devRef .tc r) :=
  fun r hr => (W14_of_ne m ρ c r (keep_spec5 r hr)).trans (kept13 m ρ c r hr)
theorem kept15 : ∀ r ∈ keepRefs, W15 m ρ c (Proc.devRef .tc r) = W1 m ρ c (Proc.devRef .tc r) :=
  fun r hr => (hostOps6_keep (W14 m ρ c) r (keep_hostOps6 r hr)).trans (kept14 m ρ c r hr)
theorem kept16 : ∀ r ∈ keepRefs, W16 m ρ c (Proc.devRef .tc r) = W1 m ρ c (Proc.devRef .tc r) :=
  fun r hr => (hostOps6_1_keep (W15 m ρ c) r (keep_hostOps6_1 r hr)).trans (kept15 m ρ c r hr)
theorem kept17 : ∀ r ∈ keepRefs, W17 m ρ c (Proc.devRef .tc r) = W1 m ρ c (Proc.devRef .tc r) :=
  fun r hr => (hostOps6_2_keep (W16 m ρ c) r (keep_hostOps6_2 r hr)).trans (kept16 m ρ c r hr)
theorem kept18 : ∀ r ∈ keepRefs, W18 m ρ c (Proc.devRef .tc r) = W1 m ρ c (Proc.devRef .tc r) :=
  fun r hr => (W18_of_ne m ρ c r (keep_spec6 r hr)).trans (kept17 m ρ c r hr)
theorem kept19 : ∀ r ∈ keepRefs, W19 m ρ c (Proc.devRef .tc r) = W1 m ρ c (Proc.devRef .tc r) :=
  fun r hr => (hostOps7_keep (W18 m ρ c) r (keep_hostOps7 r hr)).trans (kept18 m ρ c r hr)
theorem kept20 : ∀ r ∈ keepRefs, W20 m ρ c (Proc.devRef .tc r) = W1 m ρ c (Proc.devRef .tc r) :=
  fun r hr => (W20_of_ne m ρ c r (keep_spec7 r hr)).trans (kept19 m ρ c r hr)
theorem kept21 : ∀ r ∈ keepRefs, W21 m ρ c (Proc.devRef .tc r) = W1 m ρ c (Proc.devRef .tc r) :=
  fun r hr => (hostOps8_keep (W20 m ρ c) r (keep_hostOps8 r hr)).trans (kept20 m ρ c r hr)
theorem kept22 : ∀ r ∈ keepRefs, W22 m ρ c (Proc.devRef .tc r) = W1 m ρ c (Proc.devRef .tc r) :=
  fun r hr => (W22_of_ne m ρ c r (keep_spec8 r hr)).trans (kept21 m ρ c r hr)
theorem kept23 : ∀ r ∈ keepRefs, W23 m ρ c (Proc.devRef .tc r) = W1 m ρ c (Proc.devRef .tc r) :=
  fun r hr => (hostOps9_keep (W22 m ρ c) r (keep_hostOps9 r hr)).trans (kept22 m ρ c r hr)
theorem kept24 : ∀ r ∈ keepRefs, W24 m ρ c (Proc.devRef .tc r) = W1 m ρ c (Proc.devRef .tc r) :=
  fun r hr => (hostOps9_1_keep (W23 m ρ c) r (keep_hostOps9_1 r hr)).trans (kept23 m ρ c r hr)
theorem kept25 : ∀ r ∈ keepRefs, W25 m ρ c (Proc.devRef .tc r) = W1 m ρ c (Proc.devRef .tc r) :=
  fun r hr => (hostOps9_2_keep (W24 m ρ c) r (keep_hostOps9_2 r hr)).trans (kept24 m ρ c r hr)
theorem kept26 : ∀ r ∈ keepRefs, W26 m ρ c (Proc.devRef .tc r) = W1 m ρ c (Proc.devRef .tc r) :=
  fun r hr => (W26_of_ne m ρ c r (keep_spec9 r hr)).trans (kept25 m ρ c r hr)
theorem kept27 : ∀ r ∈ keepRefs, W27 m ρ c (Proc.devRef .tc r) = W1 m ρ c (Proc.devRef .tc r) :=
  fun r hr => (hostOps10_keep (W26 m ρ c) r (keep_hostOps10 r hr)).trans (kept26 m ρ c r hr)

/-- The edge attributes, which regions 1, 4 and 7 read through their first window (a region leaves an input window's array as it was). -/
theorem arg2_0 : W0 m ρ c (Proc.devRef .tc main_arg2) = (m ((c.tc : Thread nD τ).loc main_arg2)) := rfl
theorem arg2_1 : W1 m ρ c (Proc.devRef .tc main_arg2) = (m ((c.tc : Thread nD τ).loc main_arg2)) := (hostOps0_keep (W0 m ρ c) main_arg2 (by decide)).trans (arg2_0 m ρ c)
theorem arg2_2 : W2 m ρ c (Proc.devRef .tc main_arg2) = (m ((c.tc : Thread nD τ).loc main_arg2)) := (W2_of_ne m ρ c main_arg2 (by decide)).trans (arg2_1 m ρ c)
theorem arg2_3 : W3 m ρ c (Proc.devRef .tc main_arg2) = (m ((c.tc : Thread nD τ).loc main_arg2)) := (hostOps1_keep (W2 m ρ c) main_arg2 (by decide)).trans (arg2_2 m ρ c)
theorem arg2_4 : W4 m ρ c (Proc.devRef .tc main_arg2) = (m ((c.tc : Thread nD τ).loc main_arg2)) := ((W4_arr m ρ c 0).trans (((dat1 (V3 m ρ) c).arrAt_in 0 rfl _).trans (A_eq1 (V3 m ρ) c 0))).trans (arg2_3 m ρ c)
theorem arg2_5 : W5 m ρ c (Proc.devRef .tc main_arg2) = (m ((c.tc : Thread nD τ).loc main_arg2)) := (hostOps2_keep (W4 m ρ c) main_arg2 (by decide)).trans (arg2_4 m ρ c)
theorem arg2_6 : W6 m ρ c (Proc.devRef .tc main_arg2) = (m ((c.tc : Thread nD τ).loc main_arg2)) := (W6_of_ne m ρ c main_arg2 (by decide)).trans (arg2_5 m ρ c)
theorem arg2_7 : W7 m ρ c (Proc.devRef .tc main_arg2) = (m ((c.tc : Thread nD τ).loc main_arg2)) := (hostOps3_keep (W6 m ρ c) main_arg2 (by decide)).trans (arg2_6 m ρ c)
theorem arg2_8 : W8 m ρ c (Proc.devRef .tc main_arg2) = (m ((c.tc : Thread nD τ).loc main_arg2)) := (hostOps3_1_keep (W7 m ρ c) main_arg2 (by decide)).trans (arg2_7 m ρ c)
theorem arg2_9 : W9 m ρ c (Proc.devRef .tc main_arg2) = (m ((c.tc : Thread nD τ).loc main_arg2)) := (hostOps3_2_keep (W8 m ρ c) main_arg2 (by decide)).trans (arg2_8 m ρ c)
theorem arg2_10 : W10 m ρ c (Proc.devRef .tc main_arg2) = (m ((c.tc : Thread nD τ).loc main_arg2)) := (W10_of_ne m ρ c main_arg2 (by decide)).trans (arg2_9 m ρ c)
theorem arg2_11 : W11 m ρ c (Proc.devRef .tc main_arg2) = (m ((c.tc : Thread nD τ).loc main_arg2)) := (hostOps4_keep (W10 m ρ c) main_arg2 (by decide)).trans (arg2_10 m ρ c)
theorem arg2_12 : W12 m ρ c (Proc.devRef .tc main_arg2) = (m ((c.tc : Thread nD τ).loc main_arg2)) := ((W12_arr m ρ c 0).trans (((dat4 (V11 m ρ) c).arrAt_in 0 rfl _).trans (A_eq4 (V11 m ρ) c 0))).trans (arg2_11 m ρ c)
theorem arg2_13 : W13 m ρ c (Proc.devRef .tc main_arg2) = (m ((c.tc : Thread nD τ).loc main_arg2)) := (hostOps5_keep (W12 m ρ c) main_arg2 (by decide)).trans (arg2_12 m ρ c)
theorem arg2_14 : W14 m ρ c (Proc.devRef .tc main_arg2) = (m ((c.tc : Thread nD τ).loc main_arg2)) := (W14_of_ne m ρ c main_arg2 (by decide)).trans (arg2_13 m ρ c)
theorem arg2_15 : W15 m ρ c (Proc.devRef .tc main_arg2) = (m ((c.tc : Thread nD τ).loc main_arg2)) := (hostOps6_keep (W14 m ρ c) main_arg2 (by decide)).trans (arg2_14 m ρ c)
theorem arg2_16 : W16 m ρ c (Proc.devRef .tc main_arg2) = (m ((c.tc : Thread nD τ).loc main_arg2)) := (hostOps6_1_keep (W15 m ρ c) main_arg2 (by decide)).trans (arg2_15 m ρ c)
theorem arg2_17 : W17 m ρ c (Proc.devRef .tc main_arg2) = (m ((c.tc : Thread nD τ).loc main_arg2)) := (hostOps6_2_keep (W16 m ρ c) main_arg2 (by decide)).trans (arg2_16 m ρ c)
theorem arg2_18 : W18 m ρ c (Proc.devRef .tc main_arg2) = (m ((c.tc : Thread nD τ).loc main_arg2)) := (W18_of_ne m ρ c main_arg2 (by decide)).trans (arg2_17 m ρ c)
theorem arg2_19 : W19 m ρ c (Proc.devRef .tc main_arg2) = (m ((c.tc : Thread nD τ).loc main_arg2)) := (hostOps7_keep (W18 m ρ c) main_arg2 (by decide)).trans (arg2_18 m ρ c)

/-! ## The encoder -/

/-- Region 0 leaves the encoded node features. -/
theorem b2_v4 : W2 m ρ c (Proc.devRef .tc main_v4) = H0 m c := by
  refine (W2_arr m ρ c 3).trans ((KRegions.region0 (V1 m ρ) c).trans ?_)
  show Spec.enc (W1 m ρ c (Proc.devRef .tc main_arg0)) (W1 m ρ c (Proc.devRef .tc main_arg4)) (W1 m ρ c (Proc.devRef .tc main_arg5)) = _
  rw [w1_keep m ρ c main_arg0 (by decide), w1_keep m ρ c main_arg4 (by decide), w1_keep m ρ c main_arg5 (by decide)]
  rfl

/-! ## Layer 1 (boundaries 2 to 10) -/

/-- The first stretch: the rows of h at the edges' sources and the layer's cut of the edge weights. -/
theorem src_2 : W2 m ρ c (Proc.devRef .tc main_v1) = Spec.srcOf (m ((c.tc : Thread nD τ).loc main_arg1)) := (kept2 m ρ c main_v1 (by decide)).trans (w1_v1 m ρ c)
theorem arg6_2 : W2 m ρ c (Proc.devRef .tc main_arg6) = (m ((c.tc : Thread nD τ).loc main_arg6)) :=
  (kept2 m ρ c main_arg6 (by decide)).trans (w1_keep m ρ c main_arg6 (by decide))
theorem arg7_2 : W2 m ρ c (Proc.devRef .tc main_arg7) = (m ((c.tc : Thread nD τ).loc main_arg7)) :=
  (kept2 m ρ c main_arg7 (by decide)).trans (w1_keep m ρ c main_arg7 (by decide))
theorem b3_v11 : W3 m ρ c (Proc.devRef .tc main_v11) = Spec.gatherSrc (H0 m c) (Spec.srcOf (m ((c.tc : Thread nD τ).loc main_arg1))) :=
  (hostOps1_v11 (W2 m ρ c)).trans (by rw [b2_v4, src_2])
theorem b3_v13 : W3 m ρ c (Proc.devRef .tc main_v13) = Spec.cutE0 (m ((c.tc : Thread nD τ).loc main_arg6)) :=
  (hostOps1_v13 (W2 m ρ c)).trans (by rw [arg6_2])
theorem b3_v15 : W3 m ρ c (Proc.devRef .tc main_v15) = Spec.cutB0 (m ((c.tc : Thread nD τ).loc main_arg7)) :=
  (hostOps1_v15 (W2 m ρ c)).trans (by rw [arg7_2])
theorem b3_v4 : W3 m ρ c (Proc.devRef .tc main_v4) = H0 m c := (hostOps1_keep (W2 m ρ c) main_v4 (by decide)).trans (b2_v4 m ρ c)

/-- The message region. -/
theorem b4_v16 : W4 m ρ c (Proc.devRef .tc main_v16) = Msg1 m c := by
  refine (W4_arr m ρ c 4).trans ((KRegions.region1 (V3 m ρ) c).trans ?_)
  show Spec.msgOf (W3 m ρ c (Proc.devRef .tc main_v11)) (W3 m ρ c (Proc.devRef .tc main_arg2)) (W3 m ρ c (Proc.devRef .tc main_v13)) (W3 m ρ c (Proc.devRef .tc main_v15)) = _
  rw [b3_v11, arg2_3, b3_v13, b3_v15]
  rfl
theorem b4_v4 : W4 m ρ c (Proc.devRef .tc main_v4) = H0 m c := (W4_of_ne m ρ c main_v4 (by decide)).trans (b3_v4 m ρ c)

/-- The second stretch: the messages summed at their targets and the layer's cuts of the perceptron's weights. -/
theorem dst_4 : W4 m ρ c (Proc.devRef .tc main_v3) = Spec.dstOf (m ((c.tc : Thread nD τ).loc main_arg1)) := (kept4 m ρ c main_v3 (by decide)).trans (w1_v3 m ρ c)
theorem arg8_4 : W4 m ρ c (Proc.devRef .tc main_arg8) = (m ((c.tc : Thread nD τ).loc main_arg8)) :=
  (kept4 m ρ c main_arg8 (by decide)).trans (w1_keep m ρ c main_arg8 (by decide))
theorem arg9_4 : W4 m ρ c (Proc.devRef .tc main_arg9) = (m ((c.tc : Thread nD τ).loc main_arg9)) :=
  (kept4 m ρ c main_arg9 (by decide)).trans (w1_keep m ρ c main_arg9 (by decide))
theorem arg10_4 : W4 m ρ c (Proc.devRef .tc main_arg10) = (m ((c.tc : Thread nD τ).loc main_arg10)) :=
  (kept4 m ρ c main_arg10 (by decide)).trans (w1_keep m ρ c main_arg10 (by decide))
theorem arg11_4 : W4 m ρ c (Proc.devRef .tc main_arg11) = (m ((c.tc : Thread nD τ).loc main_arg11)) :=
  (kept4 m ρ c main_arg11 (by decide)).trans (w1_keep m ρ c main_arg11 (by decide))
theorem b5_v19 : W5 m ρ c (Proc.devRef .tc main_v19) = Spec.aggOf (Msg1 m c) (Spec.dstOf (m ((c.tc : Thread nD τ).loc main_arg1))) :=
  (hostOps2_v19 (W4 m ρ c)).trans (by rw [b4_v16, dst_4])
theorem b5_v21 : W5 m ρ c (Proc.devRef .tc main_v21) = Spec.cutW0 (m ((c.tc : Thread nD τ).loc main_arg8)) :=
  (hostOps2_v21 (W4 m ρ c)).trans (by rw [arg8_4])
theorem b5_v23 : W5 m ρ c (Proc.devRef .tc main_v23) = Spec.cutB0 (m ((c.tc : Thread nD τ).loc main_arg9)) :=
  (hostOps2_v23 (W4 m ρ c)).trans (by rw [arg9_4])
theorem b5_v25 : W5 m ρ c (Proc.devRef .tc main_v25) = Spec.cutW0 (m ((c.tc : Thread nD τ).loc main_arg10)) :=
  (hostOps2_v25 (W4 m ρ c)).trans (by rw [arg10_4])
theorem b5_v27 : W5 m ρ c (Proc.devRef .tc main_v27) = Spec.cutB0 (m ((c.tc : Thread nD τ).loc main_arg11)) :=
  (hostOps2_v27 (W4 m ρ c)).trans (by rw [arg11_4])
theorem b5_v4 : W5 m ρ c (Proc.devRef .tc main_v4) = H0 m c := (hostOps2_keep (W4 m ρ c) main_v4 (by decide)).trans (b4_v4 m ρ c)

/-- The perceptron region. -/
theorem b6_v28 : W6 m ρ c (Proc.devRef .tc main_v28) = Z1 m c := by
  refine (W6_arr m ρ c 6).trans ((KRegions.region2 (V5 m ρ) c).trans ?_)
  show Spec.mlpOf (W5 m ρ c (Proc.devRef .tc main_v4)) (W5 m ρ c (Proc.devRef .tc main_v19)) (W5 m ρ c (Proc.devRef .tc main_v21)) (W5 m ρ c (Proc.devRef .tc main_v23)) (W5 m ρ c (Proc.devRef .tc main_v25)) (W5 m ρ c (Proc.devRef .tc main_v27)) = _
  rw [b5_v4, b5_v19, b5_v21, b5_v23, b5_v25, b5_v27]
  rfl

/-- The three stretches before the normalisation: the column mean, the column variance, the layer's scale and shift. -/
theorem b7_v31 : W7 m ρ c (Proc.devRef .tc main_v31) = Spec.meanOf (Z1 m c) :=
  (hostOps3_v31 (W6 m ρ c)).trans (by rw [b6_v28])
theorem b7_c_3 : W7 m ρ c (Proc.devRef .tc main_c_3) = constantI S_ 32 0#32 := hostOps3_c_3 (W6 m ρ c)
theorem b7_v28 : W7 m ρ c (Proc.devRef .tc main_v28) = Z1 m c := (hostOps3_keep (W6 m ρ c) main_v28 (by decide)).trans (b6_v28 m ρ c)
theorem b8_v32 : W8 m ρ c (Proc.devRef .tc main_v32) = Spec.varOf (Z1 m c) :=
  (hostOps3_1_v32 (W7 m ρ c) (b7_c_3 m ρ c)).trans (by rw [b7_v28])
theorem b8_v28 : W8 m ρ c (Proc.devRef .tc main_v28) = Z1 m c := (hostOps3_1_keep (W7 m ρ c) main_v28 (by decide)).trans (b7_v28 m ρ c)
theorem b8_v31 : W8 m ρ c (Proc.devRef .tc main_v31) = Spec.meanOf (Z1 m c) := (hostOps3_1_keep (W7 m ρ c) main_v31 (by decide)).trans (b7_v31 m ρ c)
theorem arg12_8 : W8 m ρ c (Proc.devRef .tc main_arg12) = (m ((c.tc : Thread nD τ).loc main_arg12)) :=
  (kept8 m ρ c main_arg12 (by decide)).trans (w1_keep m ρ c main_arg12 (by decide))
theorem arg13_8 : W8 m ρ c (Proc.devRef .tc main_arg13) = (m ((c.tc : Thread nD τ).loc main_arg13)) :=
  (kept8 m ρ c main_arg13 (by decide)).trans (w1_keep m ρ c main_arg13 (by decide))
theorem b9_v34 : W9 m ρ c (Proc.devRef .tc main_v34) = Spec.cutB0 (m ((c.tc : Thread nD τ).loc main_arg12)) :=
  (hostOps3_2_v34 (W8 m ρ c)).trans (by rw [arg12_8])
theorem b9_v36 : W9 m ρ c (Proc.devRef .tc main_v36) = Spec.cutB0 (m ((c.tc : Thread nD τ).loc main_arg13)) :=
  (hostOps3_2_v36 (W8 m ρ c)).trans (by rw [arg13_8])
theorem b9_v28 : W9 m ρ c (Proc.devRef .tc main_v28) = Z1 m c := (hostOps3_2_keep (W8 m ρ c) main_v28 (by decide)).trans (b8_v28 m ρ c)
theorem b9_v31 : W9 m ρ c (Proc.devRef .tc main_v31) = Spec.meanOf (Z1 m c) := (hostOps3_2_keep (W8 m ρ c) main_v31 (by decide)).trans (b8_v31 m ρ c)
theorem b9_v32 : W9 m ρ c (Proc.devRef .tc main_v32) = Spec.varOf (Z1 m c) := (hostOps3_2_keep (W8 m ρ c) main_v32 (by decide)).trans (b8_v32 m ρ c)

/-- The normalisation region. -/
theorem b10_v37 : W10 m ρ c (Proc.devRef .tc main_v37) = H1 m c := by
  refine (W10_arr m ρ c 5).trans ((KRegions.region3 (V9 m ρ) c).trans ?_)
  show Spec.bnRelu (n := 50000) (f := 128) (W9 m ρ c (Proc.devRef .tc main_v28)) (W9 m ρ c (Proc.devRef .tc main_v31)) (W9 m ρ c (Proc.devRef .tc main_v32)) (W9 m ρ c (Proc.devRef .tc main_v34)) (W9 m ρ c (Proc.devRef .tc main_v36)) = _
  rw [b9_v28, b9_v31, b9_v32, b9_v34, b9_v36]
  rfl

/-! ## Layer 2 (boundaries 10 to 18) -/

/-- The first stretch: the rows of h at the edges' sources and the layer's cut of the edge weights. -/
theorem src_10 : W10 m ρ c (Proc.devRef .tc main_v1) = Spec.srcOf (m ((c.tc : Thread nD τ).loc main_arg1)) := (kept10 m ρ c main_v1 (by decide)).trans (w1_v1 m ρ c)
theorem arg6_10 : W10 m ρ c (Proc.devRef .tc main_arg6) = (m ((c.tc : Thread nD τ).loc main_arg6)) :=
  (kept10 m ρ c main_arg6 (by decide)).trans (w1_keep m ρ c main_arg6 (by decide))
theorem arg7_10 : W10 m ρ c (Proc.devRef .tc main_arg7) = (m ((c.tc : Thread nD τ).loc main_arg7)) :=
  (kept10 m ρ c main_arg7 (by decide)).trans (w1_keep m ρ c main_arg7 (by decide))
theorem b11_v44 : W11 m ρ c (Proc.devRef .tc main_v44) = Spec.gatherSrc (H1 m c) (Spec.srcOf (m ((c.tc : Thread nD τ).loc main_arg1))) :=
  (hostOps4_v44 (W10 m ρ c)).trans (by rw [b10_v37, src_10])
theorem b11_v46 : W11 m ρ c (Proc.devRef .tc main_v46) = Spec.cutE1 (m ((c.tc : Thread nD τ).loc main_arg6)) :=
  (hostOps4_v46 (W10 m ρ c)).trans (by rw [arg6_10])
theorem b11_v48 : W11 m ρ c (Proc.devRef .tc main_v48) = Spec.cutB1 (m ((c.tc : Thread nD τ).loc main_arg7)) :=
  (hostOps4_v48 (W10 m ρ c)).trans (by rw [arg7_10])
theorem b11_v37 : W11 m ρ c (Proc.devRef .tc main_v37) = H1 m c := (hostOps4_keep (W10 m ρ c) main_v37 (by decide)).trans (b10_v37 m ρ c)

/-- The message region. -/
theorem b12_v49 : W12 m ρ c (Proc.devRef .tc main_v49) = Msg2 m c := by
  refine (W12_arr m ρ c 4).trans ((KRegions.region4 (V11 m ρ) c).trans ?_)
  show Spec.msgOf (W11 m ρ c (Proc.devRef .tc main_v44)) (W11 m ρ c (Proc.devRef .tc main_arg2)) (W11 m ρ c (Proc.devRef .tc main_v46)) (W11 m ρ c (Proc.devRef .tc main_v48)) = _
  rw [b11_v44, arg2_11, b11_v46, b11_v48]
  rfl
theorem b12_v37 : W12 m ρ c (Proc.devRef .tc main_v37) = H1 m c := (W12_of_ne m ρ c main_v37 (by decide)).trans (b11_v37 m ρ c)

/-- The second stretch: the messages summed at their targets and the layer's cuts of the perceptron's weights. -/
theorem dst_12 : W12 m ρ c (Proc.devRef .tc main_v3) = Spec.dstOf (m ((c.tc : Thread nD τ).loc main_arg1)) := (kept12 m ρ c main_v3 (by decide)).trans (w1_v3 m ρ c)
theorem arg8_12 : W12 m ρ c (Proc.devRef .tc main_arg8) = (m ((c.tc : Thread nD τ).loc main_arg8)) :=
  (kept12 m ρ c main_arg8 (by decide)).trans (w1_keep m ρ c main_arg8 (by decide))
theorem arg9_12 : W12 m ρ c (Proc.devRef .tc main_arg9) = (m ((c.tc : Thread nD τ).loc main_arg9)) :=
  (kept12 m ρ c main_arg9 (by decide)).trans (w1_keep m ρ c main_arg9 (by decide))
theorem arg10_12 : W12 m ρ c (Proc.devRef .tc main_arg10) = (m ((c.tc : Thread nD τ).loc main_arg10)) :=
  (kept12 m ρ c main_arg10 (by decide)).trans (w1_keep m ρ c main_arg10 (by decide))
theorem arg11_12 : W12 m ρ c (Proc.devRef .tc main_arg11) = (m ((c.tc : Thread nD τ).loc main_arg11)) :=
  (kept12 m ρ c main_arg11 (by decide)).trans (w1_keep m ρ c main_arg11 (by decide))
theorem b13_v52 : W13 m ρ c (Proc.devRef .tc main_v52) = Spec.aggOf (Msg2 m c) (Spec.dstOf (m ((c.tc : Thread nD τ).loc main_arg1))) :=
  (hostOps5_v52 (W12 m ρ c)).trans (by rw [b12_v49, dst_12])
theorem b13_v54 : W13 m ρ c (Proc.devRef .tc main_v54) = Spec.cutW1 (m ((c.tc : Thread nD τ).loc main_arg8)) :=
  (hostOps5_v54 (W12 m ρ c)).trans (by rw [arg8_12])
theorem b13_v56 : W13 m ρ c (Proc.devRef .tc main_v56) = Spec.cutB1 (m ((c.tc : Thread nD τ).loc main_arg9)) :=
  (hostOps5_v56 (W12 m ρ c)).trans (by rw [arg9_12])
theorem b13_v58 : W13 m ρ c (Proc.devRef .tc main_v58) = Spec.cutW1 (m ((c.tc : Thread nD τ).loc main_arg10)) :=
  (hostOps5_v58 (W12 m ρ c)).trans (by rw [arg10_12])
theorem b13_v60 : W13 m ρ c (Proc.devRef .tc main_v60) = Spec.cutB1 (m ((c.tc : Thread nD τ).loc main_arg11)) :=
  (hostOps5_v60 (W12 m ρ c)).trans (by rw [arg11_12])
theorem b13_v37 : W13 m ρ c (Proc.devRef .tc main_v37) = H1 m c := (hostOps5_keep (W12 m ρ c) main_v37 (by decide)).trans (b12_v37 m ρ c)

/-- The perceptron region. -/
theorem b14_v61 : W14 m ρ c (Proc.devRef .tc main_v61) = Z2 m c := by
  refine (W14_arr m ρ c 6).trans ((KRegions.region5 (V13 m ρ) c).trans ?_)
  show Spec.mlpOf (W13 m ρ c (Proc.devRef .tc main_v37)) (W13 m ρ c (Proc.devRef .tc main_v52)) (W13 m ρ c (Proc.devRef .tc main_v54)) (W13 m ρ c (Proc.devRef .tc main_v56)) (W13 m ρ c (Proc.devRef .tc main_v58)) (W13 m ρ c (Proc.devRef .tc main_v60)) = _
  rw [b13_v37, b13_v52, b13_v54, b13_v56, b13_v58, b13_v60]
  rfl

/-- The three stretches before the normalisation: the column mean, the column variance, the layer's scale and shift. -/
theorem b15_v64 : W15 m ρ c (Proc.devRef .tc main_v64) = Spec.meanOf (Z2 m c) :=
  (hostOps6_v64 (W14 m ρ c)).trans (by rw [b14_v61])
theorem b15_c_9 : W15 m ρ c (Proc.devRef .tc main_c_9) = constantI S_ 32 0#32 := hostOps6_c_9 (W14 m ρ c)
theorem b15_v61 : W15 m ρ c (Proc.devRef .tc main_v61) = Z2 m c := (hostOps6_keep (W14 m ρ c) main_v61 (by decide)).trans (b14_v61 m ρ c)
theorem b16_v65 : W16 m ρ c (Proc.devRef .tc main_v65) = Spec.varOf (Z2 m c) :=
  (hostOps6_1_v65 (W15 m ρ c) (b15_c_9 m ρ c)).trans (by rw [b15_v61])
theorem b16_v61 : W16 m ρ c (Proc.devRef .tc main_v61) = Z2 m c := (hostOps6_1_keep (W15 m ρ c) main_v61 (by decide)).trans (b15_v61 m ρ c)
theorem b16_v64 : W16 m ρ c (Proc.devRef .tc main_v64) = Spec.meanOf (Z2 m c) := (hostOps6_1_keep (W15 m ρ c) main_v64 (by decide)).trans (b15_v64 m ρ c)
theorem arg12_16 : W16 m ρ c (Proc.devRef .tc main_arg12) = (m ((c.tc : Thread nD τ).loc main_arg12)) :=
  (kept16 m ρ c main_arg12 (by decide)).trans (w1_keep m ρ c main_arg12 (by decide))
theorem arg13_16 : W16 m ρ c (Proc.devRef .tc main_arg13) = (m ((c.tc : Thread nD τ).loc main_arg13)) :=
  (kept16 m ρ c main_arg13 (by decide)).trans (w1_keep m ρ c main_arg13 (by decide))
theorem b17_v67 : W17 m ρ c (Proc.devRef .tc main_v67) = Spec.cutB1 (m ((c.tc : Thread nD τ).loc main_arg12)) :=
  (hostOps6_2_v67 (W16 m ρ c)).trans (by rw [arg12_16])
theorem b17_v69 : W17 m ρ c (Proc.devRef .tc main_v69) = Spec.cutB1 (m ((c.tc : Thread nD τ).loc main_arg13)) :=
  (hostOps6_2_v69 (W16 m ρ c)).trans (by rw [arg13_16])
theorem b17_v61 : W17 m ρ c (Proc.devRef .tc main_v61) = Z2 m c := (hostOps6_2_keep (W16 m ρ c) main_v61 (by decide)).trans (b16_v61 m ρ c)
theorem b17_v64 : W17 m ρ c (Proc.devRef .tc main_v64) = Spec.meanOf (Z2 m c) := (hostOps6_2_keep (W16 m ρ c) main_v64 (by decide)).trans (b16_v64 m ρ c)
theorem b17_v65 : W17 m ρ c (Proc.devRef .tc main_v65) = Spec.varOf (Z2 m c) := (hostOps6_2_keep (W16 m ρ c) main_v65 (by decide)).trans (b16_v65 m ρ c)

/-- The normalisation region. -/
theorem b18_v70 : W18 m ρ c (Proc.devRef .tc main_v70) = H2 m c := by
  refine (W18_arr m ρ c 5).trans ((KRegions.region6 (V17 m ρ) c).trans ?_)
  show Spec.bnRelu (n := 50000) (f := 128) (W17 m ρ c (Proc.devRef .tc main_v61)) (W17 m ρ c (Proc.devRef .tc main_v64)) (W17 m ρ c (Proc.devRef .tc main_v65)) (W17 m ρ c (Proc.devRef .tc main_v67)) (W17 m ρ c (Proc.devRef .tc main_v69)) = _
  rw [b17_v61, b17_v64, b17_v65, b17_v67, b17_v69]
  rfl

/-! ## Layer 3 (boundaries 18 to 26) -/

/-- The first stretch: the rows of h at the edges' sources and the layer's cut of the edge weights. -/
theorem src_18 : W18 m ρ c (Proc.devRef .tc main_v1) = Spec.srcOf (m ((c.tc : Thread nD τ).loc main_arg1)) := (kept18 m ρ c main_v1 (by decide)).trans (w1_v1 m ρ c)
theorem arg6_18 : W18 m ρ c (Proc.devRef .tc main_arg6) = (m ((c.tc : Thread nD τ).loc main_arg6)) :=
  (kept18 m ρ c main_arg6 (by decide)).trans (w1_keep m ρ c main_arg6 (by decide))
theorem arg7_18 : W18 m ρ c (Proc.devRef .tc main_arg7) = (m ((c.tc : Thread nD τ).loc main_arg7)) :=
  (kept18 m ρ c main_arg7 (by decide)).trans (w1_keep m ρ c main_arg7 (by decide))
theorem b19_v77 : W19 m ρ c (Proc.devRef .tc main_v77) = Spec.gatherSrc (H2 m c) (Spec.srcOf (m ((c.tc : Thread nD τ).loc main_arg1))) :=
  (hostOps7_v77 (W18 m ρ c)).trans (by rw [b18_v70, src_18])
theorem b19_v79 : W19 m ρ c (Proc.devRef .tc main_v79) = Spec.cutE2 (m ((c.tc : Thread nD τ).loc main_arg6)) :=
  (hostOps7_v79 (W18 m ρ c)).trans (by rw [arg6_18])
theorem b19_v81 : W19 m ρ c (Proc.devRef .tc main_v81) = Spec.cutB2 (m ((c.tc : Thread nD τ).loc main_arg7)) :=
  (hostOps7_v81 (W18 m ρ c)).trans (by rw [arg7_18])
theorem b19_v70 : W19 m ρ c (Proc.devRef .tc main_v70) = H2 m c := (hostOps7_keep (W18 m ρ c) main_v70 (by decide)).trans (b18_v70 m ρ c)

/-- The message region. -/
theorem b20_v82 : W20 m ρ c (Proc.devRef .tc main_v82) = Msg3 m c := by
  refine (W20_arr m ρ c 4).trans ((KRegions.region7 (V19 m ρ) c).trans ?_)
  show Spec.msgOf (W19 m ρ c (Proc.devRef .tc main_v77)) (W19 m ρ c (Proc.devRef .tc main_arg2)) (W19 m ρ c (Proc.devRef .tc main_v79)) (W19 m ρ c (Proc.devRef .tc main_v81)) = _
  rw [b19_v77, arg2_19, b19_v79, b19_v81]
  rfl
theorem b20_v70 : W20 m ρ c (Proc.devRef .tc main_v70) = H2 m c := (W20_of_ne m ρ c main_v70 (by decide)).trans (b19_v70 m ρ c)

/-- The second stretch: the messages summed at their targets and the layer's cuts of the perceptron's weights. -/
theorem dst_20 : W20 m ρ c (Proc.devRef .tc main_v3) = Spec.dstOf (m ((c.tc : Thread nD τ).loc main_arg1)) := (kept20 m ρ c main_v3 (by decide)).trans (w1_v3 m ρ c)
theorem arg8_20 : W20 m ρ c (Proc.devRef .tc main_arg8) = (m ((c.tc : Thread nD τ).loc main_arg8)) :=
  (kept20 m ρ c main_arg8 (by decide)).trans (w1_keep m ρ c main_arg8 (by decide))
theorem arg9_20 : W20 m ρ c (Proc.devRef .tc main_arg9) = (m ((c.tc : Thread nD τ).loc main_arg9)) :=
  (kept20 m ρ c main_arg9 (by decide)).trans (w1_keep m ρ c main_arg9 (by decide))
theorem arg10_20 : W20 m ρ c (Proc.devRef .tc main_arg10) = (m ((c.tc : Thread nD τ).loc main_arg10)) :=
  (kept20 m ρ c main_arg10 (by decide)).trans (w1_keep m ρ c main_arg10 (by decide))
theorem arg11_20 : W20 m ρ c (Proc.devRef .tc main_arg11) = (m ((c.tc : Thread nD τ).loc main_arg11)) :=
  (kept20 m ρ c main_arg11 (by decide)).trans (w1_keep m ρ c main_arg11 (by decide))
theorem b21_v85 : W21 m ρ c (Proc.devRef .tc main_v85) = Spec.aggOf (Msg3 m c) (Spec.dstOf (m ((c.tc : Thread nD τ).loc main_arg1))) :=
  (hostOps8_v85 (W20 m ρ c)).trans (by rw [b20_v82, dst_20])
theorem b21_v87 : W21 m ρ c (Proc.devRef .tc main_v87) = Spec.cutW2 (m ((c.tc : Thread nD τ).loc main_arg8)) :=
  (hostOps8_v87 (W20 m ρ c)).trans (by rw [arg8_20])
theorem b21_v89 : W21 m ρ c (Proc.devRef .tc main_v89) = Spec.cutB2 (m ((c.tc : Thread nD τ).loc main_arg9)) :=
  (hostOps8_v89 (W20 m ρ c)).trans (by rw [arg9_20])
theorem b21_v91 : W21 m ρ c (Proc.devRef .tc main_v91) = Spec.cutW2 (m ((c.tc : Thread nD τ).loc main_arg10)) :=
  (hostOps8_v91 (W20 m ρ c)).trans (by rw [arg10_20])
theorem b21_v93 : W21 m ρ c (Proc.devRef .tc main_v93) = Spec.cutB2 (m ((c.tc : Thread nD τ).loc main_arg11)) :=
  (hostOps8_v93 (W20 m ρ c)).trans (by rw [arg11_20])
theorem b21_v70 : W21 m ρ c (Proc.devRef .tc main_v70) = H2 m c := (hostOps8_keep (W20 m ρ c) main_v70 (by decide)).trans (b20_v70 m ρ c)

/-- The perceptron region. -/
theorem b22_v94 : W22 m ρ c (Proc.devRef .tc main_v94) = Z3 m c := by
  refine (W22_arr m ρ c 6).trans ((KRegions.region8 (V21 m ρ) c).trans ?_)
  show Spec.mlpOf (W21 m ρ c (Proc.devRef .tc main_v70)) (W21 m ρ c (Proc.devRef .tc main_v85)) (W21 m ρ c (Proc.devRef .tc main_v87)) (W21 m ρ c (Proc.devRef .tc main_v89)) (W21 m ρ c (Proc.devRef .tc main_v91)) (W21 m ρ c (Proc.devRef .tc main_v93)) = _
  rw [b21_v70, b21_v85, b21_v87, b21_v89, b21_v91, b21_v93]
  rfl

/-- The three stretches before the normalisation: the column mean, the column variance, the layer's scale and shift. -/
theorem b23_v97 : W23 m ρ c (Proc.devRef .tc main_v97) = Spec.meanOf (Z3 m c) :=
  (hostOps9_v97 (W22 m ρ c)).trans (by rw [b22_v94])
theorem b23_c_15 : W23 m ρ c (Proc.devRef .tc main_c_15) = constantI S_ 32 0#32 := hostOps9_c_15 (W22 m ρ c)
theorem b23_v94 : W23 m ρ c (Proc.devRef .tc main_v94) = Z3 m c := (hostOps9_keep (W22 m ρ c) main_v94 (by decide)).trans (b22_v94 m ρ c)
theorem b24_v98 : W24 m ρ c (Proc.devRef .tc main_v98) = Spec.varOf (Z3 m c) :=
  (hostOps9_1_v98 (W23 m ρ c) (b23_c_15 m ρ c)).trans (by rw [b23_v94])
theorem b24_v94 : W24 m ρ c (Proc.devRef .tc main_v94) = Z3 m c := (hostOps9_1_keep (W23 m ρ c) main_v94 (by decide)).trans (b23_v94 m ρ c)
theorem b24_v97 : W24 m ρ c (Proc.devRef .tc main_v97) = Spec.meanOf (Z3 m c) := (hostOps9_1_keep (W23 m ρ c) main_v97 (by decide)).trans (b23_v97 m ρ c)
theorem arg12_24 : W24 m ρ c (Proc.devRef .tc main_arg12) = (m ((c.tc : Thread nD τ).loc main_arg12)) :=
  (kept24 m ρ c main_arg12 (by decide)).trans (w1_keep m ρ c main_arg12 (by decide))
theorem arg13_24 : W24 m ρ c (Proc.devRef .tc main_arg13) = (m ((c.tc : Thread nD τ).loc main_arg13)) :=
  (kept24 m ρ c main_arg13 (by decide)).trans (w1_keep m ρ c main_arg13 (by decide))
theorem b25_v100 : W25 m ρ c (Proc.devRef .tc main_v100) = Spec.cutB2 (m ((c.tc : Thread nD τ).loc main_arg12)) :=
  (hostOps9_2_v100 (W24 m ρ c)).trans (by rw [arg12_24])
theorem b25_v102 : W25 m ρ c (Proc.devRef .tc main_v102) = Spec.cutB2 (m ((c.tc : Thread nD τ).loc main_arg13)) :=
  (hostOps9_2_v102 (W24 m ρ c)).trans (by rw [arg13_24])
theorem b25_v94 : W25 m ρ c (Proc.devRef .tc main_v94) = Z3 m c := (hostOps9_2_keep (W24 m ρ c) main_v94 (by decide)).trans (b24_v94 m ρ c)
theorem b25_v97 : W25 m ρ c (Proc.devRef .tc main_v97) = Spec.meanOf (Z3 m c) := (hostOps9_2_keep (W24 m ρ c) main_v97 (by decide)).trans (b24_v97 m ρ c)
theorem b25_v98 : W25 m ρ c (Proc.devRef .tc main_v98) = Spec.varOf (Z3 m c) := (hostOps9_2_keep (W24 m ρ c) main_v98 (by decide)).trans (b24_v98 m ρ c)

/-- The normalisation region. -/
theorem b26_v103 : W26 m ρ c (Proc.devRef .tc main_v103) = H3 m c := by
  refine (W26_arr m ρ c 5).trans ((KRegions.region9 (V25 m ρ) c).trans ?_)
  show Spec.bnRelu (n := 50000) (f := 128) (W25 m ρ c (Proc.devRef .tc main_v94)) (W25 m ρ c (Proc.devRef .tc main_v97)) (W25 m ρ c (Proc.devRef .tc main_v98)) (W25 m ρ c (Proc.devRef .tc main_v100)) (W25 m ρ c (Proc.devRef .tc main_v102)) = _
  rw [b25_v94, b25_v97, b25_v98, b25_v100, b25_v102]
  rfl

/-! ## The readout -/

/-- The rows summed per graph. -/
theorem arg3_26 : W26 m ρ c (Proc.devRef .tc main_arg3) = (m ((c.tc : Thread nD τ).loc main_arg3)) :=
  (kept26 m ρ c main_arg3 (by decide)).trans (w1_keep m ρ c main_arg3 (by decide))
theorem b27_v106 : W27 m ρ c (Proc.devRef .tc main_v106) = Spec.poolOf (H3 m c) (m ((c.tc : Thread nD τ).loc main_arg3)) :=
  (hostOps10_v106 (W26 m ρ c)).trans (by rw [b26_v103, arg3_26])
theorem arg14_27 : W27 m ρ c (Proc.devRef .tc main_arg14) = (m ((c.tc : Thread nD τ).loc main_arg14)) :=
  (kept27 m ρ c main_arg14 (by decide)).trans (w1_keep m ρ c main_arg14 (by decide))
theorem arg15_27 : W27 m ρ c (Proc.devRef .tc main_arg15) = (m ((c.tc : Thread nD τ).loc main_arg15)) :=
  (kept27 m ρ c main_arg15 (by decide)).trans (w1_keep m ρ c main_arg15 (by decide))
theorem arg16_27 : W27 m ρ c (Proc.devRef .tc main_arg16) = (m ((c.tc : Thread nD τ).loc main_arg16)) :=
  (kept27 m ρ c main_arg16 (by decide)).trans (w1_keep m ρ c main_arg16 (by decide))
theorem arg17_27 : W27 m ρ c (Proc.devRef .tc main_arg17) = (m ((c.tc : Thread nD τ).loc main_arg17)) :=
  (kept27 m ρ c main_arg17 (by decide)).trans (w1_keep m ρ c main_arg17 (by decide))

/-- The result array is the specification's function of the argument arrays. -/
theorem result_eq : W28 m ρ c (Proc.devRef .tc main_v107)
    = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W28_arr m ρ c 5).trans ((KRegions.region10 (V27 m ρ) c).trans ?_)
  show Cert.LibRowLocal.head (W27 m ρ c (Proc.devRef .tc main_v106)) (W27 m ρ c (Proc.devRef .tc main_arg14)) (W27 m ρ c (Proc.devRef .tc main_arg15)) (W27 m ρ c (Proc.devRef .tc main_arg16)) (W27 m ρ c (Proc.devRef .tc main_arg17)) = _
  rw [b27_v106, arg14_27, arg15_27, arg16_27, arg17_27]
  exact (out_eq m c).symm

end Cert.KernelIdeal.KStitch

end
-- ==== Proof.RefRun.lean ====
/-
  The reference program's @main, read as a list of host operations, and its run.

  @main is 229 statements, thirteen of them calls of five outlined functions (the clamp at zero at three sizes,
  the column variance, and the select it ends in). A call executes the callee's operations on the caller's buffers,
  so each call is listed as the callee's operations over that call's own buffers. The 311 operations are cut into
  17 consecutive segments, one per stage of the network (encoder; per layer the edge messages, the aggregation and
  node perceptron, the column mean and variance, the normalisation; pooling and head), and again wherever the
  printed program starts a new window, so that each window of the printed program is a concatenation of whole segments.
  What one buffer holds after the run is then read one segment at a time: `after` over a concatenation is the
  composition of `after` over its parts, and a segment leaves every buffer it does not write as it was.
-/
import proofs.«173900_j6880537608212_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 8 of 311 (statements 1 … 8 of @main): from `main_v0` to `main_v7`. -/
abbrev seg0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_arg0 main_arg4 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)) ]

/-- Operations 9 … 29 of 311 (statements 9 … 27 of @main): from `main_v8` to `main_v24`. -/
abbrev seg1 : List (HloOp τ sig (Elt F)) :=
  [ StableHlo.unary main_arg6 main_v8 ((extractStridedSlice S1x16x128 ![0, 0, 0] · slices_S3x16x128_S1x16x128_0_0_0) : (⟨S3x16x128, .f32⟩ : BufTy).Contents (Elt F) → (⟨S1x16x128, .f32⟩ : BufTy).Contents (Elt F)),
    StableHlo.reshape main_v8 main_v9 rfl shapeCasts_S1x16x128_S16x128,
    StableHlo.binary main_arg2 main_v9 main_v10 ((fun l r => Host.dotGeneral dot_S640000x16_S16x128_S640000x128_1_0_0_1_n_n none l r) : (⟨S640000x16, .f32⟩ : BufTy).Contents (Elt F) → (⟨S16x128, .f32⟩ : BufTy).Contents (Elt F) → (⟨S640000x128, .f32⟩ : BufTy).Contents (Elt F)),
    StableHlo.unary main_arg7 main_v11 ((extractStridedSlice S1x128 ![0, 0] · slices_S3x128_S1x128_0_0) : (⟨S3x128, .f32⟩ : BufTy).Contents (Elt F) → (⟨S1x128, .f32⟩ : BufTy).Contents (Elt F)),
    StableHlo.reshape main_v11 main_v12 rfl shapeCasts_S1x128_S128,
    StableHlo.unary main_v12 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S640000x128 ![0, 1] bcast_S1x128_S640000x128_0_1 : (⟨S1x128, .f32⟩ : BufTy).Contents (Elt F) → (⟨S640000x128, .f32⟩ : BufTy).Contents (Elt F)),
    StableHlo.binary main_v10 main_v14 main_v15 (addf : (⟨S640000x128, .f32⟩ : BufTy).Contents (Elt F) → (⟨S640000x128, .f32⟩ : BufTy).Contents (Elt F) → (⟨S640000x128, .f32⟩ : BufTy).Contents (Elt F)),
    StableHlo.nullary main_c (constantI S_ 32 0#32),
    StableHlo.unary main_c main_v16 (broadcastInDim S640000 ![] bcast_S_S640000 : (⟨S_, .i32⟩ : BufTy).Contents (Elt F) → (⟨S640000, .i32⟩ : BufTy).Contents (Elt F)),
    StableHlo.binary main_v1 main_v16 main_v17 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v18 (broadcastInDim S640000 ![] bcast_S_S640000 : (⟨S_, .i32⟩ : BufTy).Contents (Elt F) → (⟨S640000, .i32⟩ : BufTy).Contents (Elt F)),
    StableHlo.binary main_v1 main_v18 main_v19 (addi : (⟨S640000, .i32⟩ : BufTy).Contents (Elt F) → (⟨S640000, .i32⟩ : BufTy).Contents (Elt F) → (⟨S640000, .i32⟩ : BufTy).Contents (Elt F)),
    StableHlo.ternary main_v17 main_v19 main_v1 main_v20 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v20 main_v21 (broadcastInDim S640000x1 ![0] bcast_S640000_S640000x1_0 : (⟨S640000, .i32⟩ : BufTy).Contents (Elt F) → (⟨S640000x1, .i32⟩ : BufTy).Contents (Elt F)),
    StableHlo.binary main_v7 main_v21 main_v22 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v22 main_v15 main_v23 (addf : (⟨S640000x128, .f32⟩ : BufTy).Contents (Elt F) → (⟨S640000x128, .f32⟩ : BufTy).Contents (Elt F) → (⟨S640000x128, .f32⟩ : BufTy).Contents (Elt F)),
    StableHlo.TRef.nullary main_call0.cst (constant S_ .f32 0x00000000#32),
    StableHlo.TRef.unary main_call0.cst main_call0.v0 (broadcastInDim S640000x128 ![] bcast_S_S640000x128),
    StableHlo.TRef.binary (StableHlo.TRef.of (T := ⟨S640000x128, .f32⟩) main_v23) main_call0.v0 main_call0.v1 maximumf ]

/-- Operations 30 … 53 of 311 (statements 28 … 49 of @main): from `main_cst` to `main_v45`. -/
abbrev seg2 : List (HloOp τ sig (Elt F)) :=
  [ StableHlo.nullary main_cst (constant S_ .f32 0x00000000#32),
    StableHlo.unary main_cst main_v25 (broadcastInDim S50000x128 ![] bcast_S_S50000x128 : (⟨S_, .f32⟩ : BufTy).Contents (Elt F) → (⟨S50000x128, .f32⟩ : BufTy).Contents (Elt F)),
    StableHlo.unary main_v3 main_v26 (broadcastInDim S640000x1 ![0] bcast_S640000_S640000x1_0 : (⟨S640000, .i32⟩ : BufTy).Contents (Elt F) → (⟨S640000x1, .i32⟩ : BufTy).Contents (Elt F)),
    StableHlo.ternary main_v25 main_v26 main_v24 main_v27 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v7 main_v27 main_v28 (addf : (⟨S50000x128, .f32⟩ : BufTy).Contents (Elt F) → (⟨S50000x128, .f32⟩ : BufTy).Contents (Elt F) → (⟨S50000x128, .f32⟩ : BufTy).Contents (Elt F)),
    StableHlo.unary main_arg8 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v29 main_v30 rfl shapeCasts_S1x128x128_S128x128,
    StableHlo.binary main_v28 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v35 main_v36 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (StableHlo.TRef.of (T := ⟨S50000x128, .f32⟩) main_v36) main_call1.v0 main_call1.v1 maximumf,
    StableHlo.unary main_arg10 main_v38 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v38 main_v39 rfl shapeCasts_S1x128x128_S128x128,
    StableHlo.binary main_v37 main_v39 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v41 ((extractStridedSlice S1x128 ![0, 0] · slices_S3x128_S1x128_0_0) : (⟨S3x128, .f32⟩ : BufTy).Contents (Elt F) → (⟨S1x128, .f32⟩ : BufTy).Contents (Elt F)),
    StableHlo.reshape main_v41 main_v42 rfl shapeCasts_S1x128_S128,
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v44 main_v45 (addf : (⟨S50000x128, .f32⟩ : BufTy).Contents (Elt F) → (⟨S50000x128, .f32⟩ : BufTy).Contents (Elt F) → (⟨S50000x128, .f32⟩ : BufTy).Contents (Elt F)) ]

/-- Operations 54 … 81 of 311 (statements 50 … 56 of @main): from `main_cst_1` to `main_v49`. -/
abbrev seg3 : List (HloOp τ sig (Elt F)) :=
  [ StableHlo.nullary main_cst_1 (constant S_ .f32 0x00000000#32),
    StableHlo.binary main_v45 main_cst_1 main_v46 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v47 (broadcastInDim S128 ![] bcast_S_S128 : (⟨S_, .f32⟩ : BufTy).Contents (Elt F) → (⟨S128, .f32⟩ : BufTy).Contents (Elt F)),
    StableHlo.binary main_v46 main_v47 main_v48 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (StableHlo.TRef.of (T := ⟨S50000x128, .f32⟩) main_v45) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (StableHlo.TRef.of (T := ⟨S50000x128, .f32⟩) main_v45) main_call2.v4 main_call2.v5 subf,
    StableHlo.TRef.binary main_call2.v5 main_call2.v5 main_call2.v6 mulf,
    StableHlo.TRef.unary (StableHlo.TRef.of (T := ⟨S_, .i32⟩) main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations 82 … 85 of 311 (statements 57 … 60 of @main): from `main_v50` to `main_v53`. -/
abbrev seg4 : List (HloOp τ sig (Elt F)) :=
  [ StableHlo.unary main_arg12 main_v50 ((extractStridedSlice S1x128 ![0, 0] · slices_S3x128_S1x128_0_0) : (⟨S3x128, .f32⟩ : BufTy).Contents (Elt F) → (⟨S1x128, .f32⟩ : BufTy).Contents (Elt F)),
    StableHlo.reshape main_v50 main_v51 rfl shapeCasts_S1x128_S128,
    StableHlo.unary main_v48 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)) ]

/-- Operations 86 … 104 of 311 (statements 61 … 77 of @main): from `main_v54` to `main_v69`. -/
abbrev seg5 : List (HloOp τ sig (Elt F)) :=
  [ StableHlo.binary main_v45 main_v53 main_v54 (subf : (⟨S50000x128, .f32⟩ : BufTy).Contents (Elt F) → (⟨S50000x128, .f32⟩ : BufTy).Contents (Elt F) → (⟨S50000x128, .f32⟩ : BufTy).Contents (Elt F)),
    StableHlo.unary main_v51 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v58 (broadcastInDim S128 ![] bcast_S_S128 : (⟨S_, .f32⟩ : BufTy).Contents (Elt F) → (⟨S128, .f32⟩ : BufTy).Contents (Elt F)),
    StableHlo.binary main_v49 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg13 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of (T := ⟨S50000x128, .f32⟩) main_v68) main_call3.v0 main_call3.v1 maximumf ]

/-- Operations 105 … 125 of 311 (statements 78 … 96 of @main): from `main_v70` to `main_v86`. -/
abbrev seg6 : List (HloOp τ sig (Elt F)) :=
  [ StableHlo.unary main_arg6 main_v70 ((extractStridedSlice S1x16x128 ![1, 0, 0] · slices_S3x16x128_S1x16x128_1_0_0) : (⟨S3x16x128, .f32⟩ : BufTy).Contents (Elt F) → (⟨S1x16x128, .f32⟩ : BufTy).Contents (Elt F)),
    StableHlo.reshape main_v70 main_v71 rfl shapeCasts_S1x16x128_S16x128,
    StableHlo.binary main_arg2 main_v71 main_v72 ((fun l r => Host.dotGeneral dot_S640000x16_S16x128_S640000x128_1_0_0_1_n_n none l r) : (⟨S640000x16, .f32⟩ : BufTy).Contents (Elt F) → (⟨S16x128, .f32⟩ : BufTy).Contents (Elt F) → (⟨S640000x128, .f32⟩ : BufTy).Contents (Elt F)),
    StableHlo.unary main_arg7 main_v73 ((extractStridedSlice S1x128 ![1, 0] · slices_S3x128_S1x128_1_0) : (⟨S3x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S640000x128 ![0, 1] bcast_S1x128_S640000x128_0_1 : (⟨S1x128, .f32⟩ : BufTy).Contents (Elt F) → (⟨S640000x128, .f32⟩ : BufTy).Contents (Elt F)),
    StableHlo.binary main_v72 main_v76 main_v77 (addf : (⟨S640000x128, .f32⟩ : BufTy).Contents (Elt F) → (⟨S640000x128, .f32⟩ : BufTy).Contents (Elt F) → (⟨S640000x128, .f32⟩ : BufTy).Contents (Elt F)),
    StableHlo.nullary main_c_5 (constantI S_ 32 0#32),
    StableHlo.unary main_c_5 main_v78 (broadcastInDim S640000 ![] bcast_S_S640000 : (⟨S_, .i32⟩ : BufTy).Contents (Elt F) → (⟨S640000, .i32⟩ : BufTy).Contents (Elt F)),
    StableHlo.binary main_v1 main_v78 main_v79 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 50000#32),
    StableHlo.unary main_c_6 main_v80 (broadcastInDim S640000 ![] bcast_S_S640000 : (⟨S_, .i32⟩ : BufTy).Contents (Elt F) → (⟨S640000, .i32⟩ : BufTy).Contents (Elt F)),
    StableHlo.binary main_v1 main_v80 main_v81 (addi : (⟨S640000, .i32⟩ : BufTy).Contents (Elt F) → (⟨S640000, .i32⟩ : BufTy).Contents (Elt F) → (⟨S640000, .i32⟩ : BufTy).Contents (Elt F)),
    StableHlo.ternary main_v79 main_v81 main_v1 main_v82 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v82 main_v83 (broadcastInDim S640000x1 ![0] bcast_S640000_S640000x1_0 : (⟨S640000, .i32⟩ : BufTy).Contents (Elt F) → (⟨S640000x1, .i32⟩ : BufTy).Contents (Elt F)),
    StableHlo.binary main_v69 main_v83 main_v84 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v84 main_v77 main_v85 (addf : (⟨S640000x128, .f32⟩ : BufTy).Contents (Elt F) → (⟨S640000x128, .f32⟩ : BufTy).Contents (Elt F) → (⟨S640000x128, .f32⟩ : BufTy).Contents (Elt F)),
    StableHlo.TRef.nullary main_call4.cst (constant S_ .f32 0x00000000#32),
    StableHlo.TRef.unary main_call4.cst main_call4.v0 (broadcastInDim S640000x128 ![] bcast_S_S640000x128),
    StableHlo.TRef.binary (StableHlo.TRef.of (T := ⟨S640000x128, .f32⟩) main_v85) main_call4.v0 main_call4.v1 maximumf ]

/-- Operations 126 … 149 of 311 (statements 97 … 118 of @main): from `main_cst_7` to `main_v107`. -/
abbrev seg7 : List (HloOp τ sig (Elt F)) :=
  [ StableHlo.nullary main_cst_7 (constant S_ .f32 0x00000000#32),
    StableHlo.unary main_cst_7 main_v87 (broadcastInDim S50000x128 ![] bcast_S_S50000x128 : (⟨S_, .f32⟩ : BufTy).Contents (Elt F) → (⟨S50000x128, .f32⟩ : BufTy).Contents (Elt F)),
    StableHlo.unary main_v3 main_v88 (broadcastInDim S640000x1 ![0] bcast_S640000_S640000x1_0 : (⟨S640000, .i32⟩ : BufTy).Contents (Elt F) → (⟨S640000x1, .i32⟩ : BufTy).Contents (Elt F)),
    StableHlo.ternary main_v87 main_v88 main_v86 main_v89 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v69 main_v89 main_v90 (addf : (⟨S50000x128, .f32⟩ : BufTy).Contents (Elt F) → (⟨S50000x128, .f32⟩ : BufTy).Contents (Elt F) → (⟨S50000x128, .f32⟩ : BufTy).Contents (Elt F)),
    StableHlo.unary main_arg8 main_v91 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v91 main_v92 rfl shapeCasts_S1x128x128_S128x128,
    StableHlo.binary main_v90 main_v92 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v94 ((extractStridedSlice S1x128 ![1, 0] · slices_S3x128_S1x128_1_0) : (⟨S3x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v97 main_v98 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (StableHlo.TRef.of (T := ⟨S50000x128, .f32⟩) main_v98) main_call5.v0 main_call5.v1 maximumf,
    StableHlo.unary main_arg10 main_v100 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v100 main_v101 rfl shapeCasts_S1x128x128_S128x128,
    StableHlo.binary main_v99 main_v101 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v103 ((extractStridedSlice S1x128 ![1, 0] · slices_S3x128_S1x128_1_0) : (⟨S3x128, .f32⟩ : BufTy).Contents (Elt F) → (⟨S1x128, .f32⟩ : BufTy).Contents (Elt F)),
    StableHlo.reshape main_v103 main_v104 rfl shapeCasts_S1x128_S128,
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S50000x128 ![0, 1] bcast_S1x128_S50000x128_0_1 : (⟨S1x128, .f32⟩ : BufTy).Contents (Elt F) → (⟨S50000x128, .f32⟩ : BufTy).Contents (Elt F)),
    StableHlo.binary main_v102 main_v106 main_v107 (addf : (⟨S50000x128, .f32⟩ : BufTy).Contents (Elt F) → (⟨S50000x128, .f32⟩ : BufTy).Contents (Elt F) → (⟨S50000x128, .f32⟩ : BufTy).Contents (Elt F)) ]

/-- Operations 150 … 151 of 311 (statements 119 … 120 of @main): from `main_cst_8` to `main_v108`. -/
abbrev seg8 : List (HloOp τ sig (Elt F)) :=
  [ StableHlo.nullary main_cst_8 (constant S_ .f32 0x00000000#32),
    StableHlo.binary main_v107 main_cst_8 main_v108 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

/-- Operations 152 … 177 of 311 (statements 121 … 125 of @main): from `main_cst_9` to `main_v111`. -/
abbrev seg9 : List (HloOp τ sig (Elt F)) :=
  [ StableHlo.nullary main_cst_9 (constant S_ .f32 0x47435000#32),
    StableHlo.unary main_cst_9 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call6.cst (constant S_ .f32 0x00000000#32),
    StableHlo.TRef.binary (StableHlo.TRef.of (T := ⟨S50000x128, .f32⟩) main_v107) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (StableHlo.TRef.of (T := ⟨S50000x128, .f32⟩) main_v107) main_call6.v4 main_call6.v5 subf,
    StableHlo.TRef.binary main_call6.v5 main_call6.v5 main_call6.v6 mulf,
    StableHlo.TRef.unary (StableHlo.TRef.of (T := ⟨S_, .i32⟩) main_c_10) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- Operations 178 … 200 of 311 (statements 126 … 146 of @main): from `main_v112` to `main_v131`. -/
abbrev seg10 : List (HloOp τ sig (Elt F)) :=
  [ StableHlo.unary main_arg12 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_v110 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v107 main_v115 main_v116 (subf : (⟨S50000x128, .f32⟩ : BufTy).Contents (Elt F) → (⟨S50000x128, .f32⟩ : BufTy).Contents (Elt F) → (⟨S50000x128, .f32⟩ : BufTy).Contents (Elt F)),
    StableHlo.unary main_v113 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v116 main_v119 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v120 (broadcastInDim S128 ![] bcast_S_S128 : (⟨S_, .f32⟩ : BufTy).Contents (Elt F) → (⟨S128, .f32⟩ : BufTy).Contents (Elt F)),
    StableHlo.binary main_v111 main_v120 main_v121 (addf : (⟨S128, .f32⟩ : BufTy).Contents (Elt F) → (⟨S128, .f32⟩ : BufTy).Contents (Elt F) → (⟨S128, .f32⟩ : BufTy).Contents (Elt F)),
    StableHlo.unary main_v121 main_v122 (Host.rsqrt : (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v124 main_v125 (mulf : (⟨S50000x128, .f32⟩ : BufTy).Contents (Elt F) → (⟨S50000x128, .f32⟩ : BufTy).Contents (Elt F) → (⟨S50000x128, .f32⟩ : BufTy).Contents (Elt F)),
    StableHlo.unary main_arg13 main_v126 ((extractStridedSlice S1x128 ![1, 0] · slices_S3x128_S1x128_1_0) : (⟨S3x128, .f32⟩ : BufTy).Contents (Elt F) → (⟨S1x128, .f32⟩ : BufTy).Contents (Elt F)),
    StableHlo.reshape main_v126 main_v127 rfl shapeCasts_S1x128_S128,
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v129 main_v130 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (StableHlo.TRef.of (T := ⟨S50000x128, .f32⟩) main_v130) main_call7.v0 main_call7.v1 maximumf ]

/-- Operations 201 … 221 of 311 (statements 147 … 165 of @main): from `main_v132` to `main_v148`. -/
abbrev seg11 : List (HloOp τ sig (Elt F)) :=
  [ StableHlo.unary main_arg6 main_v132 ((extractStridedSlice S1x16x128 ![2, 0, 0] · slices_S3x16x128_S1x16x128_2_0_0) : (⟨S3x16x128, .f32⟩ : BufTy).Contents (Elt F) → (⟨S1x16x128, .f32⟩ : BufTy).Contents (Elt F)),
    StableHlo.reshape main_v132 main_v133 rfl shapeCasts_S1x16x128_S16x128,
    StableHlo.binary main_arg2 main_v133 main_v134 ((fun l r => Host.dotGeneral dot_S640000x16_S16x128_S640000x128_1_0_0_1_n_n none l r) : (⟨S640000x16, .f32⟩ : BufTy).Contents (Elt F) → (⟨S16x128, .f32⟩ : BufTy).Contents (Elt F) → (⟨S640000x128, .f32⟩ : BufTy).Contents (Elt F)),
    StableHlo.unary main_arg7 main_v135 ((extractStridedSlice S1x128 ![2, 0] · slices_S3x128_S1x128_2_0) : (⟨S3x128, .f32⟩ : BufTy).Contents (Elt F) → (⟨S1x128, .f32⟩ : BufTy).Contents (Elt F)),
    StableHlo.reshape main_v135 main_v136 rfl shapeCasts_S1x128_S128,
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S640000x128 ![0, 1] bcast_S1x128_S640000x128_0_1 : (⟨S1x128, .f32⟩ : BufTy).Contents (Elt F) → (⟨S640000x128, .f32⟩ : BufTy).Contents (Elt F)),
    StableHlo.binary main_v134 main_v138 main_v139 (addf : (⟨S640000x128, .f32⟩ : BufTy).Contents (Elt F) → (⟨S640000x128, .f32⟩ : BufTy).Contents (Elt F) → (⟨S640000x128, .f32⟩ : BufTy).Contents (Elt F)),
    StableHlo.nullary main_c_12 (constantI S_ 32 0#32),
    StableHlo.unary main_c_12 main_v140 (broadcastInDim S640000 ![] bcast_S_S640000 : (⟨S_, .i32⟩ : BufTy).Contents (Elt F) → (⟨S640000, .i32⟩ : BufTy).Contents (Elt F)),
    StableHlo.binary main_v1 main_v140 main_v141 (cmpi .slt : (⟨S640000, .i32⟩ : BufTy).Contents (Elt F) → (⟨S640000, .i32⟩ : BufTy).Contents (Elt F) → (⟨S640000, .i1⟩ : BufTy).Contents (Elt F)),
    StableHlo.nullary main_c_13 (constantI S_ 32 50000#32),
    StableHlo.unary main_c_13 main_v142 (broadcastInDim S640000 ![] bcast_S_S640000 : (⟨S_, .i32⟩ : BufTy).Contents (Elt F) → (⟨S640000, .i32⟩ : BufTy).Contents (Elt F)),
    StableHlo.binary main_v1 main_v142 main_v143 (addi : (⟨S640000, .i32⟩ : BufTy).Contents (Elt F) → (⟨S640000, .i32⟩ : BufTy).Contents (Elt F) → (⟨S640000, .i32⟩ : BufTy).Contents (Elt F)),
    StableHlo.ternary main_v141 main_v143 main_v1 main_v144 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v144 main_v145 (broadcastInDim S640000x1 ![0] bcast_S640000_S640000x1_0 : (⟨S640000, .i32⟩ : BufTy).Contents (Elt F) → (⟨S640000x1, .i32⟩ : BufTy).Contents (Elt F)),
    StableHlo.binary main_v131 main_v145 main_v146 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v146 main_v139 main_v147 (addf : (⟨S640000x128, .f32⟩ : BufTy).Contents (Elt F) → (⟨S640000x128, .f32⟩ : BufTy).Contents (Elt F) → (⟨S640000x128, .f32⟩ : BufTy).Contents (Elt F)),
    StableHlo.TRef.nullary main_call8.cst (constant S_ .f32 0x00000000#32),
    StableHlo.TRef.unary main_call8.cst main_call8.v0 (broadcastInDim S640000x128 ![] bcast_S_S640000x128),
    StableHlo.TRef.binary (StableHlo.TRef.of (T := ⟨S640000x128, .f32⟩) main_v147) main_call8.v0 main_call8.v1 maximumf ]

/-- Operations 222 … 238 of 311 (statements 166 … 180 of @main): from `main_cst_14` to `main_v162`. -/
abbrev seg12 : List (HloOp τ sig (Elt F)) :=
  [ StableHlo.nullary main_cst_14 (constant S_ .f32 0x00000000#32),
    StableHlo.unary main_cst_14 main_v149 (broadcastInDim S50000x128 ![] bcast_S_S50000x128 : (⟨S_, .f32⟩ : BufTy).Contents (Elt F) → (⟨S50000x128, .f32⟩ : BufTy).Contents (Elt F)),
    StableHlo.unary main_v3 main_v150 (broadcastInDim S640000x1 ![0] bcast_S640000_S640000x1_0 : (⟨S640000, .i32⟩ : BufTy).Contents (Elt F) → (⟨S640000x1, .i32⟩ : BufTy).Contents (Elt F)),
    StableHlo.ternary main_v149 main_v150 main_v148 main_v151 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v131 main_v151 main_v152 (addf : (⟨S50000x128, .f32⟩ : BufTy).Contents (Elt F) → (⟨S50000x128, .f32⟩ : BufTy).Contents (Elt F) → (⟨S50000x128, .f32⟩ : BufTy).Contents (Elt F)),
    StableHlo.unary main_arg8 main_v153 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v153 main_v154 rfl shapeCasts_S1x128x128_S128x128,
    StableHlo.binary main_v152 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v156 ((extractStridedSlice S1x128 ![2, 0] · slices_S3x128_S1x128_2_0) : (⟨S3x128, .f32⟩ : BufTy).Contents (Elt F) → (⟨S1x128, .f32⟩ : BufTy).Contents (Elt F)),
    StableHlo.reshape main_v156 main_v157 rfl shapeCasts_S1x128_S128,
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v159 main_v160 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (StableHlo.TRef.of (T := ⟨S50000x128, .f32⟩) main_v160) main_call9.v0 main_call9.v1 maximumf,
    StableHlo.unary main_arg10 main_v162 ((extractStridedSlice S1x128x128 ![2, 0, 0] · slices_S3x128x128_S1x128x128_2_0_0) : (⟨S3x128x128, .f32⟩ : BufTy).Contents (Elt F) → (⟨S1x128x128, .f32⟩ : BufTy).Contents (Elt F)) ]

/-- Operations 239 … 245 of 311 (statements 181 … 187 of @main): from `main_v163` to `main_v169`. -/
abbrev seg13 : List (HloOp τ sig (Elt F)) :=
  [ StableHlo.reshape main_v162 main_v163 rfl shapeCasts_S1x128x128_S128x128,
    StableHlo.binary main_v161 main_v163 main_v164 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v165 ((extractStridedSlice S1x128 ![2, 0] · slices_S3x128_S1x128_2_0) : (⟨S3x128, .f32⟩ : BufTy).Contents (Elt F) → (⟨S1x128, .f32⟩ : BufTy).Contents (Elt F)),
    StableHlo.reshape main_v165 main_v166 rfl shapeCasts_S1x128_S128,
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S50000x128 ![0, 1] bcast_S1x128_S50000x128_0_1 : (⟨S1x128, .f32⟩ : BufTy).Contents (Elt F) → (⟨S50000x128, .f32⟩ : BufTy).Contents (Elt F)),
    StableHlo.binary main_v164 main_v168 main_v169 (addf : (⟨S50000x128, .f32⟩ : BufTy).Contents (Elt F) → (⟨S50000x128, .f32⟩ : BufTy).Contents (Elt F) → (⟨S50000x128, .f32⟩ : BufTy).Contents (Elt F)) ]

/-- Operations 246 … 273 of 311 (statements 188 … 194 of @main): from `main_cst_15` to `main_v173`. -/
abbrev seg14 : List (HloOp τ sig (Elt F)) :=
  [ StableHlo.nullary main_cst_15 (constant S_ .f32 0x00000000#32),
    StableHlo.binary main_v169 main_cst_15 main_v170 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v171 (broadcastInDim S128 ![] bcast_S_S128 : (⟨S_, .f32⟩ : BufTy).Contents (Elt F) → (⟨S128, .f32⟩ : BufTy).Contents (Elt F)),
    StableHlo.binary main_v170 main_v171 main_v172 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call10.cst (constant S_ .f32 0x00000000#32),
    StableHlo.TRef.binary (StableHlo.TRef.of (T := ⟨S50000x128, .f32⟩) main_v169) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (StableHlo.TRef.of (T := ⟨S50000x128, .f32⟩) main_v169) main_call10.v4 main_call10.v5 subf,
    StableHlo.TRef.binary main_call10.v5 main_call10.v5 main_call10.v6 mulf,
    StableHlo.TRef.unary (StableHlo.TRef.of (T := ⟨S_, .i32⟩) main_c_17) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]

/-- Operations 274 … 296 of 311 (statements 195 … 215 of @main): from `main_v174` to `main_v193`. -/
abbrev seg15 : List (HloOp τ sig (Elt F)) :=
  [ StableHlo.unary main_arg12 main_v174 ((extractStridedSlice S1x128 ![2, 0] · slices_S3x128_S1x128_2_0) : (⟨S3x128, .f32⟩ : BufTy).Contents (Elt F) → (⟨S1x128, .f32⟩ : BufTy).Contents (Elt F)),
    StableHlo.reshape main_v174 main_v175 rfl shapeCasts_S1x128_S128,
    StableHlo.unary main_v172 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v177 main_v178 (subf : (⟨S50000x128, .f32⟩ : BufTy).Contents (Elt F) → (⟨S50000x128, .f32⟩ : BufTy).Contents (Elt F) → (⟨S50000x128, .f32⟩ : BufTy).Contents (Elt F)),
    StableHlo.unary main_v175 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v178 main_v181 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v182 (broadcastInDim S128 ![] bcast_S_S128 : (⟨S_, .f32⟩ : BufTy).Contents (Elt F) → (⟨S128, .f32⟩ : BufTy).Contents (Elt F)),
    StableHlo.binary main_v173 main_v182 main_v183 (addf : (⟨S128, .f32⟩ : BufTy).Contents (Elt F) → (⟨S128, .f32⟩ : BufTy).Contents (Elt F) → (⟨S128, .f32⟩ : BufTy).Contents (Elt F)),
    StableHlo.unary main_v183 main_v184 (Host.rsqrt : (⟨S128, .f32⟩ : BufTy).Contents (Elt F) → (⟨S128, .f32⟩ : BufTy).Contents (Elt F)),
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v186 main_v187 (mulf : (⟨S50000x128, .f32⟩ : BufTy).Contents (Elt F) → (⟨S50000x128, .f32⟩ : BufTy).Contents (Elt F) → (⟨S50000x128, .f32⟩ : BufTy).Contents (Elt F)),
    StableHlo.unary main_arg13 main_v188 ((extractStridedSlice S1x128 ![2, 0] · slices_S3x128_S1x128_2_0) : (⟨S3x128, .f32⟩ : BufTy).Contents (Elt F) → (⟨S1x128, .f32⟩ : BufTy).Contents (Elt F)),
    StableHlo.reshape main_v188 main_v189 rfl shapeCasts_S1x128_S128,
    StableHlo.unary main_v189 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v187 main_v191 main_v192 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (StableHlo.TRef.of (T := ⟨S50000x128, .f32⟩) main_v192) main_call11.v0 main_call11.v1 maximumf ]

/-- Operations 297 … 311 of 311 (statements 216 … 228 of @main): from `main_cst_19` to `main_v205`. -/
abbrev seg16 : List (HloOp τ sig (Elt F)) :=
  [ StableHlo.nullary main_cst_19 (constant S_ .f32 0x00000000#32),
    StableHlo.unary main_cst_19 main_v194 (broadcastInDim S64x128 ![] bcast_S_S64x128 : (⟨S_, .f32⟩ : BufTy).Contents (Elt F) → (⟨S64x128, .f32⟩ : BufTy).Contents (Elt F)),
    StableHlo.unary main_arg3 main_v195 (broadcastInDim S50000x1 ![0] bcast_S50000_S50000x1_0 : (⟨S50000, .i32⟩ : BufTy).Contents (Elt F) → (⟨S50000x1, .i32⟩ : BufTy).Contents (Elt F)),
    StableHlo.ternary main_v194 main_v195 main_v193 main_v196 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.binary main_v196 main_arg14 main_v197 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg15 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S64x128 ![0, 1] bcast_S1x128_S64x128_0_1 : (⟨S1x128, .f32⟩ : BufTy).Contents (Elt F) → (⟨S64x128, .f32⟩ : BufTy).Contents (Elt F)),
    StableHlo.binary main_v197 main_v199 main_v200 (addf : (⟨S64x128, .f32⟩ : BufTy).Contents (Elt F) → (⟨S64x128, .f32⟩ : BufTy).Contents (Elt F) → (⟨S64x128, .f32⟩ : BufTy).Contents (Elt F)),
    StableHlo.TRef.nullary main_call12.cst (constant S_ .f32 0x00000000#32),
    StableHlo.TRef.unary main_call12.cst main_call12.v0 (broadcastInDim S64x128 ![] bcast_S_S64x128),
    StableHlo.TRef.binary (StableHlo.TRef.of (T := ⟨S64x128, .f32⟩) main_v200) main_call12.v0 main_call12.v1 maximumf,
    StableHlo.binary main_v201 main_arg16 main_v202 ((fun l r => Host.dotGeneral dot_S64x128_S128x2_S64x2_1_0_0_1_n_n none l r) : (⟨S64x128, .f32⟩ : BufTy).Contents (Elt F) → (⟨S128x2, .f32⟩ : BufTy).Contents (Elt F) → (⟨S64x2, .f32⟩ : BufTy).Contents (Elt F)),
    StableHlo.unary main_arg17 main_v203 (broadcastInDim S1x2 ![1] bcast_S2_S1x2_1 : (⟨S2, .f32⟩ : BufTy).Contents (Elt F) → (⟨S1x2, .f32⟩ : BufTy).Contents (Elt F)),
    StableHlo.unary main_v203 main_v204 (broadcastInDim S64x2 ![0, 1] bcast_S1x2_S64x2_0_1 : (⟨S1x2, .f32⟩ : BufTy).Contents (Elt F) → (⟨S64x2, .f32⟩ : BufTy).Contents (Elt F)),
    StableHlo.binary main_v202 main_v204 main_v205 (addf : (⟨S64x2, .f32⟩ : BufTy).Contents (Elt F) → (⟨S64x2, .f32⟩ : BufTy).Contents (Elt F) → (⟨S64x2, .f32⟩ : BufTy).Contents (Elt F)) ]

/-- The operations of the printed program's window 0. -/
abbrev win0 : List (HloOp τ sig (Elt F)) :=
  seg0 ++ (seg1 ++ (seg2 ++ (seg3 ++ (seg4))))

/-- The operations of the printed program's window 1. -/
abbrev win1 : List (HloOp τ sig (Elt F)) :=
  seg5 ++ (seg6 ++ (seg7 ++ (seg8)))

/-- The operations of the printed program's window 2. -/
abbrev win2 : List (HloOp τ sig (Elt F)) :=
  seg9 ++ (seg10 ++ (seg11 ++ (seg12)))

/-- The operations of the printed program's window 3. -/
abbrev win3 : List (HloOp τ sig (Elt F)) :=
  seg13 ++ (seg14 ++ (seg15 ++ (seg16)))

/-- @main's 311 operations, in order. -/
abbrev ops : List (HloOp τ sig (Elt F)) := win0 ++ (win1 ++ (win2 ++ win3))

set_option maxRecDepth 8192 in
set_option maxHeartbeats 4000000 in
/-- Window 0 of @main is the straight line of its operations: the calls unfold to their bodies over the calls' buffers. -/
theorem part0_eq (c : Dev nD) : main_part0 (F := F) c = seq win0 := rfl

set_option maxRecDepth 8192 in
set_option maxHeartbeats 4000000 in
/-- Window 1 of @main is the straight line of its operations: the calls unfold to their bodies over the calls' buffers. -/
theorem part1_eq (c : Dev nD) : main_part1 (F := F) c = seq win1 := rfl

set_option maxRecDepth 8192 in
set_option maxHeartbeats 4000000 in
/-- Window 2 of @main is the straight line of its operations: the calls unfold to their bodies over the calls' buffers. -/
theorem part2_eq (c : Dev nD) : main_part2 (F := F) c = seq win2 := rfl

set_option maxRecDepth 8192 in
set_option maxHeartbeats 4000000 in
/-- Window 3 of @main is the straight line of its operations: the calls unfold to their bodies over the calls' buffers. -/
theorem part3_eq (c : Dev nD) : main_part3 (F := F) c = seq win3 := rfl

/-- @main is the straight line of its 311 operations: its four windows one after the other. -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = (seq win0 >>= fun _ => seq win1 >>= fun _ => seq win2 >>= fun _ => seq win3) := by
    show seq (win0 ++ (win1 ++ (win2 ++ win3))) = _
    rw [seq_append win0, seq_append win1, seq_append win2]
  rw [h, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩
theorem seg1_sub : (seg1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem seg2_sub : (seg2 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem seg3_sub : (seg3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg4_sub : (seg4 : List (HloOp τ sig (Elt F))).Forall fun op => op.bufs ⊆ tcRefs τ sig :=
  ⟨unary_bufs_sub .., reshape_bufs_sub .., unary_bufs_sub .., unary_bufs_sub ..⟩
theorem seg5_sub : (seg5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg6_sub : (seg6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem seg7_sub : (seg7 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem seg8_sub : (seg8 : List (HloOp τ sig (Elt F))).Forall fun op => op.bufs ⊆ tcRefs τ sig :=
  ⟨nullary_bufs_sub .., binary_bufs_sub ..⟩
theorem seg9_sub : (seg9 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg10_sub : (seg10 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg11_sub : (seg11 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
theorem seg12_sub : (seg12 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
theorem seg13_sub : (seg13 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub ..⟩
theorem seg14_sub : (seg14 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg15_sub : (seg15 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem seg16_sub : (seg16 : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, win0, win1, win2, win3, List.mem_append, or_assoc] at h
    rcases h with h | h | h | h | h | h | h | h | h | h | h | h | h | h | h | h | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h, List.forall_iff_forall_mem.mp seg15_sub op h, List.forall_iff_forall_mem.mp seg16_sub op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (by
      intro _ op h
      simp only [ops, win0, win1, win2, win3, List.mem_append, or_assoc] at h
      rcases h with h | h | h | h | h | h | h | h | h | h | h | h | h | h | h | h | h <;>
        ((repeat (cases h with | head => rfl | tail _ h => ?_)); exact nomatch h))

/-! ## Reading one segment at a time -/

/-- The fold over all the operations is the fold over the segments, in order. -/
theorem after_ops (V : Valuation τ sig (Elt F)) :
    after ops V = after seg16 (after seg15 (after seg14 (after seg13 (after seg12 (after seg11 (after seg10 (after seg9 (after seg8 (after seg7 (after seg6 (after seg5 (after seg4 (after seg3 (after seg2 (after seg1 (after seg0 (V))))))))))))))))) := by
  simp only [ops, win0, win1, win2, win3, after_append]

/-- The buffers segment 0 writes. -/
abbrev seg0_W : List (Ref sig .tc) := [main_v0, main_v1, main_v2, main_v3, main_v4, main_v5, main_v6, main_v7]
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 0 does not write keeps its contents through it. -/
theorem seg0_keep (V : Valuation τ sig (Elt F)) (r : Ref sig .tc) (h : r ∉ seg0_W) :
    after seg0 V (Proc.devRef .tc r) = V (Proc.devRef .tc r) :=
  after_of_writes_sub seg0 _ seg0_writes h

/-- The buffers segment 1 writes. -/
abbrev seg1_W : List (Ref sig .tc) := [main_v8, main_v9, main_v10, main_v11, main_v12, main_v13, main_v14, main_v15, main_c, main_v16, main_v17, main_c_0, main_v18, main_v19, main_v20, main_v21, main_v22, main_v23, main_call0_cst, main_call0_v0, main_v24]
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 1 does not write keeps its contents through it. -/
theorem seg1_keep (V : Valuation τ sig (Elt F)) (r : Ref sig .tc) (h : r ∉ seg1_W) :
    after seg1 V (Proc.devRef .tc r) = V (Proc.devRef .tc r) :=
  after_of_writes_sub seg1 _ seg1_writes h

/-- The buffers segment 2 writes. -/
abbrev seg2_W : List (Ref sig .tc) := [main_cst, main_v25, main_v26, main_v27, main_v28, main_v29, main_v30, main_v31, main_v32, main_v33, main_v34, main_v35, main_v36, main_call1_cst, main_call1_v0, main_v37, main_v38, main_v39, main_v40, main_v41, main_v42, main_v43, main_v44, main_v45]
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 2 does not write keeps its contents through it. -/
theorem seg2_keep (V : Valuation τ sig (Elt F)) (r : Ref sig .tc) (h : r ∉ seg2_W) :
    after seg2 V (Proc.devRef .tc r) = V (Proc.devRef .tc r) :=
  after_of_writes_sub seg2 _ seg2_writes h

/-- The buffers segment 3 writes. -/
abbrev seg3_W : List (Ref sig .tc) := [main_cst_1, main_v46, main_cst_2, main_v47, main_v48, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v49]
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 3 does not write keeps its contents through it. -/
theorem seg3_keep (V : Valuation τ sig (Elt F)) (r : Ref sig .tc) (h : r ∉ seg3_W) :
    after seg3 V (Proc.devRef .tc r) = V (Proc.devRef .tc r) :=
  after_of_writes_sub seg3 _ seg3_writes h

/-- The buffers segment 4 writes. -/
abbrev seg4_W : List (Ref sig .tc) := [main_v50, main_v51, main_v52, main_v53]
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 4 does not write keeps its contents through it. -/
theorem seg4_keep (V : Valuation τ sig (Elt F)) (r : Ref sig .tc) (h : r ∉ seg4_W) :
    after seg4 V (Proc.devRef .tc r) = V (Proc.devRef .tc r) :=
  after_of_writes_sub seg4 _ seg4_writes h

/-- The buffers segment 5 writes. -/
abbrev seg5_W : List (Ref sig .tc) := [main_v54, main_v55, main_v56, main_v57, main_cst_4, main_v58, main_v59, main_v60, main_v61, main_v62, main_v63, main_v64, main_v65, main_v66, main_v67, main_v68, main_call3_cst, main_call3_v0, main_v69]
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 5 does not write keeps its contents through it. -/
theorem seg5_keep (V : Valuation τ sig (Elt F)) (r : Ref sig .tc) (h : r ∉ seg5_W) :
    after seg5 V (Proc.devRef .tc r) = V (Proc.devRef .tc r) :=
  after_of_writes_sub seg5 _ seg5_writes h

/-- The buffers segment 6 writes. -/
abbrev seg6_W : List (Ref sig .tc) := [main_v70, main_v71, main_v72, main_v73, main_v74, main_v75, main_v76, main_v77, main_c_5, main_v78, main_v79, main_c_6, main_v80, main_v81, main_v82, main_v83, main_v84, main_v85, main_call4_cst, main_call4_v0, main_v86]
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 6 does not write keeps its contents through it. -/
theorem seg6_keep (V : Valuation τ sig (Elt F)) (r : Ref sig .tc) (h : r ∉ seg6_W) :
    after seg6 V (Proc.devRef .tc r) = V (Proc.devRef .tc r) :=
  after_of_writes_sub seg6 _ seg6_writes h

/-- The buffers segment 7 writes. -/
abbrev seg7_W : List (Ref sig .tc) := [main_cst_7, main_v87, main_v88, main_v89, main_v90, main_v91, main_v92, main_v93, main_v94, main_v95, main_v96, main_v97, main_v98, main_call5_cst, main_call5_v0, main_v99, main_v100, main_v101, main_v102, main_v103, main_v104, main_v105, main_v106, main_v107]
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 7 does not write keeps its contents through it. -/
theorem seg7_keep (V : Valuation τ sig (Elt F)) (r : Ref sig .tc) (h : r ∉ seg7_W) :
    after seg7 V (Proc.devRef .tc r) = V (Proc.devRef .tc r) :=
  after_of_writes_sub seg7 _ seg7_writes h

/-- The buffers segment 8 writes. -/
abbrev seg8_W : List (Ref sig .tc) := [main_cst_8, main_v108]
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 8 does not write keeps its contents through it. -/
theorem seg8_keep (V : Valuation τ sig (Elt F)) (r : Ref sig .tc) (h : r ∉ seg8_W) :
    after seg8 V (Proc.devRef .tc r) = V (Proc.devRef .tc r) :=
  after_of_writes_sub seg8 _ seg8_writes h

/-- The buffers segment 9 writes. -/
abbrev seg9_W : List (Ref sig .tc) := [main_cst_9, main_v109, main_v110, main_c_10, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v111]
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 9 does not write keeps its contents through it. -/
theorem seg9_keep (V : Valuation τ sig (Elt F)) (r : Ref sig .tc) (h : r ∉ seg9_W) :
    after seg9 V (Proc.devRef .tc r) = V (Proc.devRef .tc r) :=
  after_of_writes_sub seg9 _ seg9_writes h

/-- The buffers segment 10 writes. -/
abbrev seg10_W : List (Ref sig .tc) := [main_v112, main_v113, main_v114, main_v115, main_v116, main_v117, main_v118, main_v119, main_cst_11, main_v120, main_v121, main_v122, main_v123, main_v124, main_v125, main_v126, main_v127, main_v128, main_v129, main_v130, main_call7_cst, main_call7_v0, main_v131]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 10 does not write keeps its contents through it. -/
theorem seg10_keep (V : Valuation τ sig (Elt F)) (r : Ref sig .tc) (h : r ∉ seg10_W) :
    after seg10 V (Proc.devRef .tc r) = V (Proc.devRef .tc r) :=
  after_of_writes_sub seg10 _ seg10_writes h

/-- The buffers segment 11 writes. -/
abbrev seg11_W : List (Ref sig .tc) := [main_v132, main_v133, main_v134, main_v135, main_v136, main_v137, main_v138, main_v139, main_c_12, main_v140, main_v141, main_c_13, main_v142, main_v143, main_v144, main_v145, main_v146, main_v147, main_call8_cst, main_call8_v0, main_v148]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 11 does not write keeps its contents through it. -/
theorem seg11_keep (V : Valuation τ sig (Elt F)) (r : Ref sig .tc) (h : r ∉ seg11_W) :
    after seg11 V (Proc.devRef .tc r) = V (Proc.devRef .tc r) :=
  after_of_writes_sub seg11 _ seg11_writes h

/-- The buffers segment 12 writes. -/
abbrev seg12_W : List (Ref sig .tc) := [main_cst_14, main_v149, main_v150, main_v151, main_v152, main_v153, main_v154, main_v155, main_v156, main_v157, main_v158, main_v159, main_v160, main_call9_cst, main_call9_v0, main_v161, main_v162]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 12 does not write keeps its contents through it. -/
theorem seg12_keep (V : Valuation τ sig (Elt F)) (r : Ref sig .tc) (h : r ∉ seg12_W) :
    after seg12 V (Proc.devRef .tc r) = V (Proc.devRef .tc r) :=
  after_of_writes_sub seg12 _ seg12_writes h

/-- The buffers segment 13 writes. -/
abbrev seg13_W : List (Ref sig .tc) := [main_v163, main_v164, main_v165, main_v166, main_v167, main_v168, main_v169]
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 13 does not write keeps its contents through it. -/
theorem seg13_keep (V : Valuation τ sig (Elt F)) (r : Ref sig .tc) (h : r ∉ seg13_W) :
    after seg13 V (Proc.devRef .tc r) = V (Proc.devRef .tc r) :=
  after_of_writes_sub seg13 _ seg13_writes h

/-- The buffers segment 14 writes. -/
abbrev seg14_W : List (Ref sig .tc) := [main_cst_15, main_v170, main_cst_16, main_v171, main_v172, main_c_17, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v173]
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 14 does not write keeps its contents through it. -/
theorem seg14_keep (V : Valuation τ sig (Elt F)) (r : Ref sig .tc) (h : r ∉ seg14_W) :
    after seg14 V (Proc.devRef .tc r) = V (Proc.devRef .tc r) :=
  after_of_writes_sub seg14 _ seg14_writes h

/-- The buffers segment 15 writes. -/
abbrev seg15_W : List (Ref sig .tc) := [main_v174, main_v175, main_v176, main_v177, main_v178, main_v179, main_v180, main_v181, main_cst_18, main_v182, main_v183, main_v184, main_v185, main_v186, main_v187, main_v188, main_v189, main_v190, main_v191, main_v192, main_call11_cst, main_call11_v0, main_v193]
theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 15 does not write keeps its contents through it. -/
theorem seg15_keep (V : Valuation τ sig (Elt F)) (r : Ref sig .tc) (h : r ∉ seg15_W) :
    after seg15 V (Proc.devRef .tc r) = V (Proc.devRef .tc r) :=
  after_of_writes_sub seg15 _ seg15_writes h

/-- The buffers segment 16 writes. -/
abbrev seg16_W : List (Ref sig .tc) := [main_cst_19, main_v194, main_v195, main_v196, main_v197, main_v198, main_v199, main_v200, main_call12_cst, main_call12_v0, main_v201, main_v202, main_v203, main_v204, main_v205]
theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer segment 16 does not write keeps its contents through it. -/
theorem seg16_keep (V : Valuation τ sig (Elt F)) (r : Ref sig .tc) (h : r ∉ seg16_W) :
    after seg16 V (Proc.devRef .tc r) = V (Proc.devRef .tc r) :=
  after_of_writes_sub seg16 _ seg16_writes h

end Cert.ReferenceIdeal.RefRun

end
-- ==== Proof.RefValue.lean ====
/-
  What the reference program leaves in its result buffer, as the specification's function of the argument arrays, at
  the extended reals.

  The operations are read one stage of the network at a time. Each stage is a short run of host operations whose value at
  its result buffer, from any contents W of the buffers, is one of the specification's stage functions of W at the
  buffers the stage reads: the encoder, a layer's message, its aggregation and perceptron, its column mean and variance,
  its normalisation, and the pooling with the head. The row-wise stages are the host's spellings of the whole-array
  functions (a product is dot_general with the plain dimension numbers, a bias along the rows two broadcasts and an add,
  the clamp a maximum with the broadcast zero, the normalisation five such steps); the stages that move rows between
  nodes and edges, and the column mean and variance, are the specification's own terms. The stages are then chained:
  a stage leaves alone every buffer it does not write, so a value computed by one stage is still there when a later one
  reads it, and the arguments are never written.
-/
import proofs.«173900_j6880537608212_1_alg».proof.Proof.RefRun
import proofs.«173900_j6880537608212_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.RefRun
open Cert.Gcn (prod clamp)
open Cert.LibRowBias (rowBias)
open Cert.LibRowLocal (head)

/-! ## The host's spellings of the row-wise stages, at any sizes -/

/-- A product followed by a bias along the rows, as the host spells them. -/
theorem host_enc {M K N : Nat} (wf : DotDims.WF ⟨2, ![M, K]⟩ ⟨2, ![K, N]⟩ ⟨2, ![M, N]⟩ [1] [0] [0] [1] [] [])
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    addf (Host.dotGeneral (F := Ideal) (Cert.LibMatmul.plainDims M K N wf) none x w)
      (broadcastInDim ⟨2, ![M, N]⟩ ![0, 1] h4 (broadcastInDim ⟨2, ![1, N]⟩ ![1] h3 b)) = rowBias (prod x w) b := by
  rw [Cert.Gcn.dotGeneral_plain, Cert.LibRowBias.host_rowBias]

/-- The message of every edge, as the host spells it: the clamp of the gathered row plus the affine image of the
    edge's attributes. -/
theorem host_msg {M K N : Nat} (wf : DotDims.WF ⟨2, ![M, K]⟩ ⟨2, ![K, N]⟩ ⟨2, ![M, N]⟩ [1] [0] [0] [1] [] [])
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hsrc : FVec Ideal ⟨2, ![M, N]⟩ .f32) (ea : FVec Ideal ⟨2, ![M, K]⟩ .f32) (eW : FVec Ideal ⟨2, ![K, N]⟩ .f32)
    (eb : FVec Ideal ⟨1, ![N]⟩ .f32) :
    maximumf (addf hsrc (addf (Host.dotGeneral (F := Ideal) (Cert.LibMatmul.plainDims M K N wf) none ea eW)
        (broadcastInDim ⟨2, ![M, N]⟩ ![0, 1] h4 (broadcastInDim ⟨2, ![1, N]⟩ ![1] h3 eb))))
      (broadcastInDim ⟨2, ![M, N]⟩ ![] h0 (constant (F := Ideal) ⟨0, ![]⟩ .f32 0x00000000#32))
      = clamp (addf hsrc (rowBias (prod ea eW) eb)) := by
  rw [Cert.Gcn.host_clamp, host_enc]

/-- The two-layer perceptron, as the host spells it: product, bias, clamp, product, bias. -/
theorem host_head {n a b c : Nat} (wf1 : DotDims.WF ⟨2, ![n, a]⟩ ⟨2, ![a, b]⟩ ⟨2, ![n, b]⟩ [1] [0] [0] [1] [] [])
    (wf2 : DotDims.WF ⟨2, ![n, b]⟩ ⟨2, ![b, c]⟩ ⟨2, ![n, c]⟩ [1] [0] [0] [1] [] [])
    (h3 : (⟨1, ![b]⟩ : Shape).BroadcastsInDim ⟨2, ![1, b]⟩ (![1] : Fin 1 → Fin 2))
    (h4 : (⟨2, ![1, b]⟩ : Shape).BroadcastsInDim ⟨2, ![n, b]⟩ (![0, 1] : Fin 2 → Fin 2))
    (h0 : (⟨0, ![]⟩ : Shape).BroadcastsInDim ⟨2, ![n, b]⟩ (![] : Fin 0 → Fin 2))
    (h3' : (⟨1, ![c]⟩ : Shape).BroadcastsInDim ⟨2, ![1, c]⟩ (![1] : Fin 1 → Fin 2))
    (h4' : (⟨2, ![1, c]⟩ : Shape).BroadcastsInDim ⟨2, ![n, c]⟩ (![0, 1] : Fin 2 → Fin 2))
    (x : FVec Ideal ⟨2, ![n, a]⟩ .f32) (w3 : FVec Ideal ⟨2, ![a, b]⟩ .f32) (b3 : FVec Ideal ⟨1, ![b]⟩ .f32)
    (w4 : FVec Ideal ⟨2, ![b, c]⟩ .f32) (b4 : FVec Ideal ⟨1, ![c]⟩ .f32) :
    addf (Host.dotGeneral (F := Ideal) (Cert.LibMatmul.plainDims n b c wf2) none
        (maximumf (addf (Host.dotGeneral (F := Ideal) (Cert.LibMatmul.plainDims n a b wf1) none x w3)
            (broadcastInDim ⟨2, ![n, b]⟩ ![0, 1] h4 (broadcastInDim ⟨2, ![1, b]⟩ ![1] h3 b3)))
          (broadcastInDim ⟨2, ![n, b]⟩ ![] h0 (constant (F := Ideal) ⟨0, ![]⟩ .f32 0x00000000#32))) w4)
      (broadcastInDim ⟨2, ![n, c]⟩ ![0, 1] h4' (broadcastInDim ⟨2, ![1, c]⟩ ![1] h3' b4)) = head x w3 b3 w4 b4 := by
  unfold Cert.LibRowLocal.head
  rw [host_enc, Cert.Gcn.host_clamp, host_enc]

/-- The normalisation, as the host spells it: the mean broadcast to the rows and subtracted, the product with gamma
    (broadcast, on the left), the product with the broadcast reciprocal square root of the variance plus the small
    constant, the broadcast beta added, and the clamp. -/
theorem host_bnRelu {n f : Nat} (z : FVec Ideal ⟨2, ![n, f]⟩ .f32) (m v g bt : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2))
    (he : (⟨0, ![]⟩ : Shape).BroadcastsInDim ⟨1, ![f]⟩ (![] : Fin 0 → Fin 1))
    (h0 : (⟨0, ![]⟩ : Shape).BroadcastsInDim ⟨2, ![n, f]⟩ (![] : Fin 0 → Fin 2)) :
    maximumf
      (addf
        (mulf
          (mulf (broadcastInDim ⟨2, ![n, f]⟩ ![0, 1] h4 (broadcastInDim ⟨2, ![1, f]⟩ ![1] h3 g))
            (subf z (broadcastInDim ⟨2, ![n, f]⟩ ![0, 1] h4 (broadcastInDim ⟨2, ![1, f]⟩ ![1] h3 m))))
          (broadcastInDim ⟨2, ![n, f]⟩ ![0, 1] h4 (broadcastInDim ⟨2, ![1, f]⟩ ![1] h3
            (Host.rsqrt (addf v (broadcastInDim ⟨1, ![f]⟩ ![] he (constant (F := Ideal) ⟨0, ![]⟩ .f32 0x3727C5AC#32)))))))
        (broadcastInDim ⟨2, ![n, f]⟩ ![0, 1] h4 (broadcastInDim ⟨2, ![1, f]⟩ ![1] h3 bt)))
      (broadcastInDim ⟨2, ![n, f]⟩ ![] h0 (constant (F := Ideal) ⟨0, ![]⟩ .f32 0x00000000#32))
      = Cert.Spec.bnRelu z m v g bt := by
  unfold Cert.Spec.bnRelu
  rw [Cert.Gcn.host_clamp]
  congr 1
  funext i
  obtain ⟨p, q, rfl⟩ : ∃ (p : Fin n) (q : Fin f), i = ix2 p q := ⟨i 0, i 1, eq_ix2 i⟩
  have e : Host.rsqrt (addf v (broadcastInDim ⟨1, ![f]⟩ ![] he (constant (F := Ideal) ⟨0, ![]⟩ .f32 0x3727C5AC#32))) (ix1 q)
      = Ideal.rsqrt (v (ix1 q) + Ideal.ofBits .f32 0x3727C5AC#32) := by
    show Ideal.rsqrt (v (ix1 q) + broadcastInDim ⟨1, ![f]⟩ ![] he (constant (F := Ideal) ⟨0, ![]⟩ .f32 0x3727C5AC#32) (ix1 q)) = _
    rw [broadcastInDim_apply _ he _ (ix1 q) ix0 (fun a => a.elim0)]
    rfl
  show (broadcastInDim ⟨2, ![n, f]⟩ ![0, 1] h4 (broadcastInDim ⟨2, ![1, f]⟩ ![1] h3 g) (ix2 p q)
        * (z (ix2 p q) - broadcastInDim ⟨2, ![n, f]⟩ ![0, 1] h4 (broadcastInDim ⟨2, ![1, f]⟩ ![1] h3 m) (ix2 p q)))
      * broadcastInDim ⟨2, ![n, f]⟩ ![0, 1] h4 (broadcastInDim ⟨2, ![1, f]⟩ ![1] h3
          (Host.rsqrt (addf v (broadcastInDim ⟨1, ![f]⟩ ![] he (constant (F := Ideal) ⟨0, ![]⟩ .f32 0x3727C5AC#32))))) (ix2 p q)
      + broadcastInDim ⟨2, ![n, f]⟩ ![0, 1] h4 (broadcastInDim ⟨2, ![1, f]⟩ ![1] h3 bt) (ix2 p q)
    = g (ix1 q) * (z (ix2 p q) - m (ix1 q)) * Ideal.rsqrt (v (ix1 q) + Ideal.ofBits .f32 0x3727C5AC#32) + bt (ix1 q)
  rw [Cert.LibRowBias.host_row_apply, Cert.LibRowBias.host_row_apply, Cert.LibRowBias.host_row_apply,
    Cert.LibRowBias.host_row_apply, e]

/-! ## One stage at a time, from any contents of the buffers -/

variable (W V : Valuation τ sig (Elt Ideal))

/-- The source and target node of every edge, and the encoded node features. -/
theorem seg0_v1 : after seg0 W main_v1 = Cert.Spec.srcOf (W main_arg1) := by
  simp only [seg0]
  after_results_simp
  all_goals rfl
theorem seg0_v3 : after seg0 W main_v3 = Cert.Spec.dstOf (W main_arg1) := by
  simp only [seg0]
  after_results_simp
  all_goals rfl
theorem seg0_v7 : after seg0 W main_v7 = Cert.Spec.enc (W main_arg0) (W main_arg4) (W main_arg5) := by
  simp only [seg0]
  after_results_simp
  exact host_enc dot_S50000x64_S64x128_S50000x128_1_0_0_1_n_n_wf bcast_S128_S1x128_1 bcast_S1x128_S50000x128_0_1 _ _ _

/-! ### Layer 1 -/

/-- The messages of layer 1. -/
theorem msg1_eq : after seg1 W main_v24 = Cert.Spec.msgOf (Cert.Spec.gatherSrc (W main_v7) (W main_v1)) (W main_arg2) (Cert.Spec.cutE0 (W main_arg6)) (Cert.Spec.cutB0 (W main_arg7)) := by
  simp only [seg1]
  after_results_simp
  exact host_msg dot_S640000x16_S16x128_S640000x128_1_0_0_1_n_n_wf bcast_S128_S1x128_1 bcast_S1x128_S640000x128_0_1 bcast_S_S640000x128 _ _ _ _
/-- The aggregation and node perceptron of layer 1. -/
theorem z1_eq : after seg2 W main_v45 = Cert.Spec.mlpOf (W main_v7) (Cert.Spec.aggOf (W main_v24) (W main_v3)) (Cert.Spec.cutW0 (W main_arg8)) (Cert.Spec.cutB0 (W main_arg9)) (Cert.Spec.cutW0 (W main_arg10)) (Cert.Spec.cutB0 (W main_arg11)) := by
  simp only [seg2]
  after_results_simp
  exact host_head dot_S50000x128_S128x128_S50000x128_1_0_0_1_n_n_wf dot_S50000x128_S128x128_S50000x128_1_0_0_1_n_n_wf bcast_S128_S1x128_1 bcast_S1x128_S50000x128_0_1 bcast_S_S50000x128 bcast_S128_S1x128_1 bcast_S1x128_S50000x128_0_1 _ _ _ _ _
/-- The column mean and variance of layer 1. -/
theorem mean1_eq : after seg3 W main_v48 = Cert.Spec.meanOf (W main_v45) := by
  simp only [seg3]
  after_results_simp
  all_goals rfl
theorem var1_eq : after seg3 W main_v49 = Cert.Spec.varOf (W main_v45) := by
  simp only [seg3]
  after_results_simp
  all_goals rfl
/-- The normalisation of layer 1. -/
theorem h1_eq : after seg5 (after seg4 W) main_v69 = Cert.Spec.bnRelu (W main_v45) (W main_v48) (W main_v49) (Cert.Spec.cutB0 (W main_arg12)) (Cert.Spec.cutB0 (W main_arg13)) := by
  simp only [seg4, seg5]
  after_results_simp
  exact host_bnRelu _ _ _ _ _ bcast_S128_S1x128_1 bcast_S1x128_S50000x128_0_1 bcast_S_S128 bcast_S_S50000x128

/-! ### Layer 2 -/

/-- The messages of layer 2. -/
theorem msg2_eq : after seg6 W main_v86 = Cert.Spec.msgOf (Cert.Spec.gatherSrc (W main_v69) (W main_v1)) (W main_arg2) (Cert.Spec.cutE1 (W main_arg6)) (Cert.Spec.cutB1 (W main_arg7)) := by
  simp only [seg6]
  after_results_simp
  exact host_msg dot_S640000x16_S16x128_S640000x128_1_0_0_1_n_n_wf bcast_S128_S1x128_1 bcast_S1x128_S640000x128_0_1 bcast_S_S640000x128 _ _ _ _
/-- The aggregation and node perceptron of layer 2. -/
theorem z2_eq : after seg7 W main_v107 = Cert.Spec.mlpOf (W main_v69) (Cert.Spec.aggOf (W main_v86) (W main_v3)) (Cert.Spec.cutW1 (W main_arg8)) (Cert.Spec.cutB1 (W main_arg9)) (Cert.Spec.cutW1 (W main_arg10)) (Cert.Spec.cutB1 (W main_arg11)) := by
  simp only [seg7]
  after_results_simp
  exact host_head dot_S50000x128_S128x128_S50000x128_1_0_0_1_n_n_wf dot_S50000x128_S128x128_S50000x128_1_0_0_1_n_n_wf bcast_S128_S1x128_1 bcast_S1x128_S50000x128_0_1 bcast_S_S50000x128 bcast_S128_S1x128_1 bcast_S1x128_S50000x128_0_1 _ _ _ _ _
/-- The column mean and variance of layer 2. -/
theorem mean2_eq : after seg9 (after seg8 W) main_v110 = Cert.Spec.meanOf (W main_v107) := by
  simp only [seg8, seg9]
  after_results_simp
  all_goals rfl
theorem var2_eq : after seg9 (after seg8 W) main_v111 = Cert.Spec.varOf (W main_v107) := by
  simp only [seg8, seg9]
  after_results_simp
  all_goals rfl
/-- The normalisation of layer 2. -/
theorem h2_eq : after seg10 W main_v131 = Cert.Spec.bnRelu (W main_v107) (W main_v110) (W main_v111) (Cert.Spec.cutB1 (W main_arg12)) (Cert.Spec.cutB1 (W main_arg13)) := by
  simp only [seg10]
  after_results_simp
  exact host_bnRelu _ _ _ _ _ bcast_S128_S1x128_1 bcast_S1x128_S50000x128_0_1 bcast_S_S128 bcast_S_S50000x128

/-! ### Layer 3 -/

/-- The messages of layer 3. -/
theorem msg3_eq : after seg11 W main_v148 = Cert.Spec.msgOf (Cert.Spec.gatherSrc (W main_v131) (W main_v1)) (W main_arg2) (Cert.Spec.cutE2 (W main_arg6)) (Cert.Spec.cutB2 (W main_arg7)) := by
  simp only [seg11]
  after_results_simp
  exact host_msg dot_S640000x16_S16x128_S640000x128_1_0_0_1_n_n_wf bcast_S128_S1x128_1 bcast_S1x128_S640000x128_0_1 bcast_S_S640000x128 _ _ _ _
/-- The aggregation and node perceptron of layer 3. -/
theorem z3_eq : after seg13 (after seg12 W) main_v169 = Cert.Spec.mlpOf (W main_v131) (Cert.Spec.aggOf (W main_v148) (W main_v3)) (Cert.Spec.cutW2 (W main_arg8)) (Cert.Spec.cutB2 (W main_arg9)) (Cert.Spec.cutW2 (W main_arg10)) (Cert.Spec.cutB2 (W main_arg11)) := by
  simp only [seg12, seg13]
  after_results_simp
  exact host_head dot_S50000x128_S128x128_S50000x128_1_0_0_1_n_n_wf dot_S50000x128_S128x128_S50000x128_1_0_0_1_n_n_wf bcast_S128_S1x128_1 bcast_S1x128_S50000x128_0_1 bcast_S_S50000x128 bcast_S128_S1x128_1 bcast_S1x128_S50000x128_0_1 _ _ _ _ _
/-- The column mean and variance of layer 3. -/
theorem mean3_eq : after seg14 W main_v172 = Cert.Spec.meanOf (W main_v169) := by
  simp only [seg14]
  after_results_simp
  all_goals rfl
theorem var3_eq : after seg14 W main_v173 = Cert.Spec.varOf (W main_v169) := by
  simp only [seg14]
  after_results_simp
  all_goals rfl
/-- The normalisation of layer 3. -/
theorem h3_eq : after seg15 W main_v193 = Cert.Spec.bnRelu (W main_v169) (W main_v172) (W main_v173) (Cert.Spec.cutB2 (W main_arg12)) (Cert.Spec.cutB2 (W main_arg13)) := by
  simp only [seg15]
  after_results_simp
  exact host_bnRelu _ _ _ _ _ bcast_S128_S1x128_1 bcast_S1x128_S50000x128_0_1 bcast_S_S128 bcast_S_S50000x128

/-! ### Pooling and head -/

theorem res_eq0 : after seg16 W main_v205 = head (Cert.Spec.poolOf (W main_v193) (W main_arg3)) (W main_arg14) (W main_arg15) (W main_arg16) (W main_arg17) := by
  simp only [seg16]
  after_results_simp
  exact host_head dot_S64x128_S128x128_S64x128_1_0_0_1_n_n_wf dot_S64x128_S128x2_S64x2_1_0_0_1_n_n_wf bcast_S128_S1x128_1 bcast_S1x128_S64x128_0_1 bcast_S_S64x128 bcast_S2_S1x2_1 bcast_S1x2_S64x2_0_1 _ _ _ _ _

/-! ## The stages chained

`valK V` is what the buffers hold after the first K stages, from contents V. -/

/-- The buffers' contents after 1 stage. -/
def val1 : Valuation τ sig (Elt Ideal) := after seg0 V
/-- The buffers' contents after 2 stages. -/
def val2 : Valuation τ sig (Elt Ideal) := after seg1 (val1 V)
/-- The buffers' contents after 3 stages. -/
def val3 : Valuation τ sig (Elt Ideal) := after seg2 (val2 V)
/-- The buffers' contents after 4 stages. -/
def val4 : Valuation τ sig (Elt Ideal) := after seg3 (val3 V)
/-- The buffers' contents after 5 stages. -/
def val5 : Valuation τ sig (Elt Ideal) := after seg5 (after seg4 (val4 V))
/-- The buffers' contents after 6 stages. -/
def val6 : Valuation τ sig (Elt Ideal) := after seg6 (val5 V)
/-- The buffers' contents after 7 stages. -/
def val7 : Valuation τ sig (Elt Ideal) := after seg7 (val6 V)
/-- The buffers' contents after 8 stages. -/
def val8 : Valuation τ sig (Elt Ideal) := after seg9 (after seg8 (val7 V))
/-- The buffers' contents after 9 stages. -/
def val9 : Valuation τ sig (Elt Ideal) := after seg10 (val8 V)
/-- The buffers' contents after 10 stages. -/
def val10 : Valuation τ sig (Elt Ideal) := after seg11 (val9 V)
/-- The buffers' contents after 11 stages. -/
def val11 : Valuation τ sig (Elt Ideal) := after seg13 (after seg12 (val10 V))
/-- The buffers' contents after 12 stages. -/
def val12 : Valuation τ sig (Elt Ideal) := after seg14 (val11 V)
/-- The buffers' contents after 13 stages. -/
def val13 : Valuation τ sig (Elt Ideal) := after seg15 (val12 V)
/-- The buffers' contents after 14 stages. -/
def val14 : Valuation τ sig (Elt Ideal) := after seg16 (val13 V)

/-- The fold over all the operations is the last of them. -/
theorem after_ops_val : after ops V = val14 V := by
  rw [after_ops]
  rfl

/-- The argument buffers. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem args_seg0 : ∀ r ∈ args, r ∉ seg0_W := by decide
theorem args_seg1 : ∀ r ∈ args, r ∉ seg1_W := by decide
theorem args_seg2 : ∀ r ∈ args, r ∉ seg2_W := by decide
theorem args_seg3 : ∀ r ∈ args, r ∉ seg3_W := by decide
theorem args_seg4 : ∀ r ∈ args, r ∉ seg4_W := by decide
theorem args_seg5 : ∀ r ∈ args, r ∉ seg5_W := by decide
theorem args_seg6 : ∀ r ∈ args, r ∉ seg6_W := by decide
theorem args_seg7 : ∀ r ∈ args, r ∉ seg7_W := by decide
theorem args_seg8 : ∀ r ∈ args, r ∉ seg8_W := by decide
theorem args_seg9 : ∀ r ∈ args, r ∉ seg9_W := by decide
theorem args_seg10 : ∀ r ∈ args, r ∉ seg10_W := by decide
theorem args_seg11 : ∀ r ∈ args, r ∉ seg11_W := by decide
theorem args_seg12 : ∀ r ∈ args, r ∉ seg12_W := by decide
theorem args_seg13 : ∀ r ∈ args, r ∉ seg13_W := by decide
theorem args_seg14 : ∀ r ∈ args, r ∉ seg14_W := by decide
theorem args_seg15 : ∀ r ∈ args, r ∉ seg15_W := by decide
theorem args_seg16 : ∀ r ∈ args, r ∉ seg16_W := by decide

/-- No stage writes an argument. -/
theorem val1_arg (r : Ref sig .tc) (h : r ∈ args) : val1 V (Proc.devRef .tc r) = V (Proc.devRef .tc r) :=
  (seg0_keep _ r (args_seg0 r h))
/-- No stage writes an argument. -/
theorem val2_arg (r : Ref sig .tc) (h : r ∈ args) : val2 V (Proc.devRef .tc r) = V (Proc.devRef .tc r) :=
  ((seg1_keep _ r (args_seg1 r h))).trans (val1_arg V r h)
/-- No stage writes an argument. -/
theorem val3_arg (r : Ref sig .tc) (h : r ∈ args) : val3 V (Proc.devRef .tc r) = V (Proc.devRef .tc r) :=
  ((seg2_keep _ r (args_seg2 r h))).trans (val2_arg V r h)
/-- No stage writes an argument. -/
theorem val4_arg (r : Ref sig .tc) (h : r ∈ args) : val4 V (Proc.devRef .tc r) = V (Proc.devRef .tc r) :=
  ((seg3_keep _ r (args_seg3 r h))).trans (val3_arg V r h)
/-- No stage writes an argument. -/
theorem val5_arg (r : Ref sig .tc) (h : r ∈ args) : val5 V (Proc.devRef .tc r) = V (Proc.devRef .tc r) :=
  ((seg5_keep _ r (args_seg5 r h)).trans (seg4_keep _ r (args_seg4 r h))).trans (val4_arg V r h)
/-- No stage writes an argument. -/
theorem val6_arg (r : Ref sig .tc) (h : r ∈ args) : val6 V (Proc.devRef .tc r) = V (Proc.devRef .tc r) :=
  ((seg6_keep _ r (args_seg6 r h))).trans (val5_arg V r h)
/-- No stage writes an argument. -/
theorem val7_arg (r : Ref sig .tc) (h : r ∈ args) : val7 V (Proc.devRef .tc r) = V (Proc.devRef .tc r) :=
  ((seg7_keep _ r (args_seg7 r h))).trans (val6_arg V r h)
/-- No stage writes an argument. -/
theorem val8_arg (r : Ref sig .tc) (h : r ∈ args) : val8 V (Proc.devRef .tc r) = V (Proc.devRef .tc r) :=
  ((seg9_keep _ r (args_seg9 r h)).trans (seg8_keep _ r (args_seg8 r h))).trans (val7_arg V r h)
/-- No stage writes an argument. -/
theorem val9_arg (r : Ref sig .tc) (h : r ∈ args) : val9 V (Proc.devRef .tc r) = V (Proc.devRef .tc r) :=
  ((seg10_keep _ r (args_seg10 r h))).trans (val8_arg V r h)
/-- No stage writes an argument. -/
theorem val10_arg (r : Ref sig .tc) (h : r ∈ args) : val10 V (Proc.devRef .tc r) = V (Proc.devRef .tc r) :=
  ((seg11_keep _ r (args_seg11 r h))).trans (val9_arg V r h)
/-- No stage writes an argument. -/
theorem val11_arg (r : Ref sig .tc) (h : r ∈ args) : val11 V (Proc.devRef .tc r) = V (Proc.devRef .tc r) :=
  ((seg13_keep _ r (args_seg13 r h)).trans (seg12_keep _ r (args_seg12 r h))).trans (val10_arg V r h)
/-- No stage writes an argument. -/
theorem val12_arg (r : Ref sig .tc) (h : r ∈ args) : val12 V (Proc.devRef .tc r) = V (Proc.devRef .tc r) :=
  ((seg14_keep _ r (args_seg14 r h))).trans (val11_arg V r h)
/-- No stage writes an argument. -/
theorem val13_arg (r : Ref sig .tc) (h : r ∈ args) : val13 V (Proc.devRef .tc r) = V (Proc.devRef .tc r) :=
  ((seg15_keep _ r (args_seg15 r h))).trans (val12_arg V r h)
/-- No stage writes an argument. -/
theorem val14_arg (r : Ref sig .tc) (h : r ∈ args) : val14 V (Proc.devRef .tc r) = V (Proc.devRef .tc r) :=
  ((seg16_keep _ r (args_seg16 r h))).trans (val13_arg V r h)

/-! The specification's intermediate values, over the arguments' contents. -/

def src : IVec S640000 32 := Cert.Spec.srcOf (V main_arg1)
def dst : IVec S640000 32 := Cert.Spec.dstOf (V main_arg1)
def h0 : FVec Ideal S50000x128 .f32 := Cert.Spec.enc (V main_arg0) (V main_arg4) (V main_arg5)
def msg1 : FVec Ideal S640000x128 .f32 := Cert.Spec.msgOf (Cert.Spec.gatherSrc (h0 V) (src V)) (V main_arg2) (Cert.Spec.cutE0 (V main_arg6)) (Cert.Spec.cutB0 (V main_arg7))
def z1 : FVec Ideal S50000x128 .f32 := Cert.Spec.mlpOf (h0 V) (Cert.Spec.aggOf (msg1 V) (dst V)) (Cert.Spec.cutW0 (V main_arg8)) (Cert.Spec.cutB0 (V main_arg9)) (Cert.Spec.cutW0 (V main_arg10)) (Cert.Spec.cutB0 (V main_arg11))
def h1 : FVec Ideal S50000x128 .f32 := Cert.Spec.bnRelu (z1 V) (Cert.Spec.meanOf (z1 V)) (Cert.Spec.varOf (z1 V)) (Cert.Spec.cutB0 (V main_arg12)) (Cert.Spec.cutB0 (V main_arg13))
def msg2 : FVec Ideal S640000x128 .f32 := Cert.Spec.msgOf (Cert.Spec.gatherSrc (h1 V) (src V)) (V main_arg2) (Cert.Spec.cutE1 (V main_arg6)) (Cert.Spec.cutB1 (V main_arg7))
def z2 : FVec Ideal S50000x128 .f32 := Cert.Spec.mlpOf (h1 V) (Cert.Spec.aggOf (msg2 V) (dst V)) (Cert.Spec.cutW1 (V main_arg8)) (Cert.Spec.cutB1 (V main_arg9)) (Cert.Spec.cutW1 (V main_arg10)) (Cert.Spec.cutB1 (V main_arg11))
def h2 : FVec Ideal S50000x128 .f32 := Cert.Spec.bnRelu (z2 V) (Cert.Spec.meanOf (z2 V)) (Cert.Spec.varOf (z2 V)) (Cert.Spec.cutB1 (V main_arg12)) (Cert.Spec.cutB1 (V main_arg13))
def msg3 : FVec Ideal S640000x128 .f32 := Cert.Spec.msgOf (Cert.Spec.gatherSrc (h2 V) (src V)) (V main_arg2) (Cert.Spec.cutE2 (V main_arg6)) (Cert.Spec.cutB2 (V main_arg7))
def z3 : FVec Ideal S50000x128 .f32 := Cert.Spec.mlpOf (h2 V) (Cert.Spec.aggOf (msg3 V) (dst V)) (Cert.Spec.cutW2 (V main_arg8)) (Cert.Spec.cutB2 (V main_arg9)) (Cert.Spec.cutW2 (V main_arg10)) (Cert.Spec.cutB2 (V main_arg11))
def h3 : FVec Ideal S50000x128 .f32 := Cert.Spec.bnRelu (z3 V) (Cert.Spec.meanOf (z3 V)) (Cert.Spec.varOf (z3 V)) (Cert.Spec.cutB2 (V main_arg12)) (Cert.Spec.cutB2 (V main_arg13))
def res : FVec Ideal S64x2 .f32 := head (Cert.Spec.poolOf (h3 V) (V main_arg3)) (V main_arg14) (V main_arg15) (V main_arg16) (V main_arg17)

/-- The last of them is the specification's whole network. -/
theorem res_eq : res V = Cert.Spec.out (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) := rfl

/-! What each stage's result buffer holds, and that it is still there when it is read. -/

theorem val1_v1 : val1 V (Proc.devRef .tc main_v1) = src V := by
  refine (seg0_v1 V).trans ?_
  rfl
theorem val1_v3 : val1 V (Proc.devRef .tc main_v3) = dst V := by
  refine (seg0_v3 V).trans ?_
  rfl
theorem val1_v7 : val1 V (Proc.devRef .tc main_v7) = h0 V := by
  refine (seg0_v7 V).trans ?_
  rfl
theorem val2_v1 : val2 V (Proc.devRef .tc main_v1) = src V :=
  ((seg1_keep _ main_v1 (by decide))).trans (val1_v1 V)
theorem val2_v3 : val2 V (Proc.devRef .tc main_v3) = dst V :=
  ((seg1_keep _ main_v3 (by decide))).trans (val1_v3 V)
theorem val2_v7 : val2 V (Proc.devRef .tc main_v7) = h0 V :=
  ((seg1_keep _ main_v7 (by decide))).trans (val1_v7 V)
theorem val2_v24 : val2 V (Proc.devRef .tc main_v24) = msg1 V := by
  refine (msg1_eq (val1 V)).trans ?_
  rw [val1_v7 V, val1_v1 V, val1_arg V main_arg2 (by decide), val1_arg V main_arg6 (by decide), val1_arg V main_arg7 (by decide)]
  rfl
theorem val3_v1 : val3 V (Proc.devRef .tc main_v1) = src V :=
  ((seg2_keep _ main_v1 (by decide))).trans (val2_v1 V)
theorem val3_v3 : val3 V (Proc.devRef .tc main_v3) = dst V :=
  ((seg2_keep _ main_v3 (by decide))).trans (val2_v3 V)
theorem val3_v45 : val3 V (Proc.devRef .tc main_v45) = z1 V := by
  refine (z1_eq (val2 V)).trans ?_
  rw [val2_v7 V, val2_v24 V, val2_v3 V, val2_arg V main_arg8 (by decide), val2_arg V main_arg9 (by decide), val2_arg V main_arg10 (by decide), val2_arg V main_arg11 (by decide)]
  rfl
theorem val4_v1 : val4 V (Proc.devRef .tc main_v1) = src V :=
  ((seg3_keep _ main_v1 (by decide))).trans (val3_v1 V)
theorem val4_v3 : val4 V (Proc.devRef .tc main_v3) = dst V :=
  ((seg3_keep _ main_v3 (by decide))).trans (val3_v3 V)
theorem val4_v45 : val4 V (Proc.devRef .tc main_v45) = z1 V :=
  ((seg3_keep _ main_v45 (by decide))).trans (val3_v45 V)
theorem val4_v48 : val4 V (Proc.devRef .tc main_v48) = Cert.Spec.meanOf (z1 V) := by
  refine (mean1_eq (val3 V)).trans ?_
  rw [val3_v45 V]
theorem val4_v49 : val4 V (Proc.devRef .tc main_v49) = Cert.Spec.varOf (z1 V) := by
  refine (var1_eq (val3 V)).trans ?_
  rw [val3_v45 V]
theorem val5_v1 : val5 V (Proc.devRef .tc main_v1) = src V :=
  ((seg5_keep _ main_v1 (by decide)).trans (seg4_keep _ main_v1 (by decide))).trans (val4_v1 V)
theorem val5_v3 : val5 V (Proc.devRef .tc main_v3) = dst V :=
  ((seg5_keep _ main_v3 (by decide)).trans (seg4_keep _ main_v3 (by decide))).trans (val4_v3 V)
theorem val5_v69 : val5 V (Proc.devRef .tc main_v69) = h1 V := by
  refine (h1_eq (val4 V)).trans ?_
  rw [val4_v45 V, val4_v48 V, val4_v49 V, val4_arg V main_arg12 (by decide), val4_arg V main_arg13 (by decide)]
  rfl
theorem val6_v1 : val6 V (Proc.devRef .tc main_v1) = src V :=
  ((seg6_keep _ main_v1 (by decide))).trans (val5_v1 V)
theorem val6_v3 : val6 V (Proc.devRef .tc main_v3) = dst V :=
  ((seg6_keep _ main_v3 (by decide))).trans (val5_v3 V)
theorem val6_v69 : val6 V (Proc.devRef .tc main_v69) = h1 V :=
  ((seg6_keep _ main_v69 (by decide))).trans (val5_v69 V)
theorem val6_v86 : val6 V (Proc.devRef .tc main_v86) = msg2 V := by
  refine (msg2_eq (val5 V)).trans ?_
  rw [val5_v69 V, val5_v1 V, val5_arg V main_arg2 (by decide), val5_arg V main_arg6 (by decide), val5_arg V main_arg7 (by decide)]
  rfl
theorem val7_v1 : val7 V (Proc.devRef .tc main_v1) = src V :=
  ((seg7_keep _ main_v1 (by decide))).trans (val6_v1 V)
theorem val7_v3 : val7 V (Proc.devRef .tc main_v3) = dst V :=
  ((seg7_keep _ main_v3 (by decide))).trans (val6_v3 V)
theorem val7_v107 : val7 V (Proc.devRef .tc main_v107) = z2 V := by
  refine (z2_eq (val6 V)).trans ?_
  rw [val6_v69 V, val6_v86 V, val6_v3 V, val6_arg V main_arg8 (by decide), val6_arg V main_arg9 (by decide), val6_arg V main_arg10 (by decide), val6_arg V main_arg11 (by decide)]
  rfl
theorem val8_v1 : val8 V (Proc.devRef .tc main_v1) = src V :=
  ((seg9_keep _ main_v1 (by decide)).trans (seg8_keep _ main_v1 (by decide))).trans (val7_v1 V)
theorem val8_v3 : val8 V (Proc.devRef .tc main_v3) = dst V :=
  ((seg9_keep _ main_v3 (by decide)).trans (seg8_keep _ main_v3 (by decide))).trans (val7_v3 V)
theorem val8_v107 : val8 V (Proc.devRef .tc main_v107) = z2 V :=
  ((seg9_keep _ main_v107 (by decide)).trans (seg8_keep _ main_v107 (by decide))).trans (val7_v107 V)
theorem val8_v110 : val8 V (Proc.devRef .tc main_v110) = Cert.Spec.meanOf (z2 V) := by
  refine (mean2_eq (val7 V)).trans ?_
  rw [val7_v107 V]
theorem val8_v111 : val8 V (Proc.devRef .tc main_v111) = Cert.Spec.varOf (z2 V) := by
  refine (var2_eq (val7 V)).trans ?_
  rw [val7_v107 V]
theorem val9_v1 : val9 V (Proc.devRef .tc main_v1) = src V :=
  ((seg10_keep _ main_v1 (by decide))).trans (val8_v1 V)
theorem val9_v3 : val9 V (Proc.devRef .tc main_v3) = dst V :=
  ((seg10_keep _ main_v3 (by decide))).trans (val8_v3 V)
theorem val9_v131 : val9 V (Proc.devRef .tc main_v131) = h2 V := by
  refine (h2_eq (val8 V)).trans ?_
  rw [val8_v107 V, val8_v110 V, val8_v111 V, val8_arg V main_arg12 (by decide), val8_arg V main_arg13 (by decide)]
  rfl
theorem val10_v3 : val10 V (Proc.devRef .tc main_v3) = dst V :=
  ((seg11_keep _ main_v3 (by decide))).trans (val9_v3 V)
theorem val10_v131 : val10 V (Proc.devRef .tc main_v131) = h2 V :=
  ((seg11_keep _ main_v131 (by decide))).trans (val9_v131 V)
theorem val10_v148 : val10 V (Proc.devRef .tc main_v148) = msg3 V := by
  refine (msg3_eq (val9 V)).trans ?_
  rw [val9_v131 V, val9_v1 V, val9_arg V main_arg2 (by decide), val9_arg V main_arg6 (by decide), val9_arg V main_arg7 (by decide)]
  rfl
theorem val11_v169 : val11 V (Proc.devRef .tc main_v169) = z3 V := by
  refine (z3_eq (val10 V)).trans ?_
  rw [val10_v131 V, val10_v148 V, val10_v3 V, val10_arg V main_arg8 (by decide), val10_arg V main_arg9 (by decide), val10_arg V main_arg10 (by decide), val10_arg V main_arg11 (by decide)]
  rfl
theorem val12_v169 : val12 V (Proc.devRef .tc main_v169) = z3 V :=
  ((seg14_keep _ main_v169 (by decide))).trans (val11_v169 V)
theorem val12_v172 : val12 V (Proc.devRef .tc main_v172) = Cert.Spec.meanOf (z3 V) := by
  refine (mean3_eq (val11 V)).trans ?_
  rw [val11_v169 V]
theorem val12_v173 : val12 V (Proc.devRef .tc main_v173) = Cert.Spec.varOf (z3 V) := by
  refine (var3_eq (val11 V)).trans ?_
  rw [val11_v169 V]
theorem val13_v193 : val13 V (Proc.devRef .tc main_v193) = h3 V := by
  refine (h3_eq (val12 V)).trans ?_
  rw [val12_v169 V, val12_v172 V, val12_v173 V, val12_arg V main_arg12 (by decide), val12_arg V main_arg13 (by decide)]
  rfl
theorem val14_v205 : val14 V (Proc.devRef .tc main_v205) = res V := by
  refine (res_eq0 (val13 V)).trans ?_
  rw [val13_v193 V, val13_arg V main_arg3 (by decide), val13_arg V main_arg14 (by decide), val13_arg V main_arg15 (by decide), val13_arg V main_arg16 (by decide), val13_arg V main_arg17 (by decide)]
  rfl

/-! ## The result and the arguments after the whole run -/

/-- The result buffer holds the specification's network of the arguments' contents. -/
theorem out_eq : after ops V (main_v205 : DevRef τ sig)
    = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [after_ops_val]
  exact (val14_v205 V).trans (res_eq V)

theorem arg0_eq : after ops V (main_arg0 : DevRef τ sig) = V (main_arg0 : DevRef τ sig) := by
  rw [after_ops_val]
  exact val14_arg V main_arg0 (by decide)
theorem arg1_eq : after ops V (main_arg1 : DevRef τ sig) = V (main_arg1 : DevRef τ sig) := by
  rw [after_ops_val]
  exact val14_arg V main_arg1 (by decide)
theorem arg2_eq : after ops V (main_arg2 : DevRef τ sig) = V (main_arg2 : DevRef τ sig) := by
  rw [after_ops_val]
  exact val14_arg V main_arg2 (by decide)
theorem arg3_eq : after ops V (main_arg3 : DevRef τ sig) = V (main_arg3 : DevRef τ sig) := by
  rw [after_ops_val]
  exact val14_arg V main_arg3 (by decide)
theorem arg4_eq : after ops V (main_arg4 : DevRef τ sig) = V (main_arg4 : DevRef τ sig) := by
  rw [after_ops_val]
  exact val14_arg V main_arg4 (by decide)
theorem arg5_eq : after ops V (main_arg5 : DevRef τ sig) = V (main_arg5 : DevRef τ sig) := by
  rw [after_ops_val]
  exact val14_arg V main_arg5 (by decide)
theorem arg6_eq : after ops V (main_arg6 : DevRef τ sig) = V (main_arg6 : DevRef τ sig) := by
  rw [after_ops_val]
  exact val14_arg V main_arg6 (by decide)
theorem arg7_eq : after ops V (main_arg7 : DevRef τ sig) = V (main_arg7 : DevRef τ sig) := by
  rw [after_ops_val]
  exact val14_arg V main_arg7 (by decide)
theorem arg8_eq : after ops V (main_arg8 : DevRef τ sig) = V (main_arg8 : DevRef τ sig) := by
  rw [after_ops_val]
  exact val14_arg V main_arg8 (by decide)
theorem arg9_eq : after ops V (main_arg9 : DevRef τ sig) = V (main_arg9 : DevRef τ sig) := by
  rw [after_ops_val]
  exact val14_arg V main_arg9 (by decide)
theorem arg10_eq : after ops V (main_arg10 : DevRef τ sig) = V (main_arg10 : DevRef τ sig) := by
  rw [after_ops_val]
  exact val14_arg V main_arg10 (by decide)
theorem arg11_eq : after ops V (main_arg11 : DevRef τ sig) = V (main_arg11 : DevRef τ sig) := by
  rw [after_ops_val]
  exact val14_arg V main_arg11 (by decide)
theorem arg12_eq : after ops V (main_arg12 : DevRef τ sig) = V (main_arg12 : DevRef τ sig) := by
  rw [after_ops_val]
  exact val14_arg V main_arg12 (by decide)
theorem arg13_eq : after ops V (main_arg13 : DevRef τ sig) = V (main_arg13 : DevRef τ sig) := by
  rw [after_ops_val]
  exact val14_arg V main_arg13 (by decide)
theorem arg14_eq : after ops V (main_arg14 : DevRef τ sig) = V (main_arg14 : DevRef τ sig) := by
  rw [after_ops_val]
  exact val14_arg V main_arg14 (by decide)
theorem arg15_eq : after ops V (main_arg15 : DevRef τ sig) = V (main_arg15 : DevRef τ sig) := by
  rw [after_ops_val]
  exact val14_arg V main_arg15 (by decide)
theorem arg16_eq : after ops V (main_arg16 : DevRef τ sig) = V (main_arg16 : DevRef τ sig) := by
  rw [after_ops_val]
  exact val14_arg V main_arg16 (by decide)
theorem arg17_eq : after ops V (main_arg17 : DevRef τ sig) = V (main_arg17 : DevRef τ sig) := by
  rw [after_ops_val]
  exact val14_arg V main_arg17 (by decide)

/-- At the compiled mesh, from any memory with zero counters: every weakly fair execution of the reference program
    terminates with its result buffer at the specification's network of the argument arrays, and the argument arrays
    unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v205)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (Cert.ReferenceIdeal.defs (F := Ideal)) _ _).mono
    (fun _ h c => ⟨(h c main_v205).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c))⟩)
    (run_main m ρ)

end Cert.ReferenceIdeal.RefValue

end
-- ==== Proof.lean ====
/-
  The proof of the claim: a three-layer graph network whose row-wise stages run as eleven tiled kernels, against the same
  network written with whole-array operations.

  Over the extended reals both programs compute ONE function of the argument arrays (Proof/Spec.lean): every kernel
  region's output array is the corresponding row-wise stage function of the arrays it finds (Proof/KRegions.lean — a
  block of the result depends only on the same rows of the row-tiled operands and on the weights every block sees whole,
  and the blocks tile the array), the operations between the regions (the gather along the edges, the sums by index, the
  column mean and variance, the cuts of the stacked weights) are the same operations in both programs (Proof/KHost.lean,
  Proof/KStitch.lean), and the reference's whole-array spellings of the row-wise stages are those stage functions
  (Proof/RefValue.lean). No law of arithmetic beyond this identification is used, so the precondition is never opened.
  The idealization rewrote nothing, so its conjunct is trivial; the kernel programs' frames are the generated ones and the
  reference's frame is its run with the result dropped.
-/
import proofs.«173900_j6880537608212_1_alg».proof.Defs
import proofs.«173900_j6880537608212_1_alg».proof.Proof.Gen.Kernel
import proofs.«173900_j6880537608212_1_alg».proof.Proof.Gen.Kernel.Frame
import proofs.«173900_j6880537608212_1_alg».proof.Proof.Gen.KernelIdeal
import proofs.«173900_j6880537608212_1_alg».proof.Proof.Gen.KernelIdeal.Frame
import proofs.«173900_j6880537608212_1_alg».proof.Proof.Gen.ReferenceIdeal
import proofs.«173900_j6880537608212_1_alg».proof.Proof.Gen.Pre_finite_inputs
import proofs.«173900_j6880537608212_1_alg».proof.Proof.Spec
import proofs.«173900_j6880537608212_1_alg».proof.Proof.KRun
import proofs.«173900_j6880537608212_1_alg».proof.Proof.KStitch
import proofs.«173900_j6880537608212_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both runs end with the result array at the specification's function of the argument arrays, which agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.KStitch.result_eq m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefValue.run m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
